-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S2x800000 : Shape := ⟨2, ![2, 800000]⟩
abbrev S384x256 : Shape := ⟨2, ![384, 256]⟩
abbrev S256 : Shape := ⟨1, ![256]⟩
abbrev S256x256 : Shape := ⟨2, ![256, 256]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x384 .f32) (main_arg1 : IVec S2x800000 32) (main_arg2 : FVec F S384x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S384x256 .f32 := Host.absf main_arg2
  let main_cst_0 : FVec F S_ .f32 := constant S_ .f32 0x7F800000#32
  let main_v5 : FVec F S384x256 .f32 := broadcastInDim S384x256 ![] bcast_S_S384x256 main_cst_0
  let main_v6 : IVec S384x256 1 := cmpf .olt main_v4 main_v5
  let main_c_1 : IVec S_ 1 := constantI S_ 1 1#1
  let main_v7 : IVec S_ 1 := (fun x v => Host.reduce IntOp.andi x v reducesTo_S384x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x384 : Shape := ⟨2, ![100000, 384]⟩
abbrev S2x800000 : Shape := ⟨2, ![2, 800000]⟩
abbrev S384x256 : Shape := ⟨2, ![384, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S100000x256 : Shape := ⟨2, ![100000, 256]⟩
abbrev S5000x384 : Shape := ⟨2, ![5000, 384]⟩
abbrev S5000x256 : Shape := ⟨2, ![5000, 256]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S5000x1 : Shape := ⟨2, ![5000, 1]⟩

abbrev nBuf : Space → Nat
  | .hbm => 180
  | .vmem => 48
  | .smem => 0
  | _ => 0

abbrev hbmTy0_0 (i : Nat) : BufTy := match i % 128 with
  | 0 => ⟨S100000x384, .f32⟩
  | 1 => ⟨S2x800000, .i32⟩
  | 2 => ⟨S384x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S1x800000, .i32⟩
  | 11 => ⟨S800000, .i32⟩
  | 12 => ⟨S1x800000, .i32⟩
  | 13 => ⟨S800000, .i32⟩
  | 14 => ⟨S100000x256, .f32⟩
  | 15 => ⟨S_, .f32⟩
  | 16 => ⟨S100000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S800000x1, .f32⟩
  | 64 => ⟨S800000x256, .f32⟩
  | 65 => ⟨S800000x256, .f32⟩
  | 66 => ⟨S_, .f32⟩
  | 67 => ⟨S100000x256, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S100000x256, .f32⟩
  | 77 => ⟨S100000x1, .f32⟩
  | 78 => ⟨S1x256, .f32⟩
  | 79 => ⟨S100000x256, .f32⟩
  | 80 => ⟨S1x256, .f32⟩
  | 81 => ⟨S1x256, .f32⟩
  | 82 => ⟨S256, .f32⟩
  | 83 => ⟨S_, .f32⟩
  | 84 => ⟨S256, .f32⟩
  | 85 => ⟨S256, .f32⟩
  | 86 => ⟨S256, .f32⟩
  | 87 => ⟨S_, .f32⟩
  | 88 => ⟨S256, .f32⟩
  | 89 => ⟨S256, .f32⟩
  | 90 => ⟨S256, .f32⟩
  | 91 => ⟨S256, .f32⟩
  | 92 => ⟨S1x256, .f32⟩
  | 93 => ⟨S1x256, .f32⟩
  | 94 => ⟨S1x256, .f32⟩
  | 95 => ⟨S1x256, .f32⟩
  | 96 => ⟨S100000x256, .f32⟩
  | 97 => ⟨S100000x256, .f32⟩
  | 98 => ⟨S_, .f32⟩
  | 99 => ⟨S100000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S_, .f32⟩
  | 109 => ⟨S800000, .f32⟩
  | 110 => ⟨S100000, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S100000x384, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x256, .f32⟩
  | 18 => ⟨S800000x1, .f32⟩
  | 19 => ⟨S800000x256, .f32⟩
  | 20 => ⟨S800000x256, .f32⟩
  | 21 => ⟨S_, .f32⟩
  | 22 => ⟨S100000x256, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S100000x256, .f32⟩
  | 32 => ⟨S100000x1, .f32⟩
  | 33 => ⟨S1x256, .f32⟩
  | 34 => ⟨S100000x256, .f32⟩
  | 35 => ⟨S1x256, .f32⟩
  | 36 => ⟨S1x256, .f32⟩
  | 37 => ⟨S256, .f32⟩
  | 38 => ⟨S_, .f32⟩
  | 39 => ⟨S256, .f32⟩
  | 40 => ⟨S256, .f32⟩
  | 41 => ⟨S256, .f32⟩
  | 42 => ⟨S_, .f32⟩
  | 43 => ⟨S256, .f32⟩
  | 44 => ⟨S256, .f32⟩
  | 45 => ⟨S256, .f32⟩
  | 46 => ⟨S256, .f32⟩
  | 47 => ⟨S1x256, .f32⟩
  | 48 => ⟨S1x256, .f32⟩
  | 49 => ⟨S1x256, .f32⟩
  | 50 => ⟨S1x256, .f32⟩
  | 51 => ⟨S100000x256, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S256x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x1, .f32⟩
  | .local _ .vmem, ⟨34, _⟩ => ⟨S5000x1, .f32⟩
  | .local _ .vmem, ⟨35, _⟩ => ⟨S1x256, .f32⟩
  | .local _ .vmem, ⟨36, _⟩ => ⟨S5000x256, .f32⟩
  | .local _ .vmem, ⟨37, _⟩ => ⟨S5000x256, .f32⟩
  | .local _ .vmem, ⟨38, _⟩ => ⟨S1x256, .f32⟩
  | .local _ .vmem, ⟨39, _⟩ => ⟨S1x256, .f32⟩
  | .local _ .vmem, ⟨40, _⟩ => ⟨S5000x256, .f32⟩
  | .local _ .vmem, ⟨41, _⟩ => ⟨S5000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S5000x256, .f32⟩
  | .local _ .vmem, ⟨47, _⟩ => ⟨S5000x256, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v54_2 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩
abbrev main_cst_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_21 : Ref sig .tc := ⟨.hbm, 118, rfl⟩
abbrev main_v83 : Ref sig .tc := ⟨.hbm, 119, rfl⟩
abbrev main_v84 : Ref sig .tc := ⟨.hbm, 120, rfl⟩
abbrev main_c_22 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_23 : Ref sig .tc := ⟨.hbm, 127, rfl⟩
abbrev main_v90 : Ref sig .tc := ⟨.hbm, 128, rfl⟩
abbrev main_v91 : Ref sig .tc := ⟨.hbm, 129, rfl⟩
abbrev main_c_24 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_25 : Ref sig .tc := ⟨.hbm, 137, rfl⟩
abbrev main_v98 : Ref sig .tc := ⟨.hbm, 138, rfl⟩
abbrev main_v99 : Ref sig .tc := ⟨.hbm, 139, rfl⟩
abbrev main_c_26 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_27 : Ref sig .tc := ⟨.hbm, 149, rfl⟩
abbrev main_v108 : Ref sig .tc := ⟨.hbm, 150, rfl⟩
abbrev main_c_28 : Ref sig .tc := ⟨.hbm, 151, rfl⟩
abbrev main_v109 : Ref sig .tc := ⟨.hbm, 152, rfl⟩
abbrev main_v110 : Ref sig .tc := ⟨.hbm, 153, rfl⟩
abbrev main_c_29 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118_0 : Ref sig .tc := ⟨.hbm, 162, rfl⟩
abbrev main_v118_1 : Ref sig .tc := ⟨.hbm, 163, rfl⟩
abbrev main_v118_2 : Ref sig .tc := ⟨.hbm, 164, rfl⟩
abbrev main_v119 : Ref sig .tc := ⟨.hbm, 165, rfl⟩
abbrev main_cst_30 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_31 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S5000x256_S5000x256_0_0 : ∀ a, (![0, 0] : Fin 2 → Nat) a + S5000x256.size a ≤ S5000x256.size a
  h_S5000x256 : 0 < S5000x256.numel
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S100000_S100000x1 : S100000.ShapeCasts S100000x1
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  shapeCasts_S1x256_S1x256 : S1x256.ShapeCasts S1x256
  broadcasts_S1x256_S5000x256 : S1x256.Broadcasts S5000x256
  reduces_S5000x256_S256 : S5000x256.Reduces [0] S256
  shapeCasts_S1x256_S256 : S1x256.ShapeCasts S256
  bcast_S_S256 : S_.BroadcastsInDim S256 (![] : Fin 0 → Fin S256.rank)
  inb_S256x256_S256x256_0_0 : ∀ a, (![0, 0] : Fin 2 → Nat) a + S256x256.size a ≤ S256x256.size a
  h_S256x256 : 0 < S256x256.numel
  dot_S5000x384_S384x256_S5000x256_1_0_0_1_n_n_wf : DotDims.WF S5000x384 S384x256 S5000x256 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S100000x384.size a
  hwx0_0 : ∀ i : grid0.Coords, EltTy.bits .f32 = 32 ∨ (Rect.block (s := S100000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .f32 = 32 ∨ (Rect.block (s := S384x256) S384x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S100000x256.size a
  hwx1_4 : ∀ i : grid1.Coords, EltTy.bits .f32 = 32 ∨ (Rect.block (s := S100000x256) S5000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S100000x256.size a
  hwx2_5 : ∀ i : grid2.Coords, EltTy.bits .f32 = 32 ∨ (Rect.block (s := S100000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S100000x256.size a
  hwx3_2 : ∀ i : grid3.Coords, EltTy.bits .f32 = 32 ∨ (Rect.block (s := S100000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S100000x256.size a
  hwx4_1 : ∀ i : grid4.Coords, EltTy.bits .f32 = 32 ∨ (Rect.block (s := S100000x256) S5000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x256.size a ≤ S100000x256.size a
  hwx4_4 : ∀ i : grid4.Coords, EltTy.bits .f32 = 32 ∨ (Rect.block (s := S100000x256) S5000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .f32 = 32 ∨ (Rect.block (s := S100000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S100000x256.size a
  hwx5_5 : ∀ i : grid5.Coords, EltTy.bits .f32 = 32 ∨ (Rect.block (s := S100000x256) S5000x256.size (cc5_transform_5 i) (hinb5_5 i)).WholeWords (EltTy.packing .f32)

variable [Facts₀]

def dot_S5000x384_S384x256_S5000x256_1_0_0_1_n_n : DotDims S5000x384 S384x256 S5000x256 where
  lhsContracting := [1]
  rhsContracting := [0]
  lhsNonContracting := [0]
  rhsNonContracting := [1]
  lhsBatch := []
  rhsBatch := []
  wf := dot_S5000x384_S384x256_S5000x256_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54_0) S5000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v54_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v115) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v116) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v117) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118_0) S5000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v118_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v118_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v118_0) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x384 : Shape := ⟨2, ![100000, 384]⟩
abbrev S2x800000 : Shape := ⟨2, ![2, 800000]⟩
abbrev S384x256 : Shape := ⟨2, ![384, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S100000x256 : Shape := ⟨2, ![100000, 256]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩

abbrev nBuf : Space → Nat
  | .hbm => 220
  | .vmem => 0
  | .smem => 0
  | _ => 0

abbrev hbmTy0_0 (i : Nat) : BufTy := match i % 128 with
  | 0 => ⟨S100000x384, .f32⟩
  | 1 => ⟨S2x800000, .i32⟩
  | 2 => ⟨S384x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S1x800000, .i32⟩
  | 11 => ⟨S800000, .i32⟩
  | 12 => ⟨S1x800000, .i32⟩
  | 13 => ⟨S800000, .i32⟩
  | 14 => ⟨S100000x256, .f32⟩
  | 15 => ⟨S_, .f32⟩
  | 16 => ⟨S100000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .f32⟩
  | 52 => ⟨S100000x256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S800000x1, .f32⟩
  | 63 => ⟨S800000x256, .f32⟩
  | 64 => ⟨S800000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S100000x256, .f32⟩
  | 74 => ⟨S_, .f32⟩
  | 75 => ⟨S100000, .f32⟩
  | 76 => ⟨S100000, .f32⟩
  | 77 => ⟨S100000x1, .f32⟩
  | 78 => ⟨S100000x256, .f32⟩
  | 79 => ⟨S100000x256, .f32⟩
  | 80 => ⟨S100000x256, .f32⟩
  | 81 => ⟨S1x256, .f32⟩
  | 82 => ⟨S100000x256, .f32⟩
  | 83 => ⟨S100000x256, .f32⟩
  | 84 => ⟨S_, .f32⟩
  | 85 => ⟨S256, .f32⟩
  | 86 => ⟨S_, .f32⟩
  | 87 => ⟨S256, .f32⟩
  | 88 => ⟨S256, .f32⟩
  | 89 => ⟨S1x256, .f32⟩
  | 90 => ⟨S100000x256, .f32⟩
  | 91 => ⟨S100000x256, .f32⟩
  | 92 => ⟨S100000x256, .f32⟩
  | 93 => ⟨S_, .f32⟩
  | 94 => ⟨S256, .f32⟩
  | 95 => ⟨S_, .f32⟩
  | 96 => ⟨S256, .f32⟩
  | 97 => ⟨S256, .f32⟩
  | 98 => ⟨S1x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S_, .f32⟩
  | 105 => ⟨S256, .f32⟩
  | 106 => ⟨S256, .f32⟩
  | 107 => ⟨S256, .f32⟩
  | 108 => ⟨S1x256, .f32⟩
  | 109 => ⟨S100000x256, .f32⟩
  | 110 => ⟨S100000x256, .f32⟩
  | 111 => ⟨S1x256, .f32⟩
  | 112 => ⟨S100000x256, .f32⟩
  | 113 => ⟨S100000x256, .f32⟩
  | 114 => ⟨S_, .f32⟩
  | 115 => ⟨S100000x256, .f32⟩
  | 116 => ⟨S100000x256, .f32⟩
  | 117 => ⟨S100000x256, .f32⟩
  | 118 => ⟨S_, .f32⟩
  | 119 => ⟨S100000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000x384, .f32⟩

abbrev hbmTy0_1 (i : Nat) : BufTy := match i % 128 with
  | 0 => ⟨S_, .f32⟩
  | 1 => ⟨S800000, .f32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S800000, .f32⟩
  | 26 => ⟨S_, .f32⟩
  | 27 => ⟨S100000x256, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x256, .f32⟩
  | 37 => ⟨S800000x1, .f32⟩
  | 38 => ⟨S800000x256, .f32⟩
  | 39 => ⟨S800000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S100000x256, .f32⟩
  | 49 => ⟨S_, .f32⟩
  | 50 => ⟨S100000, .f32⟩
  | 51 => ⟨S100000, .f32⟩
  | 52 => ⟨S100000x1, .f32⟩
  | 53 => ⟨S100000x256, .f32⟩
  | 54 => ⟨S100000x256, .f32⟩
  | 55 => ⟨S100000x256, .f32⟩
  | 56 => ⟨S1x256, .f32⟩
  | 57 => ⟨S100000x256, .f32⟩
  | 58 => ⟨S100000x256, .f32⟩
  | 59 => ⟨S_, .f32⟩
  | 60 => ⟨S256, .f32⟩
  | 61 => ⟨S_, .f32⟩
  | 62 => ⟨S256, .f32⟩
  | 63 => ⟨S256, .f32⟩
  | 64 => ⟨S1x256, .f32⟩
  | 65 => ⟨S100000x256, .f32⟩
  | 66 => ⟨S100000x256, .f32⟩
  | 67 => ⟨S100000x256, .f32⟩
  | 68 => ⟨S_, .f32⟩
  | 69 => ⟨S256, .f32⟩
  | 70 => ⟨S_, .f32⟩
  | 71 => ⟨S256, .f32⟩
  | 72 => ⟨S256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S256, .f32⟩
  | 81 => ⟨S256, .f32⟩
  | 82 => ⟨S256, .f32⟩
  | 83 => ⟨S1x256, .f32⟩
  | 84 => ⟨S100000x256, .f32⟩
  | 85 => ⟨S100000x256, .f32⟩
  | 86 => ⟨S1x256, .f32⟩
  | 87 => ⟨S100000x256, .f32⟩
  | 88 => ⟨S100000x256, .f32⟩
  | 89 => ⟨S_, .f32⟩
  | 90 => ⟨S100000x256, .f32⟩
  | 91 => ⟨S100000x256, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call0_cst : Ref sig .tc := ⟨.hbm, 114, rfl⟩
abbrev main_call0_v0 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_c_19 : Ref sig .tc := ⟨.hbm, 120, rfl⟩
abbrev main_v87 : Ref sig .tc := ⟨.hbm, 121, rfl⟩
abbrev main_v88 : Ref sig .tc := ⟨.hbm, 122, rfl⟩
abbrev main_c_20 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_23 : Ref sig .tc := ⟨.hbm, 135, rfl⟩
abbrev main_v98 : Ref sig .tc := ⟨.hbm, 136, rfl⟩
abbrev main_v99 : Ref sig .tc := ⟨.hbm, 137, rfl⟩
abbrev main_c_24 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_25 : Ref sig .tc := ⟨.hbm, 144, rfl⟩
abbrev main_v105 : Ref sig .tc := ⟨.hbm, 145, rfl⟩
abbrev main_v106 : Ref sig .tc := ⟨.hbm, 146, rfl⟩
abbrev main_c_26 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_27 : Ref sig .tc := ⟨.hbm, 154, rfl⟩
abbrev main_v113 : Ref sig .tc := ⟨.hbm, 155, rfl⟩
abbrev main_c_28 : Ref sig .tc := ⟨.hbm, 156, rfl⟩
abbrev main_v114 : Ref sig .tc := ⟨.hbm, 157, rfl⟩
abbrev main_v115 : Ref sig .tc := ⟨.hbm, 158, rfl⟩
abbrev main_c_29 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_30 : Ref sig .tc := ⟨.hbm, 168, rfl⟩
abbrev main_v124 : Ref sig .tc := ⟨.hbm, 169, rfl⟩
abbrev main_v125 : Ref sig .tc := ⟨.hbm, 170, rfl⟩
abbrev main_c_31 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_32 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_33 : Ref sig .tc := ⟨.hbm, 187, rfl⟩
abbrev main_v140 : Ref sig .tc := ⟨.hbm, 188, rfl⟩
abbrev main_cst_34 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_35 : Ref sig .tc := ⟨.hbm, 196, rfl⟩
abbrev main_v147 : Ref sig .tc := ⟨.hbm, 197, rfl⟩
abbrev main_cst_36 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_37 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_call1_cst : Ref sig .tc := ⟨.hbm, 217, rfl⟩
abbrev main_call1_v0 : Ref sig .tc := ⟨.hbm, 218, rfl⟩
abbrev main_v165 : Ref sig .tc := ⟨.hbm, 219, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S800000x1_S800000x256_0_1 : S800000x1.BroadcastsInDim S800000x256 (![0, 1] : Fin 2 → Fin S800000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  dot_S100000x384_S384x256_S100000x256_1_0_0_1_n_n_wf : DotDims.WF S100000x384 S384x256 S100000x256 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []

variable [Facts₀]

def dot_S100000x384_S384x256_S100000x256_1_0_0_1_n_n : DotDims S100000x384 S384x256 S100000x256 where
  lhsContracting := [1]
  rhsContracting := [0]
  lhsNonContracting := [0]
  rhsNonContracting := [1]
  lhsBatch := []
  rhsBatch := []
  wf := dot_S100000x384_S384x256_S100000x256_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run with its RESULT named.

  @main is eleven segments: five stretches of host operations and six kernel regions. The contents of every buffer at
  each segment boundary are a fold from the launch memory: a host stretch applies its operations, a region leaves each
  of its output arrays at what its write-backs produce and every other buffer as it found it. Every weakly fair
  execution terminates without a fault in a state whose unscoped buffers hold the last boundary's contents. Read at
  the ten argument arrays this is the frame claim; read ALSO at the result buffer it says the result is the last
  boundary's contents there, which is what the comparison with the reference starts from.
-/
import proofs.«100399_j30279519436917_1_alg».proof.Proof.Gen.KernelIdeal.Frame

set_option maxRecDepth 16384

noncomputable section

namespace Cert.KernelIdeal.ResultRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the ten argument arrays as launched. -/
theorem run_result : θ_run defs (onTc (τ := τ) (main (F := F))) ⟨m, fun _ => 0, ρ⟩ (fun r => ∀ c : Dev nD,
      r.2.mem ((c.tc : Thread nD τ).loc main_v131) = W11 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v131 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.ResultRun

end
-- ==== Proof.Reals.lean ====
/-
  Shared vocabulary: arrays whose entries are real numbers, and the float literals both programs spell.

  An array of extended reals is REAL when every entry is a real number (neither infinity). The variance identity
  E[y²] − (E[y])² = E[(y − E[y])²], the one law that joins the kernel's batch normalisation to the reference's, holds
  at real entries and fails at infinite ones, so the proof carries this predicate from the inputs through both layers.

  The float literals both programs spell, as the extended reals their words denote: +0.0, 1.0, the node count
  100000.0 (exactly representable), and the batch-norm epsilon (the single-precision neighbour of 1e-5, a positive real;
  only its sign is ever used, since both programs add the same word).
-/
import Idealize.ShloMosaic.PureOps.Ideal
import Idealize.ShloMosaic.PureOps.Ideal.Laws

noncomputable section

namespace Cert.Reals

open Idealize.ShloMosaic

/-- Every entry of the array is a real number. -/
def AllReal {ι : Type*} (x : ι → EReal) : Prop := ∀ i, ∃ r : ℝ, x i = (r : EReal)

theorem AllReal.apply {ι : Type*} {x : ι → EReal} (h : AllReal x) (i : ι) : ∃ r : ℝ, x i = (r : EReal) := h i

/-- Entries read from a real array through any index map are real. -/
theorem AllReal.comp {ι κ : Type*} {x : ι → EReal} (h : AllReal x) (f : κ → ι) : AllReal (fun k => x (f k)) :=
  fun k => h (f k)

/-- `+0.0` denotes `0`. -/
theorem ofBits_zero : Ideal.ofBits .f32 0x00000000#32 = 0 := Ideal.ofBits_zero_f32

/-- `1.0` denotes `1`. -/
theorem ofBits_one : Ideal.ofBits .f32 0x3F800000#32 = ((1 : ℝ) : EReal) := by
  simp [Ideal.ofBits, Ideal.ieee, -EReal.coe_mul]; norm_num

/-- `100000.0`, the number of rows both programs divide the column sums by, denotes the real `100000`. -/
theorem ofBits_rows : Ideal.ofBits .f32 0x47C35000#32 = ((100000 : ℝ) : EReal) := by
  simp [Ideal.ofBits, Ideal.ieee, -EReal.coe_mul]; norm_num

/-- The batch-norm epsilon's word denotes a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

end Cert.Reals

end
-- ==== Proof.RefForms.lean ====
/-
  The reference program's stages, each read in one step at explicit coordinates.

  The reference computes, per layer: a dense product (a contraction over the input features), the neighbour aggregate
  plus the scaled own product plus a bias, the column mean and the column variance over the 100000 rows (each sum
  started from +0.0 and divided by the word of 100000.0), and the normalised, scaled, shifted and rectified output.
  Each theorem states one of these stages at row r and column q in plain extended-real notation, the deeper stages left
  as they are.
-/
import proofs.«100399_j30279519436917_1_alg».proof.Proof.RefRead
import proofs.«100399_j30279519436917_1_alg».proof.Proof.Reals
import Idealize.ShloMosaic.Lib.ValueIdx

noncomputable section

open scoped BigOperators

namespace Cert.RefForms

open Idealize.ShloMosaic Idealize.ShloMosaic.ValueIdx Cert.ReferenceIdeal Cert.ReferenceIdeal.Read

/-! ## Layer 1 -/

/-- The dense product of layer 1 at row r, column q: the contraction over the 384 input features. -/
theorem h_apply (x0 : (⟨S100000x384, .f32⟩ : BufTy).Contents (Elt Ideal)) (x2 : (⟨S384x256, .f32⟩ : BufTy).Contents (Elt Ideal)) (r : Fin 100000) (q : Fin 256) :
    val_main_v4 (F := Ideal) x0 x2 (ix2 r q) = ∑ k : Fin 384, x0 (ix2 r k) * x2 (ix2 k q) := by
  rw [val_main_v4_apply]
  refine Finset.sum_congr rfl fun k _ => ?_
  have el : lidx_main_v4 (ix2 r q) k = ix2 r k := funext fun a => Fin.ext (by match a with | ⟨0, _⟩ => rfl | ⟨1, _⟩ => rfl)
  have er : ridx_main_v4 (ix2 r q) k = ix2 k q := funext fun a => Fin.ext (by match a with | ⟨0, _⟩ => rfl | ⟨1, _⟩ => rfl)
  rw [el, er]

/-- The pre-normalisation activation of layer 1 at row r, column q: the neighbour aggregate, plus the node's own
    product scaled by its reciprocal degree (a per-row factor), plus the bias of the column. -/
theorem y1_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (r : Fin 100000) (q : Fin 256) :
    val_main_v58 (F := Ideal) x0 x1 x2 x3 (ix2 r q)
      = (val_main_v49 (F := Ideal) x0 x1 x2 (ix2 r q)
          + val_main_v4 (F := Ideal) x0 x2 (ix2 r q) * val_main_v51 (F := Ideal) x1 (ix1 r))
        + x3 (ix1 q) := by
  rw [val_main_v58_apply, val_main_v55_apply, val_main_v54_apply, val_main_v53_apply, val_main_v52_apply, val_main_v57_apply, val_main_v56_apply]
  have e1 : idx_main_v52 (idx_main_v53 (ix2 r q)) = ix1 r := funext fun a => Fin.ext (by match a with | ⟨0, _⟩ => rfl)
  have e2 : idx_main_v56 (idx_main_v57 (ix2 r q)) = ix1 q := funext fun a => Fin.ext (by match a with | ⟨0, _⟩ => rfl)
  rw [e1, e2]
  rfl

/-- The column mean of layer 1: the sum of the column over the 100000 rows, from +0.0, over the row count. -/
theorem mean1_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (q : Fin 256) :
    val_main_v61 (F := Ideal) x0 x1 x2 x3 (ix1 q)
      = Ideal.div (Ideal.ofBits .f32 0x00000000#32 + ∑ k : Fin 100000, val_main_v58 (F := Ideal) x0 x1 x2 x3 (ix2 k q)) (Ideal.ofBits .f32 0x47C35000#32) := by
  rw [val_main_v61_apply, val_main_v59_apply, val_main_v60_apply, val_main_cst_14_apply, val_main_cst_13_apply]
  have e : ∀ k : Fin 100000, idx_main_v59 (ix1 q) k = ix2 k q := fun k => funext fun a => Fin.ext (by match a with | ⟨0, _⟩ => rfl | ⟨1, _⟩ => rfl)
  simp only [e]
  rfl

/-- The column variance of layer 1: the mean of the squared deviations from the column mean. -/
theorem var1_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (q : Fin 256) :
    val_main_v68 (F := Ideal) x0 x1 x2 x3 (ix1 q)
      = Ideal.div (Ideal.ofBits .f32 0x00000000#32 + ∑ k : Fin 100000,
            (val_main_v58 (F := Ideal) x0 x1 x2 x3 (ix2 k q) - val_main_v61 (F := Ideal) x0 x1 x2 x3 (ix1 q))
              * (val_main_v58 (F := Ideal) x0 x1 x2 x3 (ix2 k q) - val_main_v61 (F := Ideal) x0 x1 x2 x3 (ix1 q))) (Ideal.ofBits .f32 0x47C35000#32) := by
  rw [val_main_v68_apply, val_main_v66_apply, val_main_v67_apply, val_main_cst_16_apply, val_main_cst_15_apply]
  have e : ∀ k : Fin 100000, val_main_v65 (F := Ideal) x0 x1 x2 x3 (idx_main_v66 (ix1 q) k)
      = (val_main_v58 (F := Ideal) x0 x1 x2 x3 (ix2 k q) - val_main_v61 (F := Ideal) x0 x1 x2 x3 (ix1 q)) * (val_main_v58 (F := Ideal) x0 x1 x2 x3 (ix2 k q) - val_main_v61 (F := Ideal) x0 x1 x2 x3 (ix1 q)) := by
    intro k
    have e1 : idx_main_v66 (ix1 q) k = ix2 k q := funext fun a => Fin.ext (by match a with | ⟨0, _⟩ => rfl | ⟨1, _⟩ => rfl)
    have e2 : idx_main_v62 (idx_main_v63 (ix2 k q)) = ix1 q := funext fun a => Fin.ext (by match a with | ⟨0, _⟩ => rfl)
    rw [e1, val_main_v65_apply, val_main_v64_apply, val_main_v63_apply, val_main_v62_apply, e2]
    rfl
  simp only [e]
  rfl

/-- The output of layer 1 at row r, column q: the centred activation scaled by gamma and by the reciprocal square
    root of variance plus epsilon, shifted by beta, then the positive part. -/
theorem out1_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (r : Fin 100000) (q : Fin 256) :
    val_main_v84 (F := Ideal) x0 x1 x2 x3 x4 x5 (ix2 r q)
      = max ((x4 (ix1 q) * (val_main_v58 (F := Ideal) x0 x1 x2 x3 (ix2 r q) - val_main_v61 (F := Ideal) x0 x1 x2 x3 (ix1 q)))
              * Ideal.rsqrt (val_main_v68 (F := Ideal) x0 x1 x2 x3 (ix1 q) + Ideal.ofBits .f32 0x3727C5AC#32)
            + x5 (ix1 q)) (Ideal.ofBits .f32 0x00000000#32) := by
  rw [val_main_v84_apply, val_main_call0_v0_apply, val_main_call0_cst_apply, val_main_v83_apply, val_main_v82_apply, val_main_v81_apply,
    val_main_v80_apply, val_main_v79_apply, val_main_v78_apply, val_main_v77_apply, val_main_v76_apply, val_main_v75_apply, val_main_cst_17_apply,
    val_main_v74_apply, val_main_v73_apply, val_main_v72_apply, val_main_v71_apply, val_main_v70_apply, val_main_v69_apply]
  have e1 : idx_main_v81 (idx_main_v82 (ix2 r q)) = ix1 q := funext fun a => Fin.ext (by match a with | ⟨0, _⟩ => rfl)
  have e2 : idx_main_v78 (idx_main_v79 (ix2 r q)) = ix1 q := funext fun a => Fin.ext (by match a with | ⟨0, _⟩ => rfl)
  have e3 : idx_main_v72 (idx_main_v73 (ix2 r q)) = ix1 q := funext fun a => Fin.ext (by match a with | ⟨0, _⟩ => rfl)
  have e4 : idx_main_v69 (idx_main_v70 (ix2 r q)) = ix1 q := funext fun a => Fin.ext (by match a with | ⟨0, _⟩ => rfl)
  rw [e1, e2, e3, e4]
  rfl

/-! ## Layer 2 -/

/-- The dense product of layer 2 at row r, column q: the contraction over the 256 input features. -/
theorem h2_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (r : Fin 100000) (q : Fin 256) :
    val_main_v85 (F := Ideal) x0 x1 x2 x3 x4 x5 x6 (ix2 r q) = ∑ k : Fin 256, val_main_v84 (F := Ideal) x0 x1 x2 x3 x4 x5 (ix2 r k) * x6 (ix2 k q) := by
  rw [val_main_v85_apply]
  refine Finset.sum_congr rfl fun k _ => ?_
  have el : lidx_main_v85 (ix2 r q) k = ix2 r k := funext fun a => Fin.ext (by match a with | ⟨0, _⟩ => rfl | ⟨1, _⟩ => rfl)
  have er : ridx_main_v85 (ix2 r q) k = ix2 k q := funext fun a => Fin.ext (by match a with | ⟨0, _⟩ => rfl | ⟨1, _⟩ => rfl)
  rw [el, er]

/-- The pre-normalisation activation of layer 2 at row r, column q: the neighbour aggregate, plus the node's own
    product scaled by its reciprocal degree (a per-row factor), plus the bias of the column. -/
theorem y2_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (r : Fin 100000) (q : Fin 256) :
    val_main_v139 (F := Ideal) x0 x1 x2 x3 x4 x5 x6 x7 (ix2 r q)
      = (val_main_v130 (F := Ideal) x0 x1 x2 x3 x4 x5 x6 (ix2 r q)
          + val_main_v85 (F := Ideal) x0 x1 x2 x3 x4 x5 x6 (ix2 r q) * val_main_v132 (F := Ideal) x1 (ix1 r))
        + x7 (ix1 q) := by
  rw [val_main_v139_apply, val_main_v136_apply, val_main_v135_apply, val_main_v134_apply, val_main_v133_apply, val_main_v138_apply, val_main_v137_apply]
  have e1 : idx_main_v133 (idx_main_v134 (ix2 r q)) = ix1 r := funext fun a => Fin.ext (by match a with | ⟨0, _⟩ => rfl)
  have e2 : idx_main_v137 (idx_main_v138 (ix2 r q)) = ix1 q := funext fun a => Fin.ext (by match a with | ⟨0, _⟩ => rfl)
  rw [e1, e2]
  rfl

/-- The column mean of layer 2: the sum of the column over the 100000 rows, from +0.0, over the row count. -/
theorem mean2_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (q : Fin 256) :
    val_main_v142 (F := Ideal) x0 x1 x2 x3 x4 x5 x6 x7 (ix1 q)
      = Ideal.div (Ideal.ofBits .f32 0x00000000#32 + ∑ k : Fin 100000, val_main_v139 (F := Ideal) x0 x1 x2 x3 x4 x5 x6 x7 (ix2 k q)) (Ideal.ofBits .f32 0x47C35000#32) := by
  rw [val_main_v142_apply, val_main_v140_apply, val_main_v141_apply, val_main_cst_34_apply, val_main_cst_33_apply]
  have e : ∀ k : Fin 100000, idx_main_v140 (ix1 q) k = ix2 k q := fun k => funext fun a => Fin.ext (by match a with | ⟨0, _⟩ => rfl | ⟨1, _⟩ => rfl)
  simp only [e]
  rfl

/-- The column variance of layer 2: the mean of the squared deviations from the column mean. -/
theorem var2_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (q : Fin 256) :
    val_main_v149 (F := Ideal) x0 x1 x2 x3 x4 x5 x6 x7 (ix1 q)
      = Ideal.div (Ideal.ofBits .f32 0x00000000#32 + ∑ k : Fin 100000,
            (val_main_v139 (F := Ideal) x0 x1 x2 x3 x4 x5 x6 x7 (ix2 k q) - val_main_v142 (F := Ideal) x0 x1 x2 x3 x4 x5 x6 x7 (ix1 q))
              * (val_main_v139 (F := Ideal) x0 x1 x2 x3 x4 x5 x6 x7 (ix2 k q) - val_main_v142 (F := Ideal) x0 x1 x2 x3 x4 x5 x6 x7 (ix1 q))) (Ideal.ofBits .f32 0x47C35000#32) := by
  rw [val_main_v149_apply, val_main_v147_apply, val_main_v148_apply, val_main_cst_36_apply, val_main_cst_35_apply]
  have e : ∀ k : Fin 100000, val_main_v146 (F := Ideal) x0 x1 x2 x3 x4 x5 x6 x7 (idx_main_v147 (ix1 q) k)
      = (val_main_v139 (F := Ideal) x0 x1 x2 x3 x4 x5 x6 x7 (ix2 k q) - val_main_v142 (F := Ideal) x0 x1 x2 x3 x4 x5 x6 x7 (ix1 q)) * (val_main_v139 (F := Ideal) x0 x1 x2 x3 x4 x5 x6 x7 (ix2 k q) - val_main_v142 (F := Ideal) x0 x1 x2 x3 x4 x5 x6 x7 (ix1 q)) := by
    intro k
    have e1 : idx_main_v147 (ix1 q) k = ix2 k q := funext fun a => Fin.ext (by match a with | ⟨0, _⟩ => rfl | ⟨1, _⟩ => rfl)
    have e2 : idx_main_v143 (idx_main_v144 (ix2 k q)) = ix1 q := funext fun a => Fin.ext (by match a with | ⟨0, _⟩ => rfl)
    rw [e1, val_main_v146_apply, val_main_v145_apply, val_main_v144_apply, val_main_v143_apply, e2]
    rfl
  simp only [e]
  rfl

/-- The output of layer 2 at row r, column q: the centred activation scaled by gamma and by the reciprocal square
    root of variance plus epsilon, shifted by beta, then the positive part. -/
theorem out2_apply (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (r : Fin 100000) (q : Fin 256) :
    val_main_v165 (F := Ideal) x0 x1 x2 x3 x4 x5 x6 x7 x8 x9 (ix2 r q)
      = max ((x8 (ix1 q) * (val_main_v139 (F := Ideal) x0 x1 x2 x3 x4 x5 x6 x7 (ix2 r q) - val_main_v142 (F := Ideal) x0 x1 x2 x3 x4 x5 x6 x7 (ix1 q)))
              * Ideal.rsqrt (val_main_v149 (F := Ideal) x0 x1 x2 x3 x4 x5 x6 x7 (ix1 q) + Ideal.ofBits .f32 0x3727C5AC#32)
            + x9 (ix1 q)) (Ideal.ofBits .f32 0x00000000#32) := by
  rw [val_main_v165_apply, val_main_call1_v0_apply, val_main_call1_cst_apply, val_main_v164_apply, val_main_v163_apply, val_main_v162_apply,
    val_main_v161_apply, val_main_v160_apply, val_main_v159_apply, val_main_v158_apply, val_main_v157_apply, val_main_v156_apply, val_main_cst_37_apply,
    val_main_v155_apply, val_main_v154_apply, val_main_v153_apply, val_main_v152_apply, val_main_v151_apply, val_main_v150_apply]
  have e1 : idx_main_v162 (idx_main_v163 (ix2 r q)) = ix1 q := funext fun a => Fin.ext (by match a with | ⟨0, _⟩ => rfl)
  have e2 : idx_main_v159 (idx_main_v160 (ix2 r q)) = ix1 q := funext fun a => Fin.ext (by match a with | ⟨0, _⟩ => rfl)
  have e3 : idx_main_v153 (idx_main_v154 (ix2 r q)) = ix1 q := funext fun a => Fin.ext (by match a with | ⟨0, _⟩ => rfl)
  have e4 : idx_main_v150 (idx_main_v151 (ix2 r q)) = ix1 q := funext fun a => Fin.ext (by match a with | ⟨0, _⟩ => rfl)
  rw [e1, e2, e3, e4]
  rfl

end Cert.RefForms

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.Region0.lean ====
/-
  The first dense layer's matrix product, read off the pipeline's frame: every entry of the product array is the sum, over
  the shared axis, of a row entry of the left operand times a column entry of the right operand.
-/
import proofs.«100399_j30279519436917_1_alg».proof.Proof.Gen.KernelIdeal.Frame
import proofs.«100399_j30279519436917_1_alg».proof.Proof.LibDenseRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.ValueIdx Idealize.ShloMosaic.TcCoe
open Idealize.ShloMosaic.Pipeline (Dat)
open Cert.KernelIdeal Cert.KernelIdeal.Gen
open scoped BigOperators

/-! ## One block of rows: the product at a row and a column -/

/-- The kept left axis of the block product is the output's row. -/
theorem lhs_row (j : S5000x256.Idx) (k : dot_S5000x384_S384x256_S5000x256_1_0_0_1_n_n.contr.Idx) :
    (dot_S5000x384_S384x256_S5000x256_1_0_0_1_n_n.lhsIdx j k (0 : Fin 2)).val = (j (0 : Fin 2)).val := by
  unfold DotDims.lhsIdx
  rw [dif_neg (show ¬(0 : Fin S5000x384.rank) ∈ dot_S5000x384_S384x256_S5000x256_1_0_0_1_n_n.lhsBatch by decide),
    dif_pos (show (0 : Fin S5000x384.rank) ∈ dot_S5000x384_S384x256_S5000x256_1_0_0_1_n_n.lhsNonContracting by decide)]
  rfl

/-- The kept right axis of the block product is the output's column. -/
theorem rhs_col (j : S5000x256.Idx) (k : dot_S5000x384_S384x256_S5000x256_1_0_0_1_n_n.contr.Idx) :
    (dot_S5000x384_S384x256_S5000x256_1_0_0_1_n_n.rhsIdx j k (1 : Fin 2)).val = (j (1 : Fin 2)).val := by
  unfold DotDims.rhsIdx
  rw [dif_neg (show ¬(1 : Fin S384x256.rank) ∈ dot_S5000x384_S384x256_S5000x256_1_0_0_1_n_n.rhsBatch by decide),
    dif_pos (show (1 : Fin S384x256.rank) ∈ dot_S5000x384_S384x256_S5000x256_1_0_0_1_n_n.rhsNonContracting by decide)]
  rfl

/-- The body's value at row `p`, column `q` of a block: narrowing the operands changes nothing at the ideal values, and the
    product into the zero accumulator is the plain sum over the 384 shared entries. -/
theorem pay_apply (x0 : Vec Ideal S5000x384 .f32) (x1 : Vec Ideal S384x256 .f32) (p : Fin 5000) (q : Fin 256) :
    k0_pay1 (F := Ideal) x0 x1 (ix2 p q) = ∑ k : Fin 384, x0 (ix2 p k) * x1 (ix2 k q) := by
  unfold k0_pay1
  exact Cert.DenseRows.matmul_zero_plain_apply dot_S5000x384_S384x256_S5000x256_1_0_0_1_n_n rfl rfl rfl rfl lhs_row rhs_col
    (truncf .bf16 x0 bitsLt_bf16_f32) (truncf .bf16 x1 bitsLt_bf16_f32) p q

variable (V : (c : Dev nD) → (b : Ref sig .tc) → Buf (Elt Ideal) ((c : Thread nD τ).loc b))

/-! ## From the blocks to the whole array -/

theorem zero_offsets : (![0, 0] : Fin 2 → Nat) = fun _ => 0 := funext fun a => by fin_cases a <;> rfl

/-- The product array as one function of the two operand arrays: entry `i` is row `i 0` of the left operand against column
    `i 1` of the right operand. -/
def prod (A : S100000x384.Idx → EReal) (W : S384x256.Idx → EReal) : S100000x256.Idx → EReal :=
  fun i => ∑ k : Fin 384, A (ix2 (⟨(i 0).val, (i 0).isLt⟩ : Fin 100000) k) * W (ix2 k (⟨(i 1).val, (i 1).isLt⟩ : Fin 256))

/-- The same, with the index's coordinates named. -/
theorem prod_apply (A : S100000x384.Idx → EReal) (W : S384x256.Idx → EReal) (i : S100000x256.Idx) (r : Fin 100000) (s : Fin 256)
    (hr : (i 0).val = r.val) (hs : (i 1).val = s.val) :
    prod A W i = ∑ k : Fin 384, A (ix2 r k) * W (ix2 k s) := by
  obtain rfl : r = ⟨(i 0).val, (i 0).isLt⟩ := Fin.ext hr.symm
  obtain rfl : s = ⟨(i 1).val, (i 1).isLt⟩ := Fin.ext hs.symm
  rfl

/-- A block of rows whose entries are the operands' entries at row `r` (left) and column `s` (right) has, at `(p, q)`, the
    product array's entry `(r, s)`. -/
theorem block_apply (A : S100000x384.Idx → EReal) (W : S384x256.Idx → EReal)
    (x0 : Vec Ideal S5000x384 .f32) (x1 : Vec Ideal S384x256 .f32) (p : Fin 5000) (q : Fin 256) (r : Fin 100000) (s : Fin 256)
    (h0 : ∀ k : Fin 384, x0 (ix2 p k) = A (ix2 r k)) (h1 : ∀ k : Fin 384, x1 (ix2 k q) = W (ix2 k s)) :
    k0_pay1 (F := Ideal) x0 x1 (ix2 p q) = ∑ k : Fin 384, A (ix2 r k) * W (ix2 k s) := by
  rw [pay_apply]
  exact Finset.sum_congr rfl fun k _ => by rw [h0 k, h1 k]

/-- The windows' block indices at grid point `t`: the row-blocked windows are at row block `t`, the whole right operand at
    block 0 (decided over the 20 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What grid point `t` writes back is block `t` of the product array: its left block is rows `5000 t …` of the left operand,
    its right block the whole right operand. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x384) zero_offsets, View.ld_unit_zero (S := S384x256) zero_offsets]
  obtain ⟨e0, e1, e2, e3, e4, e5⟩ := idx_facts t
  have hN : cfg0.N = 20 := N_0
  have ht : t.val < 20 := lt_of_lt_of_eq t.isLt hN
  funext j
  obtain ⟨p, q, rfl⟩ : ∃ (p : Fin 5000) (q : Fin 256), j = ix2 p q := ⟨j 0, j 1, eq_ix2 j⟩
  have hp : p.val < 5000 := p.isLt
  show k0_pay1 (F := Ideal) (iblk0 V c 0 t) (iblk0 V c 1 t) (ix2 p q)
    = prod (V c main_arg0) (V c main_arg2) (((cfg0.win 2).blk t).view.emb (ix2 p q))
  have hr : ((((cfg0.win 2).blk t).view.emb (ix2 p q)) 0).val = (⟨5000 * t.val + p.val, by omega⟩ : Fin 100000).val := by
    show win0_2.index t (0 : Fin 2) * 5000 + 1 * p.val = 5000 * t.val + p.val
    omega
  have hs : ((((cfg0.win 2).blk t).view.emb (ix2 p q)) 1).val = q.val := by
    show win0_2.index t (1 : Fin 2) * 256 + 1 * q.val = q.val
    omega
  refine (block_apply (V c main_arg0) (V c main_arg2) (iblk0 V c 0 t) (iblk0 V c 1 t) p q
    ⟨5000 * t.val + p.val, by omega⟩ q (fun k => ?_) (fun k => ?_)).trans
    (prod_apply (V c main_arg0) (V c main_arg2) _ ⟨5000 * t.val + p.val, by omega⟩ q hr hs).symm
  · show V c main_arg0 (((cfg0.win 0).blk t).view.emb (ix2 p k)) = V c main_arg0 (ix2 ⟨5000 * t.val + p.val, by omega⟩ k)
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 384 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 384 + 1 * k.val = k.val; omega
    | ⟨1, _⟩ => show win0_1.index t (1 : Fin 2) * 256 + 1 * q.val = q.val; omega

/-- An entry of the product array lies in point `t`'s block exactly when each coordinate lies in the block's range. -/
theorem mem_blk (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v4).slice (win0_2.rect t)).set ↔ _
  rw [View.set_slice_whole, Rect.mem_set_unit]
  exact Iff.rfl

/-- Row `r` is written back by grid point `r / 5000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  have hlt : (i 0).val / 5000 < cfg0.N := lt_of_lt_of_eq (by omega : (i 0).val / 5000 < 20) hN.symm
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 256 ≤ (i 1).val
      ∧ (i 1).val < win0_2.index ⟨(i 0).val / 5000, hlt⟩ (1 : Fin 2) * 256 + 256
    rw [e5]
    omega

/-- The product array after the region, as one function of the operand arrays as the region finds them. -/
theorem out_eq (c : Dev nD) :
    (dat0 (F := Ideal) V c).arrAt 2 cfg0.N = prod (V c main_arg0) (V c main_arg2) :=
  (dat0 (F := Ideal) V c).arrAt_eq_of_cover 2 (prod (V c main_arg0) (V c main_arg2)) (fun t _ => flushed_eq V c t) cover

/-- The product function at named coordinates. -/
theorem prod_ix2 (A : S100000x384.Idx → EReal) (W : S384x256.Idx → EReal) (r : Fin 100000) (q : Fin 256) :
    prod A W (ix2 r q) = ∑ k : Fin 384, A (ix2 r k) * W (ix2 k q) :=
  prod_apply A W (ix2 r q) r q rfl rfl

/-- The product array after the region, entry by entry, for operand arrays `A`, `W` that the region finds on entry. -/
theorem out_rows (c : Dev nD) (A : S100000x384.Idx → EReal) (W : S384x256.Idx → EReal)
    (hA : V c main_arg0 = A) (hW : V c main_arg2 = W) (r : Fin 100000) (q : Fin 256) :
    (dat0 (F := Ideal) V c).arrAt 2 cfg0.N (ix2 r q) = ∑ k : Fin 384, A (ix2 r k) * W (ix2 k q) := by
  subst hA hW
  exact (congrFun (out_eq V c) (ix2 r q)).trans (prod_ix2 _ _ r q)

end Cert.KernelIdeal.Region0

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Region1.lean ====
/-
  The combine-and-column-statistics region read as values over the extended reals. The rows of a [100000, 256] array are
  handled in twenty tiles of 5000 rows. Each tile's entries are  aggregate + feature · (the row's reciprocal degree) + (the
  column's bias); the first output collects the tiles, the second and third accumulate, tile after tile, every column's sum
  of the entries and of their squares, starting from zero at the first tile. So the first output holds the combined
  activations entry by entry, and the other two hold each column's sum (of the entries, of their squares) over all
  100000 rows: addition of extended reals is a commutative monoid, so the tile-by-tile order is the whole sum.
-/
import proofs.«100399_j30279519436917_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«100399_j30279519436917_1_alg».proof.Proof.LibColumnLayout

noncomputable section

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

section Pieces

variable {F : FTy → Type} [FloatOps F]

/-! ## What one point leaves in each output, as the arithmetic of what it read

At any float type: the first output receives the combined block; the two accumulators receive what they held (the zero
row, at the first point) plus the block's column sums (of the entries, of their squares). -/

/-- The zero offsets, however spelt. -/
theorem hz : (![0, 0] : Fin 2 → Nat) = fun _ => 0 := funext fun a => by fin_cases a <;> rfl

/-- A later point: the first output holds the combined block of the four blocks read. -/
theorem piece_B_4 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond1_0 i) (x0 x1 : Vec F S5000x256 .f32) (x2 : Vec F S5000x1 .f32) (x3 xo5 xo6 : Vec F S1x256 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread,
    View.ld_unit_zero (S := S5000x256) hz, View.ld_unit_zero (S := S5000x1) hz, View.ld_unit_zero (S := S1x256) hz]

/-- A later point: the sums' accumulator holds what it held, updated with the block. -/
theorem piece_B_5 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond1_0 i) (x0 x1 : Vec F S5000x256 .f32) (x2 : Vec F S5000x1 .f32) (x3 xo5 xo6 : Vec F S1x256 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread,
    View.ld_unit_zero (S := S5000x256) hz, View.ld_unit_zero (S := S5000x1) hz, View.ld_unit_zero (S := S1x256) hz]

/-- A later point: the squares' accumulator holds what it held, updated with the block. -/
theorem piece_B_6 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond1_0 i) (x0 x1 : Vec F S5000x256 .f32) (x2 : Vec F S5000x1 .f32) (x3 xo5 xo6 : Vec F S1x256 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h7.read_unread,
    View.ld_unit_zero (S := S5000x256) hz, View.ld_unit_zero (S := S5000x1) hz, View.ld_unit_zero (S := S1x256) hz]

/-- The first point: the first output holds the combined block. -/
theorem piece_A_4 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond1_0 i) (x0 x1 : Vec F S5000x256 .f32) (x2 : Vec F S5000x1 .f32) (x3 : Vec F S1x256 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero hz]
  simp only [View.readAt_eq_ld, h1.read_unread, h2.read_unread, h3.read_unread, h4.read_unread,
    View.ld_unit_zero (S := S5000x256) hz, View.ld_unit_zero (S := S5000x1) hz, View.ld_unit_zero (S := S1x256) hz]

/-- The first point: the sums' accumulator is reset to the zero row, read back, and updated with the block. -/
theorem piece_A_5 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond1_0 i) (x0 x1 : Vec F S5000x256 .f32) (x2 : Vec F S5000x1 .f32) (x3 : Vec F S1x256 .f32) :
    out1_A_5 c i a1 h1 a2 h2 a3 h3 a4 h4 a5 h5 a6 h6 a7 h7 hc x0 x1 x2 x3 = k1_pay4 x0 x1 x2 x3 k1_pay1 := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S5000x256) hz, View.ld_unit_zero (S := S5000x1) hz, View.ld_unit_zero (S := S1x256) hz]

/-- The first point: the squares' accumulator is reset to the zero row, read back, and updated with the block. -/
theorem piece_A_6 (c : Dev nD) (i : grid1.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond1_0 i) (x0 x1 : Vec F S5000x256 .f32) (x2 : Vec F S5000x1 .f32) (x3 : Vec F S1x256 .f32) :
    out1_A_6 c i a1 h1 a2 h2 a3 h3 a4 h4 a5 h5 a6 h6 a7 h7 hc x0 x1 x2 x3 = k1_pay5 x0 x1 x2 x3 k1_pay2 := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S5000x256) hz, View.ld_unit_zero (S := S5000x1) hz, View.ld_unit_zero (S := S1x256) hz]

end Pieces

section Payloads

/-- For a reduction of `[M, N]` along its rows to `[N]`, the source index over column `q` whose row coordinate is `p` is `(p, q)`. -/
theorem lift_col {M N : ℕ} (h : (⟨2, ![M, N]⟩ : Shape).Reduces [(0 : Fin 2)] ⟨1, ![N]⟩) (q : Fin N) (p : Fin M) :
    h.lift (ix1 q) p = ix2 p q := by
  funext c
  apply Fin.ext
  match c with
  | ⟨0, _⟩ => rfl
  | ⟨1, _⟩ => rfl

/-- The sum of a `[5000, 256]` block along its rows from the zero word, kept as a `[1, 256]` row: at column `q` it is the sum over the 5000 rows. -/
theorem colSum_apply (src : FVec Ideal S5000x256 .f32) (q : Fin 256) :
    shapeCast S1x256 (multiReduction (F := Ideal) .add [0] S256 src 0x00000000#32 reduces_S5000x256_S256 (.inl rfl) rfl) shapeCasts_S256_S1x256 (ix2 (0 : Fin 1) q)
      = ∑ p : Fin 5000, src (ix2 p q) :=
  (shapeCast_a_1a_apply _ _ (0 : Fin 1) q).trans
    ((Ideal.multiReduction_add_single src 0x00000000#32 reduces_S5000x256_S256 (.inl rfl) rfl (ix1 q)).trans
      (Finset.sum_congr rfl fun p _ => congrArg src (lift_col _ q p)))

/-- One entry of the combined block: aggregate + feature · (row's column entry) + (bias row's entry). -/
theorem pay3_apply (x0 x1 : Vec Ideal S5000x256 .f32) (x2 : Vec Ideal S5000x1 .f32) (x3 : Vec Ideal S1x256 .f32)
    (p : Fin 5000) (q : Fin 256) :
    k1_pay3 (F := Ideal) x0 x1 x2 x3 (ix2 p q)
      = (x0 (ix2 p q) + x1 (ix2 p q) * x2 (ix2 p (0 : Fin 1))) + x3 (ix2 (0 : Fin 1) q) := by
  have e2 : broadcastTo S5000x256 x2 broadcasts_S5000x1_S5000x256 (ix2 p q) = x2 (ix2 p (0 : Fin 1)) :=
    Cert.ColumnLayout.broadcastTo_a1_ab_apply x2 _ p q
  have e3 : broadcastTo S5000x256 x3 broadcasts_S1x256_S5000x256 (ix2 p q) = x3 (ix2 (0 : Fin 1) q) :=
    broadcastTo_1b_ab_apply x3 _ p q
  unfold k1_pay3
  (try dsimp only)
  rw [shapeCast_self, shapeCast_self, shapeCast_self, shapeCast_self]
  show (x0 (ix2 p q) + x1 (ix2 p q) * broadcastTo S5000x256 x2 broadcasts_S5000x1_S5000x256 (ix2 p q))
    + broadcastTo S5000x256 x3 broadcasts_S1x256_S5000x256 (ix2 p q) = _
  rw [e2, e3]

/-- The running column sums after a block: what was there plus the block's column sums. -/
theorem pay4_apply (x0 x1 : Vec Ideal S5000x256 .f32) (x2 : Vec Ideal S5000x1 .f32) (x3 v : Vec Ideal S1x256 .f32) (q : Fin 256) :
    k1_pay4 (F := Ideal) x0 x1 x2 x3 v (ix2 (0 : Fin 1) q)
      = v (ix2 (0 : Fin 1) q) + ∑ p : Fin 5000, k1_pay3 (F := Ideal) x0 x1 x2 x3 (ix2 p q) := by
  unfold k1_pay4
  (try dsimp only)
  rw [shapeCast_self]
  exact congrArg (fun z => v (ix2 (0 : Fin 1) q) + z) (colSum_apply (k1_pay3 (F := Ideal) x0 x1 x2 x3) q)

/-- The running column sums of squares after a block. -/
theorem pay5_apply (x0 x1 : Vec Ideal S5000x256 .f32) (x2 : Vec Ideal S5000x1 .f32) (x3 v : Vec Ideal S1x256 .f32) (q : Fin 256) :
    k1_pay5 (F := Ideal) x0 x1 x2 x3 v (ix2 (0 : Fin 1) q)
      = v (ix2 (0 : Fin 1) q) + ∑ p : Fin 5000, k1_pay3 (F := Ideal) x0 x1 x2 x3 (ix2 p q) * k1_pay3 (F := Ideal) x0 x1 x2 x3 (ix2 p q) := by
  unfold k1_pay5
  (try dsimp only)
  rw [shapeCast_self]
  exact congrArg (fun z => v (ix2 (0 : Fin 1) q) + z)
    (colSum_apply (mulf (k1_pay3 (F := Ideal) x0 x1 x2 x3) (k1_pay3 (F := Ideal) x0 x1 x2 x3)) q)

/-- The reset row is zero everywhere. -/
theorem pay1_apply (q : Fin 256) : k1_pay1 (F := Ideal) (ix2 (0 : Fin 1) q) = 0 := by
  unfold k1_pay1
  exact Ideal.ofBits_zero_f32

/-- The squares' reset row is zero everywhere. -/
theorem pay2_apply (q : Fin 256) : k1_pay2 (F := Ideal) (ix2 (0 : Fin 1) q) = 0 := by
  unfold k1_pay2
  exact Ideal.ofBits_zero_f32

end Payloads

section Value

variable (V : (c : Dev nD) → (b : Ref sig .tc) → Buf (Elt Ideal) ((c : Thread nD τ).loc b))

/-- One entry of the combined activations: aggregate + feature · (1/degree of the row) + bias of the column, of four arrays
    given as functions of their indices. -/
def y (A H : S100000x256.Idx → EReal) (D : S100000x1.Idx → EReal) (B : S1x256.Idx → EReal) (r : Fin 100000) (q : Fin 256) : EReal :=
  (A (ix2 r q) + H (ix2 r q) * D (ix2 r (0 : Fin 1))) + B (ix2 (0 : Fin 1) q)

/-- The same entry of the four operand arrays as the region finds them. -/
abbrev yV (c : Dev nD) (r : Fin 100000) (q : Fin 256) : EReal :=
  y (V c main_v51) (V c main_v4) (V c main_v52) (V c main_v53) r q

/-- The block index maps, decided once over the twenty points: the row-tiled windows sit at block row `t`, the
    single-block windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of tile `t` is a row of the array. -/
theorem row_lt (t : Fin cfg1.N) (p : Fin 5000) : 5000 * t.val + p.val < 100000 := by
  have hN : t.val < 20 := lt_of_lt_of_eq t.isLt (show cfg1.N = 20 from N_1)
  have := p.isLt
  omega

/-- The aggregate's block at point `t` holds rows `5000 t …` of the array. -/
theorem blk0_apply (c : Dev nD) (t : Fin cfg1.N) (p : Fin 5000) (q : Fin 256) :
    (iblk1 (F := Ideal) V c 0 t : Vec Ideal S5000x256 .f32) (ix2 p q) = V c main_v51 (ix2 (⟨5000 * t.val + p.val, row_lt t p⟩ : Fin 100000) q) := by
  obtain ⟨e0, e1, -⟩ := idx_facts t
  unfold iblk1
  rw [View.read_apply]
  show V c main_v51 _ = V c main_v51 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 256 + 1 * q.val = q.val; rw [e1]; omega

/-- The features' block at point `t`. -/
theorem blk1_apply (c : Dev nD) (t : Fin cfg1.N) (p : Fin 5000) (q : Fin 256) :
    (iblk1 (F := Ideal) V c 1 t : Vec Ideal S5000x256 .f32) (ix2 p q) = V c main_v4 (ix2 (⟨5000 * t.val + p.val, row_lt t p⟩ : Fin 100000) q) := by
  obtain ⟨-, -, e0, e1, -⟩ := idx_facts t
  unfold iblk1
  rw [View.read_apply]
  show V c main_v4 _ = V c main_v4 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 256 + 1 * q.val = q.val; rw [e1]; omega

/-- The reciprocal-degree column's block at point `t`. -/
theorem blk2_apply (c : Dev nD) (t : Fin cfg1.N) (p : Fin 5000) :
    (iblk1 (F := Ideal) V c 2 t : Vec Ideal S5000x1 .f32) (ix2 p (0 : Fin 1)) = V c main_v52 (ix2 (⟨5000 * t.val + p.val, row_lt t p⟩ : Fin 100000) (0 : Fin 1)) := by
  obtain ⟨-, -, -, -, e0, e1, -⟩ := idx_facts t
  unfold iblk1
  rw [View.read_apply]
  show V c main_v52 _ = V c main_v52 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- The bias row's one block. -/
theorem blk3_apply (c : Dev nD) (t : Fin cfg1.N) (q : Fin 256) :
    (iblk1 (F := Ideal) V c 3 t : Vec Ideal S1x256 .f32) (ix2 (0 : Fin 1) q) = V c main_v53 (ix2 (0 : Fin 1) q) := by
  obtain ⟨-, -, -, -, -, -, e0, e1, -⟩ := idx_facts t
  unfold iblk1
  rw [View.read_apply]
  show V c main_v53 _ = V c main_v53 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- The combined block at point `t` holds the combined activations of rows `5000 t …`. -/
theorem point_y (c : Dev nD) (t : Fin cfg1.N) (p : Fin 5000) (q : Fin 256) :
    k1_pay3 (F := Ideal) (iblk1 V c 0 t) (iblk1 V c 1 t) (iblk1 V c 2 t) (iblk1 V c 3 t) (ix2 p q) = yV V c ⟨5000 * t.val + p.val, row_lt t p⟩ q := by
  refine (pay3_apply (iblk1 V c 0 t) (iblk1 V c 1 t) (iblk1 V c 2 t) (iblk1 V c 3 t) p q).trans ?_
  show _ = y (V c main_v51) (V c main_v4) (V c main_v52) (V c main_v53) ⟨5000 * t.val + p.val, row_lt t p⟩ q
  unfold y
  rw [blk0_apply V c t p q, blk1_apply V c t p q, blk2_apply V c t p, blk3_apply V c t q]

end Value

section Sums

variable (V : (c : Dev nD) → (b : Ref sig .tc) → Buf (Elt Ideal) ((c : Thread nD τ).loc b))

/-- The first output: every point leaves the combined block in it. -/
theorem at_4 (c : Dev nD) (t : Fin cfg1.N) :
    (outsAt1 (F := Ideal) V c t.val t.isLt).1 = k1_pay3 (F := Ideal) (iblk1 V c 0 t) (iblk1 V c 1 t) (iblk1 V c 2 t) (iblk1 V c 3 t) := by
  by_cases h0 : t.val % 20 = 0
  · rw [outsAt1_A V c t h0]
    dsimp only
    exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- The column sums of the tile of rows `5000 t …`. -/
def tileSum (c : Dev nD) (q : Fin 256) (t : Fin cfg1.N) : EReal := ∑ p : Fin 5000, yV V c ⟨5000 * t.val + p.val, row_lt t p⟩ q
/-- and of its squares. -/
def tileSq (c : Dev nD) (q : Fin 256) (t : Fin cfg1.N) : EReal :=
  ∑ p : Fin 5000, yV V c ⟨5000 * t.val + p.val, row_lt t p⟩ q * yV V c ⟨5000 * t.val + p.val, row_lt t p⟩ q

/-- The first point resets the two accumulators and adds its tile. -/
theorem at_A (c : Dev nD) (t : Fin cfg1.N) (h0 : t.val % 20 = 0) (q : Fin 256) :
    (outsAt1 (F := Ideal) V c t.val t.isLt).2.1 (ix2 (0 : Fin 1) q) = 0 + tileSum V c q t
    ∧ (outsAt1 (F := Ideal) V c t.val t.isLt).2.2 (ix2 (0 : Fin 1) q) = 0 + tileSq V c q t := by
  rw [outsAt1_A V c t h0]
  dsimp only
  constructor
  · refine (congrFun (piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 (0 : Fin 1) q)).trans ?_
    refine (pay4_apply (iblk1 V c 0 t) (iblk1 V c 1 t) (iblk1 V c 2 t) (iblk1 V c 3 t) (k1_pay1 (F := Ideal)) q).trans ?_
    rw [pay1_apply]
    exact congrArg (fun z => (0 : EReal) + z) (Finset.sum_congr rfl fun p _ => point_y V c t p q)
  · refine (congrFun (piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 (0 : Fin 1) q)).trans ?_
    refine (pay5_apply (iblk1 V c 0 t) (iblk1 V c 1 t) (iblk1 V c 2 t) (iblk1 V c 3 t) (k1_pay2 (F := Ideal)) q).trans ?_
    rw [pay2_apply]
    exact congrArg (fun z => (0 : EReal) + z) (Finset.sum_congr rfl fun p _ => by rw [point_y V c t p q])

/-- Every later point adds its tile to what the point before left. -/
theorem at_B (c : Dev nD) (t : Fin cfg1.N) (h0 : ¬t.val % 20 = 0) (q : Fin 256) :
    (outsAt1 (F := Ideal) V c t.val t.isLt).2.1 (ix2 (0 : Fin 1) q)
        = (outsAt1 V c (t.val - 1) (Nat.lt_of_le_of_lt (Nat.sub_le _ _) t.isLt)).2.1 (ix2 (0 : Fin 1) q) + tileSum V c q t
    ∧ (outsAt1 (F := Ideal) V c t.val t.isLt).2.2 (ix2 (0 : Fin 1) q)
        = (outsAt1 V c (t.val - 1) (Nat.lt_of_le_of_lt (Nat.sub_le _ _) t.isLt)).2.2 (ix2 (0 : Fin 1) q) + tileSq V c q t := by
  rw [outsAt1_B V c t h0]
  dsimp only
  constructor
  · refine (congrFun (piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
    refine (pay4_apply (iblk1 V c 0 t) (iblk1 V c 1 t) (iblk1 V c 2 t) (iblk1 V c 3 t) (outsAt1 V c (t.val - 1) (Nat.lt_of_le_of_lt (Nat.sub_le _ _) t.isLt)).2.1 q).trans ?_
    exact congrArg (fun z => (outsAt1 V c (t.val - 1) (Nat.lt_of_le_of_lt (Nat.sub_le _ _) t.isLt)).2.1 (ix2 (0 : Fin 1) q) + z) (Finset.sum_congr rfl fun p _ => point_y V c t p q)
  · refine (congrFun (piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
    refine (pay5_apply (iblk1 V c 0 t) (iblk1 V c 1 t) (iblk1 V c 2 t) (iblk1 V c 3 t) (outsAt1 V c (t.val - 1) (Nat.lt_of_le_of_lt (Nat.sub_le _ _) t.isLt)).2.2 q).trans ?_
    exact congrArg (fun z => (outsAt1 V c (t.val - 1) (Nat.lt_of_le_of_lt (Nat.sub_le _ _) t.isLt)).2.2 (ix2 (0 : Fin 1) q) + z) (Finset.sum_congr rfl fun p _ => by rw [point_y V c t p q])

/-- A function of the row number, zero past the last row: the combined activations of column `q`. -/
def yN (c : Dev nD) (q : Fin 256) (n : ℕ) : EReal := if h : n < 100000 then yV V c ⟨n, h⟩ q else 0

theorem tileSum_eq (c : Dev nD) (q : Fin 256) (t : Fin cfg1.N) :
    tileSum V c q t = ∑ p : Fin 5000, yN V c q (5000 * t.val + p.val) :=
  Finset.sum_congr rfl fun p _ => by unfold yN; rw [dif_pos (row_lt t p)]

theorem tileSq_eq (c : Dev nD) (q : Fin 256) (t : Fin cfg1.N) :
    tileSq V c q t = ∑ p : Fin 5000, yN V c q (5000 * t.val + p.val) * yN V c q (5000 * t.val + p.val) :=
  Finset.sum_congr rfl fun p _ => by unfold yN; rw [dif_pos (row_lt t p)]

/-- THE INVARIANT: after point `n` the two accumulators hold the column sums (of the entries, of their squares) over the
    rows of tiles `0 … n`. By induction on the point. -/
theorem outsAt_sum (c : Dev nD) (q : Fin 256) : ∀ (n : ℕ) (hn : n < cfg1.N),
    (outsAt1 (F := Ideal) V c n hn).2.1 (ix2 (0 : Fin 1) q)
        = ∑ t ∈ Finset.range (n + 1), ∑ p : Fin 5000, yN V c q (5000 * t + p.val)
    ∧ (outsAt1 (F := Ideal) V c n hn).2.2 (ix2 (0 : Fin 1) q)
        = ∑ t ∈ Finset.range (n + 1), ∑ p : Fin 5000, yN V c q (5000 * t + p.val) * yN V c q (5000 * t + p.val)
  | 0, hn => by
    obtain ⟨a, b⟩ := at_A V c ⟨0, hn⟩ rfl q
    rw [tileSum_eq] at a
    rw [tileSq_eq] at b
    rw [Finset.sum_range_one, Finset.sum_range_one]
    exact ⟨a.trans (zero_add _), b.trans (zero_add _)⟩
  | n + 1, hn => by
    have hN : cfg1.N = 20 := N_1
    have hB : ¬(⟨n + 1, hn⟩ : Fin cfg1.N).val % 20 = 0 := by dsimp only; omega
    obtain ⟨a, b⟩ := at_B V c ⟨n + 1, hn⟩ hB q
    obtain ⟨ia, ib⟩ := outsAt_sum c q n (Nat.lt_of_succ_lt hn)
    rw [tileSum_eq] at a
    rw [tileSq_eq] at b
    rw [Finset.sum_range_succ _ (n + 1), Finset.sum_range_succ (fun t => ∑ p : Fin 5000, yN V c q (5000 * t + p.val) * yN V c q (5000 * t + p.val)) (n + 1)]
    exact ⟨a.trans (congrArg (fun z => z + _) ia), b.trans (congrArg (fun z => z + _) ib)⟩

/-- Twenty tiles of 5000 rows are the 100000 rows. -/
theorem sum_tiles (g : ℕ → EReal) :
    ∑ t ∈ Finset.range 20, ∑ p : Fin 5000, g (5000 * t + p.val) = ∑ r : Fin 100000, g r.val := by
  rw [Finset.sum_range (fun t => ∑ p : Fin 5000, g (5000 * t + p.val))]
  rw [← Fintype.sum_prod_type' (fun (t : Fin 20) (p : Fin 5000) => g (5000 * t.val + p.val))]
  exact Fintype.sum_equiv (finProdFinEquiv : Fin 20 × Fin 5000 ≃ Fin (20 * 5000)) _ (fun r : Fin 100000 => g r.val)
    (fun x => congrArg g (show 5000 * x.1.val + x.2.val = x.2.val + 5000 * x.1.val by omega))

end Sums

section Arrays

variable (V : (c : Dev nD) → (b : Ref sig .tc) → Buf (Elt Ideal) ((c : Thread nD τ).loc b))

/-- The first output array as one function of its index: the combined activations. -/
def G4 (c : Dev nD) : S100000x256.Idx → Elt Ideal .f32 := fun i => yV V c (i 0) (i 1)
/-- The second: every column's sum over all the rows. -/
def G5 (c : Dev nD) : S1x256.Idx → Elt Ideal .f32 := fun i => ∑ r : Fin 100000, yV V c r (i 1)
/-- The third: every column's sum of squares over all the rows. -/
def G6 (c : Dev nD) : S1x256.Idx → Elt Ideal .f32 := fun i => ∑ r : Fin 100000, yV V c r (i 1) * yV V c r (i 1)

/-- What point `t` writes back of the first output is tile `t` of the combined activations. -/
theorem flushed4_eq (c : Dev nD) (t : Fin cfg1.N) :
    (dat1 (F := Ideal) V c).flushed 4 t = ((cfg1.win 4).blk t).view.read (Elt Ideal) (G4 V c) := by
  obtain ⟨-, -, -, -, -, -, -, -, e0, e1, -⟩ := idx_facts t
  show (cfg1.win 4).cut (grid1.coords t) ((dat1 (F := Ideal) V c).after 4 t) = _
  rw [after1_4, at_4 V c t]
  funext j
  obtain ⟨p, q, rfl⟩ : ∃ (p : Fin 5000) (q : Fin 256), j = ix2 p q := ⟨j 0, j 1, eq_ix2 j⟩
  have hemb : ((cfg1.win 4).blk t).view.emb (ix2 p q) = (ix2 (⟨5000 * t.val + p.val, row_lt t p⟩ : Fin 100000) q : S100000x256.Idx) := by
    funext a
    apply Fin.ext
    match a with
    | ⟨0, _⟩ => show win1_4.index t (0 : Fin 2) * 5000 + 1 * p.val = 5000 * t.val + p.val; rw [e0]; omega
    | ⟨1, _⟩ => show win1_4.index t (1 : Fin 2) * 256 + 1 * q.val = q.val; rw [e1]; omega
  show k1_pay3 (F := Ideal) (iblk1 V c 0 t) (iblk1 V c 1 t) (iblk1 V c 2 t) (iblk1 V c 3 t) (ix2 p q) = G4 V c (((cfg1.win 4).blk t).view.emb (ix2 p q))
  rw [hemb]
  exact point_y V c t p q

/-- An index of the first output is in point `t`'s block iff each coordinate is in the block's range. -/
theorem mem_blk4 (t : Fin cfg1.N) (i : S100000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v54_0).slice (win1_4.rect t)).set ↔ _
  rw [View.set_slice_whole, Rect.mem_set_unit]
  exact Iff.rfl

/-- Row `r` is in the tile of point `r / 5000`. -/
theorem cover4 (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 20 := N_1
  have ht : (i 0).val / 5000 < cfg1.N := by rw [hN]; omega
  obtain ⟨-, -, -, -, -, -, -, -, e0, e1, -⟩ := idx_facts ⟨(i 0).val / 5000, ht⟩
  refine ⟨⟨(i 0).val / 5000, ht⟩, flush1_4 _, ?_⟩
  rw [mem_blk4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; dsimp only; omega
  | ⟨1, _⟩ =>
    show win1_4.index ⟨(i 0).val / 5000, ht⟩ (1 : Fin 2) * 256 ≤ (i 1).val ∧ (i 1).val < win1_4.index ⟨(i 0).val / 5000, ht⟩ (1 : Fin 2) * 256 + 256
    rw [e1]; omega

/-- The first output array ends holding the combined activations. -/
theorem final4 (c : Dev nD) : (dat1 (F := Ideal) V c).arrAt 4 cfg1.N = G4 V c :=
  (dat1 (F := Ideal) V c).arrAt_eq_of_cover 4 (G4 V c) (fun t _ => flushed4_eq V c t) cover4

/-- THE FIRST OUTPUT: entry (r, q) is the combined activation of row r, column q. -/
theorem out_y (c : Dev nD) (A H : S100000x256.Idx → EReal) (D : S100000x1.Idx → EReal) (B : S1x256.Idx → EReal)
    (hA : V c main_v51 = A) (hH : V c main_v4 = H) (hD : V c main_v52 = D) (hB : V c main_v53 = B)
    (r : Fin 100000) (q : Fin 256) :
    (dat1 (F := Ideal) V c).arrAt 4 cfg1.N (ix2 r q) = y A H D B r q := by
  subst hA hH hD hB
  exact congrFun (final4 V c) (ix2 r q)

end Arrays

section Accumulated

variable (V : (c : Dev nD) → (b : Ref sig .tc) → Buf (Elt Ideal) ((c : Thread nD τ).loc b))

/-- After the last point the accumulator of output 5 holds the sums over all twenty tiles: the whole-array sums. -/
theorem acc5_eq (c : Dev nD) (t : Fin cfg1.N) (h19 : t.val = 19) :
    (outsAt1 (F := Ideal) V c t.val t.isLt).2.1 = G5 V c := by
  funext j
  obtain ⟨u, q, rfl⟩ : ∃ (u : Fin 1) (q : Fin 256), j = ix2 u q := ⟨j 0, j 1, eq_ix2 j⟩
  obtain rfl : u = 0 := Subsingleton.elim _ _
  refine ((outsAt_sum V c q t.val t.isLt).1).trans ?_
  rw [h19]
  refine (sum_tiles (yN V c q)).trans ?_
  exact Finset.sum_congr rfl fun r _ => by unfold yN; rw [dif_pos r.isLt]

/-- Output 5 is written back once, after the last point; its one block, at block index (0, 0), is the whole array. -/
theorem flushed5_eq (c : Dev nD) (t : Fin cfg1.N) (hf : (cfg1.win 5).flush t = true) :
    (dat1 (F := Ideal) V c).flushed 5 t = ((cfg1.win 5).blk t).view.read (Elt Ideal) (G5 V c) := by
  have hN : cfg1.N = 20 := N_1
  have h19 : t.val = 19 := by have := (flush1_5 t).mp hf; have := t.isLt; omega
  obtain ⟨-, -, -, -, -, -, -, -, -, -, e0, e1, -⟩ := idx_facts t
  show (cfg1.win 5).cut (grid1.coords t) ((dat1 (F := Ideal) V c).after 5 t) = _
  rw [after1_5, acc5_eq V c t h19]
  have hz' : (fun a => win1_5.index t a * main_v54_1.ty.shape.size a) = fun _ => 0 := funext fun (a : Fin 2) => by
    match a with
    | ⟨0, _⟩ => show win1_5.index t (0 : Fin 2) * 1 = 0; rw [e0]
    | ⟨1, _⟩ => show win1_5.index t (1 : Fin 2) * 256 = 0; rw [e1]
  exact (Memref.read_access_unit_zero (Elt Ideal) main_v54_1 hz' (fun a => by rw [congrFun hz' a]; simp) (G5 V c)).symm

/-- An index of output 5 is in point `t`'s block iff each coordinate is in the block's range. -/
theorem mem_blk5 (t : Fin cfg1.N) (i : S1x256.Idx) :
    i ∈ ((cfg1.win 5).blk t).view.set ↔ ∀ a : Fin 2, win1_5.index t a * S1x256.size a ≤ (i a).val ∧ (i a).val < win1_5.index t a * S1x256.size a + S1x256.size a := by
  show i ∈ ((View.whole main_v54_1).slice (win1_5.rect t)).set ↔ _
  rw [View.set_slice_whole, Rect.mem_set_unit]
  exact Iff.rfl

/-- The last point's block covers the whole row. -/
theorem cover5 (i : S1x256.Idx) :
    ∃ t : Fin cfg1.N, (cfg1.win 5).flush t = true ∧ i ∈ ((cfg1.win 5).blk t).view.set := by
  have hN : cfg1.N = 20 := N_1
  have h19 : 19 < cfg1.N := by rw [hN]; omega
  have hi0 : (i 0).val < 1 := (i 0).isLt
  have hi1 : (i 1).val < 256 := (i 1).isLt
  obtain ⟨-, -, -, -, -, -, -, -, -, -, e0, e1, -⟩ := idx_facts ⟨19, h19⟩
  refine ⟨⟨19, h19⟩, (flush1_5 _).mpr rfl, ?_⟩
  rw [mem_blk5]
  intro a
  match a with
  | ⟨0, _⟩ =>
    show win1_5.index ⟨19, h19⟩ (0 : Fin 2) * 1 ≤ (i 0).val ∧ (i 0).val < win1_5.index ⟨19, h19⟩ (0 : Fin 2) * 1 + 1
    rw [e0]; omega
  | ⟨1, _⟩ =>
    show win1_5.index ⟨19, h19⟩ (1 : Fin 2) * 256 ≤ (i 1).val ∧ (i 1).val < win1_5.index ⟨19, h19⟩ (1 : Fin 2) * 256 + 256
    rw [e1]; omega

theorem final5 (c : Dev nD) : (dat1 (F := Ideal) V c).arrAt 5 cfg1.N = G5 V c :=
  (dat1 (F := Ideal) V c).arrAt_eq_of_cover 5 (G5 V c) (flushed5_eq V c) cover5

/-- After the last point the accumulator of output 6 holds the sums over all twenty tiles: the whole-array sums. -/
theorem acc6_eq (c : Dev nD) (t : Fin cfg1.N) (h19 : t.val = 19) :
    (outsAt1 (F := Ideal) V c t.val t.isLt).2.2 = G6 V c := by
  funext j
  obtain ⟨u, q, rfl⟩ : ∃ (u : Fin 1) (q : Fin 256), j = ix2 u q := ⟨j 0, j 1, eq_ix2 j⟩
  obtain rfl : u = 0 := Subsingleton.elim _ _
  refine ((outsAt_sum V c q t.val t.isLt).2).trans ?_
  rw [h19]
  refine (sum_tiles (fun n => yN V c q n * yN V c q n)).trans ?_
  exact Finset.sum_congr rfl fun r _ => by unfold yN; rw [dif_pos r.isLt]

/-- Output 6 is written back once, after the last point; its one block, at block index (0, 0), is the whole array. -/
theorem flushed6_eq (c : Dev nD) (t : Fin cfg1.N) (hf : (cfg1.win 6).flush t = true) :
    (dat1 (F := Ideal) V c).flushed 6 t = ((cfg1.win 6).blk t).view.read (Elt Ideal) (G6 V c) := by
  have hN : cfg1.N = 20 := N_1
  have h19 : t.val = 19 := by have := (flush1_6 t).mp hf; have := t.isLt; omega
  obtain ⟨-, -, -, -, -, -, -, -, -, -, -, -, e0, e1⟩ := idx_facts t
  show (cfg1.win 6).cut (grid1.coords t) ((dat1 (F := Ideal) V c).after 6 t) = _
  rw [after1_6, acc6_eq V c t h19]
  have hz' : (fun a => win1_6.index t a * main_v54_2.ty.shape.size a) = fun _ => 0 := funext fun (a : Fin 2) => by
    match a with
    | ⟨0, _⟩ => show win1_6.index t (0 : Fin 2) * 1 = 0; rw [e0]
    | ⟨1, _⟩ => show win1_6.index t (1 : Fin 2) * 256 = 0; rw [e1]
  exact (Memref.read_access_unit_zero (Elt Ideal) main_v54_2 hz' (fun a => by rw [congrFun hz' a]; simp) (G6 V c)).symm

/-- An index of output 6 is in point `t`'s block iff each coordinate is in the block's range. -/
theorem mem_blk6 (t : Fin cfg1.N) (i : S1x256.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v54_2).slice (win1_6.rect t)).set ↔ _
  rw [View.set_slice_whole, Rect.mem_set_unit]
  exact Iff.rfl

/-- The last point's block covers the whole row. -/
theorem cover6 (i : S1x256.Idx) :
    ∃ t : Fin cfg1.N, (cfg1.win 6).flush t = true ∧ i ∈ ((cfg1.win 6).blk t).view.set := by
  have hN : cfg1.N = 20 := N_1
  have h19 : 19 < cfg1.N := by rw [hN]; omega
  have hi0 : (i 0).val < 1 := (i 0).isLt
  have hi1 : (i 1).val < 256 := (i 1).isLt
  obtain ⟨-, -, -, -, -, -, -, -, -, -, -, -, e0, e1⟩ := idx_facts ⟨19, h19⟩
  refine ⟨⟨19, h19⟩, (flush1_6 _).mpr rfl, ?_⟩
  rw [mem_blk6]
  intro a
  match a with
  | ⟨0, _⟩ =>
    show win1_6.index ⟨19, h19⟩ (0 : Fin 2) * 1 ≤ (i 0).val ∧ (i 0).val < win1_6.index ⟨19, h19⟩ (0 : Fin 2) * 1 + 1
    rw [e0]; omega
  | ⟨1, _⟩ =>
    show win1_6.index ⟨19, h19⟩ (1 : Fin 2) * 256 ≤ (i 1).val ∧ (i 1).val < win1_6.index ⟨19, h19⟩ (1 : Fin 2) * 256 + 256
    rw [e1]; omega

theorem final6 (c : Dev nD) : (dat1 (F := Ideal) V c).arrAt 6 cfg1.N = G6 V c :=
  (dat1 (F := Ideal) V c).arrAt_eq_of_cover 6 (G6 V c) (flushed6_eq V c) cover6

/-- THE SECOND OUTPUT: column q holds the sum of the combined activations over all the rows. -/
theorem out_sum (c : Dev nD) (A H : S100000x256.Idx → EReal) (D : S100000x1.Idx → EReal) (B : S1x256.Idx → EReal)
    (hA : V c main_v51 = A) (hH : V c main_v4 = H) (hD : V c main_v52 = D) (hB : V c main_v53 = B) (q : Fin 256) :
    (dat1 (F := Ideal) V c).arrAt 5 cfg1.N (ix2 (0 : Fin 1) q) = ∑ r : Fin 100000, y A H D B r q := by
  subst hA hH hD hB
  exact congrFun (final5 V c) (ix2 (0 : Fin 1) q)

/-- THE THIRD OUTPUT: column q holds the sum of their squares over all the rows. -/
theorem out_sumsq (c : Dev nD) (A H : S100000x256.Idx → EReal) (D : S100000x1.Idx → EReal) (B : S1x256.Idx → EReal)
    (hA : V c main_v51 = A) (hH : V c main_v4 = H) (hD : V c main_v52 = D) (hB : V c main_v53 = B) (q : Fin 256) :
    (dat1 (F := Ideal) V c).arrAt 6 cfg1.N (ix2 (0 : Fin 1) q) = ∑ r : Fin 100000, y A H D B r q * y A H D B r q := by
  subst hA hH hD hB
  exact congrFun (final6 V c) (ix2 (0 : Fin 1) q)

end Accumulated

end Cert.KernelIdeal.Region1

end
-- ==== Proof.StitchL1a.lean ====
/-
  The idealized kernel's run from the launch to the exit of its second region, against the reference's stages.

  Write x0 … x9 for the ten argument arrays at launch. No host operation and no region writes an argument array, and
  the two rows of the edge list (sources, destinations) are sliced out once at the start, so both are carried unchanged
  to every later boundary. Region 0 leaves the feature product x0 · x2, entry by entry the reference's dot_general.
  The host stretch after it applies the reference's own operations — the degree by a scatter-add of ones at the
  destinations, its reciprocal and reciprocal square root, the edge coefficients gathered at both ends, the gathered
  and scaled messages, their scatter-add — to buffers that hold what the reference's hold, so the neighbourhood
  aggregate and the reciprocal degree are the reference's stages with nothing opened. Region 1 then leaves
  y = (aggregate + feature · reciprocal degree of the row) + bias of the column, which is the reference's
  pre-normalisation stage, and beside it the column sums of y and of y · y over all 100000 rows.
-/
import proofs.«100399_j30279519436917_1_alg».proof.Proof.Gen.KernelIdeal.Frame
import proofs.«100399_j30279519436917_1_alg».proof.Proof.RefRead
import proofs.«100399_j30279519436917_1_alg».proof.Proof.Reals
import proofs.«100399_j30279519436917_1_alg».proof.Proof.RefForms
import proofs.«100399_j30279519436917_1_alg».proof.Proof.Region0
import proofs.«100399_j30279519436917_1_alg».proof.Proof.Region1
import proofs.«100399_j30279519436917_1_alg».proof.Proof.LibColumnLayout
import Idealize.ShloMosaic.Lib.ValueIdx
import Idealize.ShloMosaic.Lib.ValueLayout

set_option quotPrecheck false

noncomputable section

namespace Cert.Stitch

open Idealize.ShloMosaic Idealize.ShloMosaic.ValueIdx Idealize.ShloMosaic.StableHlo Idealize.SL.Sem Idealize.ShloMosaic.TcCoe
open Cert.KernelIdeal Cert.KernelIdeal.Gen Cert.ReferenceIdeal.Read Cert.Reals
open scoped BigOperators

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-- A host stretch leaves a buffer it does not write as it found it. -/
local macro "kept" : tactic => `(tactic| (show StableHlo.after _ _ _ = _; after_results_simp))

/-! ## The argument arrays and the edge list's rows, carried -/

theorem W1_arg0 : W1 m ρ c (Proc.devRef .tc main_arg0) = x0 := by kept
theorem W1_arg2 : W1 m ρ c (Proc.devRef .tc main_arg2) = x2 := by kept
theorem W1_arg3 : W1 m ρ c (Proc.devRef .tc main_arg3) = x3 := by kept
theorem W1_arg4 : W1 m ρ c (Proc.devRef .tc main_arg4) = x4 := by kept
theorem W1_arg5 : W1 m ρ c (Proc.devRef .tc main_arg5) = x5 := by kept
theorem W1_arg6 : W1 m ρ c (Proc.devRef .tc main_arg6) = x6 := by kept
theorem W1_arg7 : W1 m ρ c (Proc.devRef .tc main_arg7) = x7 := by kept
theorem W1_arg8 : W1 m ρ c (Proc.devRef .tc main_arg8) = x8 := by kept
theorem W1_arg9 : W1 m ρ c (Proc.devRef .tc main_arg9) = x9 := by kept

/-- The edge list's first row, as a vector: the source row numbers. -/
theorem W1_v1 : W1 m ρ c (Proc.devRef .tc main_v1) = val_main_v1 (F := Ideal) x1 := by
  show StableHlo.after hostOps0 (W0 m ρ c) (Proc.devRef .tc main_v1) = _
  after_results_simp
  rfl
/-- The edge list's second row: the destination row numbers. -/
theorem W1_v3 : W1 m ρ c (Proc.devRef .tc main_v3) = val_main_v3 (F := Ideal) x1 := by
  show StableHlo.after hostOps0 (W0 m ρ c) (Proc.devRef .tc main_v3) = _
  after_results_simp
  rfl

theorem W2_v1 : W2 m ρ c (Proc.devRef .tc main_v1) = val_main_v1 (F := Ideal) x1 :=
  (W2_of_ne m ρ c main_v1 (by decide)).trans (W1_v1 m ρ c)
theorem W2_v3 : W2 m ρ c (Proc.devRef .tc main_v3) = val_main_v3 (F := Ideal) x1 :=
  (W2_of_ne m ρ c main_v3 (by decide)).trans (W1_v3 m ρ c)
theorem W2_arg3 : W2 m ρ c (Proc.devRef .tc main_arg3) = x3 := (W2_of_ne m ρ c main_arg3 (by decide)).trans (W1_arg3 m ρ c)
theorem W2_arg4 : W2 m ρ c (Proc.devRef .tc main_arg4) = x4 := (W2_of_ne m ρ c main_arg4 (by decide)).trans (W1_arg4 m ρ c)
theorem W2_arg5 : W2 m ρ c (Proc.devRef .tc main_arg5) = x5 := (W2_of_ne m ρ c main_arg5 (by decide)).trans (W1_arg5 m ρ c)
theorem W2_arg6 : W2 m ρ c (Proc.devRef .tc main_arg6) = x6 := (W2_of_ne m ρ c main_arg6 (by decide)).trans (W1_arg6 m ρ c)
theorem W2_arg7 : W2 m ρ c (Proc.devRef .tc main_arg7) = x7 := (W2_of_ne m ρ c main_arg7 (by decide)).trans (W1_arg7 m ρ c)
theorem W2_arg8 : W2 m ρ c (Proc.devRef .tc main_arg8) = x8 := (W2_of_ne m ρ c main_arg8 (by decide)).trans (W1_arg8 m ρ c)
theorem W2_arg9 : W2 m ρ c (Proc.devRef .tc main_arg9) = x9 := (W2_of_ne m ρ c main_arg9 (by decide)).trans (W1_arg9 m ρ c)

theorem W3_of_W2 (b : Ref sig .tc) (h : StableHlo.after hostOps1 (W2 m ρ c) (Proc.devRef .tc b) = W2 m ρ c (Proc.devRef .tc b)) :
    W3 m ρ c (Proc.devRef .tc b) = W2 m ρ c (Proc.devRef .tc b) := h

theorem W4_arg4 : W4 m ρ c (Proc.devRef .tc main_arg4) = x4 :=
  (W4_of_ne m ρ c main_arg4 (by decide)).trans ((by kept : W3 m ρ c (Proc.devRef .tc main_arg4) = W2 m ρ c (Proc.devRef .tc main_arg4)).trans (W2_arg4 m ρ c))
theorem W4_arg5 : W4 m ρ c (Proc.devRef .tc main_arg5) = x5 :=
  (W4_of_ne m ρ c main_arg5 (by decide)).trans ((by kept : W3 m ρ c (Proc.devRef .tc main_arg5) = W2 m ρ c (Proc.devRef .tc main_arg5)).trans (W2_arg5 m ρ c))
theorem W4_arg6 : W4 m ρ c (Proc.devRef .tc main_arg6) = x6 :=
  (W4_of_ne m ρ c main_arg6 (by decide)).trans ((by kept : W3 m ρ c (Proc.devRef .tc main_arg6) = W2 m ρ c (Proc.devRef .tc main_arg6)).trans (W2_arg6 m ρ c))
theorem W4_arg7 : W4 m ρ c (Proc.devRef .tc main_arg7) = x7 :=
  (W4_of_ne m ρ c main_arg7 (by decide)).trans ((by kept : W3 m ρ c (Proc.devRef .tc main_arg7) = W2 m ρ c (Proc.devRef .tc main_arg7)).trans (W2_arg7 m ρ c))
theorem W4_arg8 : W4 m ρ c (Proc.devRef .tc main_arg8) = x8 :=
  (W4_of_ne m ρ c main_arg8 (by decide)).trans ((by kept : W3 m ρ c (Proc.devRef .tc main_arg8) = W2 m ρ c (Proc.devRef .tc main_arg8)).trans (W2_arg8 m ρ c))
theorem W4_arg9 : W4 m ρ c (Proc.devRef .tc main_arg9) = x9 :=
  (W4_of_ne m ρ c main_arg9 (by decide)).trans ((by kept : W3 m ρ c (Proc.devRef .tc main_arg9) = W2 m ρ c (Proc.devRef .tc main_arg9)).trans (W2_arg9 m ρ c))
theorem W4_v1 : W4 m ρ c (Proc.devRef .tc main_v1) = val_main_v1 (F := Ideal) x1 :=
  (W4_of_ne m ρ c main_v1 (by decide)).trans ((by kept : W3 m ρ c (Proc.devRef .tc main_v1) = W2 m ρ c (Proc.devRef .tc main_v1)).trans (W2_v1 m ρ c))
theorem W4_v3 : W4 m ρ c (Proc.devRef .tc main_v3) = val_main_v3 (F := Ideal) x1 :=
  (W4_of_ne m ρ c main_v3 (by decide)).trans ((by kept : W3 m ρ c (Proc.devRef .tc main_v3) = W2 m ρ c (Proc.devRef .tc main_v3)).trans (W2_v3 m ρ c))

/-- From region 1's exit to region 3's exit a buffer that the second host stretch does not write and that is none of
    regions 2 and 3's arrays is carried. -/
theorem W7_of_W4 (b : Ref sig .tc) (h2 : ∀ w, Pipeline.arrRef spec2 w ≠ b) (h3 : ∀ w, Pipeline.arrRef spec3 w ≠ b)
    (hk : W5 m ρ c (Proc.devRef .tc b) = W4 m ρ c (Proc.devRef .tc b)) :
    W7 m ρ c (Proc.devRef .tc b) = W4 m ρ c (Proc.devRef .tc b) :=
  (W7_of_ne m ρ c b h3).trans ((W6_of_ne m ρ c b h2).trans hk)

theorem W6_arg6 : W6 m ρ c (Proc.devRef .tc main_arg6) = x6 :=
  (W6_of_ne m ρ c main_arg6 (by decide)).trans ((by kept : W5 m ρ c (Proc.devRef .tc main_arg6) = W4 m ρ c (Proc.devRef .tc main_arg6)).trans (W4_arg6 m ρ c))
theorem W7_v1 : W7 m ρ c (Proc.devRef .tc main_v1) = val_main_v1 (F := Ideal) x1 :=
  (W7_of_W4 m ρ c main_v1 (by decide) (by decide) (by kept)).trans (W4_v1 m ρ c)
theorem W7_v3 : W7 m ρ c (Proc.devRef .tc main_v3) = val_main_v3 (F := Ideal) x1 :=
  (W7_of_W4 m ρ c main_v3 (by decide) (by decide) (by kept)).trans (W4_v3 m ρ c)
theorem W7_arg7 : W7 m ρ c (Proc.devRef .tc main_arg7) = x7 :=
  (W7_of_W4 m ρ c main_arg7 (by decide) (by decide) (by kept)).trans (W4_arg7 m ρ c)
theorem W7_arg8 : W7 m ρ c (Proc.devRef .tc main_arg8) = x8 :=
  (W7_of_W4 m ρ c main_arg8 (by decide) (by decide) (by kept)).trans (W4_arg8 m ρ c)
theorem W7_arg9 : W7 m ρ c (Proc.devRef .tc main_arg9) = x9 :=
  (W7_of_W4 m ρ c main_arg9 (by decide) (by decide) (by kept)).trans (W4_arg9 m ρ c)
theorem W9_arg8 : W9 m ρ c (Proc.devRef .tc main_arg8) = x8 :=
  (W9_of_ne m ρ c main_arg8 (by decide)).trans ((by kept : W8 m ρ c (Proc.devRef .tc main_arg8) = W7 m ρ c (Proc.devRef .tc main_arg8)).trans (W7_arg8 m ρ c))
theorem W9_arg9 : W9 m ρ c (Proc.devRef .tc main_arg9) = x9 :=
  (W9_of_ne m ρ c main_arg9 (by decide)).trans ((by kept : W8 m ρ c (Proc.devRef .tc main_arg9) = W7 m ρ c (Proc.devRef .tc main_arg9)).trans (W7_arg9 m ρ c))

/-! ## Region 0: the feature product -/

/-- Region 0 multiplies the node features by the first weight matrix, row block by row block: its output array is the
    reference's matrix product, entry by entry a sum over the 384 input features. -/
theorem W2_v4 : W2 m ρ c (Proc.devRef .tc main_v4) = val_main_v4 (F := Ideal) x0 x2 := by
  funext i
  obtain ⟨r, q, rfl⟩ : ∃ (r : Fin 100000) (q : Fin 256), i = ix2 r q := ⟨i 0, i 1, eq_ix2 (n0 := 100000) (n1 := 256) i⟩
  rw [Cert.RefForms.h_apply]
  exact (congrFun (W2_arr m ρ c 2) (ix2 r q)).trans
    (Cert.KernelIdeal.Region0.out_rows (V1 m ρ) c x0 x2 (W1_arg0 m ρ c) (W1_arg2 m ρ c) r q)

/-! ## The host stretch between regions 0 and 1: the reference's own operations -/

theorem W3_v4 : W3 m ρ c (Proc.devRef .tc main_v4) = val_main_v4 (F := Ideal) x0 x2 :=
  (by kept : W3 m ρ c (Proc.devRef .tc main_v4) = W2 m ρ c (Proc.devRef .tc main_v4)).trans (W2_v4 m ρ c)

/-- The neighbourhood aggregate: the same gathers, products and scatter-adds as the reference's, on equal inputs. -/
theorem W3_v51 : W3 m ρ c (Proc.devRef .tc main_v51) = val_main_v49 (F := Ideal) x0 x1 x2 := by
  show StableHlo.after hostOps1 (W2 m ρ c) (Proc.devRef .tc main_v51) = _
  after_results_simp
  rw [W2_v1 m ρ c, W2_v3 m ρ c, W2_v4 m ρ c]
  rfl

/-- The reciprocal degree, as the column the kernel's window takes. -/
theorem W3_v52 : W3 m ρ c (Proc.devRef .tc main_v52)
    = shapeCast S100000x1 (val_main_v51 (F := Ideal) x1) shapeCasts_S100000_S100000x1 := by
  show StableHlo.after hostOps1 (W2 m ρ c) (Proc.devRef .tc main_v52) = _
  after_results_simp
  rw [W2_v3 m ρ c]
  rfl

/-- The bias, as the row the kernel's window takes. -/
theorem W3_v53 : W3 m ρ c (Proc.devRef .tc main_v53) = shapeCast S1x256 x3 shapeCasts_S256_S1x256 := by
  show StableHlo.after hostOps1 (W2 m ρ c) (Proc.devRef .tc main_v53) = _
  after_results_simp
  rw [W2_arg3 m ρ c]
  rfl

/-! ## Region 1: the combined activations and their column sums -/

/-- Region 1's combined entry, at the reference's stages: aggregate + feature · reciprocal degree of the row + bias of
    the column, the last two read through the column and the row the kernel's windows take. -/
def yK (r : Fin 100000) (q : Fin 256) : EReal :=
  Cert.KernelIdeal.Region1.y (val_main_v49 (F := Ideal) x0 x1 x2) (val_main_v4 (F := Ideal) x0 x2)
    (shapeCast S100000x1 (val_main_v51 (F := Ideal) x1) shapeCasts_S100000_S100000x1)
    (shapeCast S1x256 x3 shapeCasts_S256_S1x256) r q

/-- It is the reference's pre-normalisation entry. -/
theorem yK_eq (r : Fin 100000) (q : Fin 256) : yK m c r q = val_main_v58 (F := Ideal) x0 x1 x2 x3 (ix2 r q) := by
  rw [Cert.RefForms.y1_apply]
  unfold yK Cert.KernelIdeal.Region1.y
  rw [Cert.ColumnLayout.shapeCast_a_a1_apply, shapeCast_a_1a_apply]

theorem W4_y : W4 m ρ c (Proc.devRef .tc main_v54_0) = val_main_v58 (F := Ideal) x0 x1 x2 x3 := by
  funext i
  obtain ⟨r, q, rfl⟩ : ∃ (r : Fin 100000) (q : Fin 256), i = ix2 r q := ⟨i 0, i 1, eq_ix2 (n0 := 100000) (n1 := 256) i⟩
  exact ((congrFun (W4_arr m ρ c 4) (ix2 r q)).trans
    (Cert.KernelIdeal.Region1.out_y (V3 m ρ) c _ _ _ _ (W3_v51 m ρ c) (W3_v4 m ρ c) (W3_v52 m ρ c) (W3_v53 m ρ c) r q)).trans
    (yK_eq m c r q)

/-- The column sums of y over all 100000 rows. -/
theorem W4_s (q : Fin 256) : (W4 m ρ c (Proc.devRef .tc main_v54_1) : S1x256.Idx → EReal) (ix2 (0 : Fin 1) q)
    = ∑ r : Fin 100000, val_main_v58 (F := Ideal) x0 x1 x2 x3 (ix2 r q) := by
  have h := (congrFun (W4_arr m ρ c 5) (ix2 (0 : Fin 1) q)).trans
    (Cert.KernelIdeal.Region1.out_sum (V3 m ρ) c _ _ _ _ (W3_v51 m ρ c) (W3_v4 m ρ c) (W3_v52 m ρ c) (W3_v53 m ρ c) q)
  exact (show @Eq EReal _ _ from h).trans (show @Eq EReal _ _ from Finset.sum_congr rfl fun r _ => yK_eq m c r q)

/-- The column sums of y · y. -/
theorem W4_ss (q : Fin 256) : (W4 m ρ c (Proc.devRef .tc main_v54_2) : S1x256.Idx → EReal) (ix2 (0 : Fin 1) q)
    = ∑ r : Fin 100000, val_main_v58 (F := Ideal) x0 x1 x2 x3 (ix2 r q) * val_main_v58 (F := Ideal) x0 x1 x2 x3 (ix2 r q) := by
  have h := (congrFun (W4_arr m ρ c 6) (ix2 (0 : Fin 1) q)).trans
    (Cert.KernelIdeal.Region1.out_sumsq (V3 m ρ) c _ _ _ _ (W3_v51 m ρ c) (W3_v4 m ρ c) (W3_v52 m ρ c) (W3_v53 m ρ c) q)
  exact (show @Eq EReal _ _ from h).trans (show @Eq EReal _ _ from Finset.sum_congr rfl fun r _ =>
      congrArg₂ (fun a b : EReal => a * b) (yK_eq m c r q) (yK_eq m c r q))

end Cert.Stitch

end
-- ==== Proof.LibBatchNormAffine.lean ====
/-
  Batch normalisation over the rows of a matrix, in the two spellings a fused kernel and a textbook reference use,
  over the extended reals at finite data.

  A column of a matrix has entries h i (i ranging over a finite row type ι with n rows), to which a bias b is added.
  The textbook form subtracts the column mean of (h + b), divides by the square root of the (biased) column variance of
  (h + b) plus ε, multiplies by γ and adds β.  A fused kernel instead keeps only the two column sums
  cs = ∑ h and css = ∑ h², and applies ONE affine map  h ↦ h·scale + shift  with
      μ     = cs / n + b
      E[y²] = (css + 2·b·cs) / n + b·b
      var   = E[y²] − μ·μ
      scale = γ · rsqrt (var + ε)
      shift = (b − μ) · scale + β.
  Over the reals the two are one function: the mean of (h + b) is cs / n + b, the variance of (h + b) is
  css / n − (cs / n)² (the bias cancels), b − μ = −cs / n, and x / √v = x · rsqrt v for v > 0.
  At the ideal instance every entry is an extended real; the statements below are for entries that are coercions of
  reals (finite data), where every operation involved (the quotient by n ≠ 0, the square root of a nonnegative number,
  the reciprocal square root of a positive number) stays among the reals.
-/
import Idealize.ShloMosaic.PureOps.Ideal
import Mathlib.Tactic

noncomputable section

open scoped BigOperators

namespace Idealize.ShloMosaic.LibBatchNormAffine

open Idealize.ShloMosaic

variable {ι : Type*} [Fintype ι]

/-! ## The ideal operations at real arguments -/

/-- The coercion from the reals commutes with a finite sum. -/
theorem coe_sum {κ : Type*} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The ideal square root of a nonnegative real is the real square root. -/
theorem sqrt_coe_of_nonneg {x : ℝ} (hx : 0 ≤ x) : Ideal.sqrt (x : EReal) = (Real.sqrt x : EReal) := by
  show (if x < 0 then (⊥ : EReal) else (Real.sqrt x : EReal)) = _
  rw [if_neg (not_lt.2 hx)]

/-- The ideal reciprocal square root of a positive real is the inverse of the real square root. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 hx.le), if_neg (ne_of_gt hx)]

/-- A contraction of real factors is the real contraction: a matrix product of finite matrices is finite, entry by
    entry. -/
theorem dot_coe {κ : Type*} (s : Finset κ) (a c : κ → ℝ) :
    ∑ k ∈ s, (a k : EReal) * (c k : EReal) = ((∑ k ∈ s, a k * c k : ℝ) : EReal) := by
  rw [coe_sum]
  exact Finset.sum_congr rfl fun k _ => (EReal.coe_mul _ _).symm

/-- Dividing by the square root of a positive real is multiplying by its reciprocal square root. -/
theorem div_sqrt_eq_mul_rsqrt (x : ℝ) {v : ℝ} (hv : 0 < v) :
    Ideal.div (x : EReal) (Ideal.sqrt (v : EReal)) = (x : EReal) * Ideal.rsqrt (v : EReal) := by
  rw [sqrt_coe_of_nonneg hv.le, rsqrt_coe_of_pos hv, div_coe_coe _ (ne_of_gt (Real.sqrt_pos.2 hv)),
    ← EReal.coe_mul, div_eq_mul_inv]

/-! ## Over the reals -/

/-- The column mean of h + b is the column mean of h, plus b. -/
theorem mean_add (h : ι → ℝ) (b n : ℝ) (hn : (Fintype.card ι : ℝ) = n) (hpos : 0 < n) :
    (∑ j, (h j + b)) / n = (∑ j, h j) / n + b := by
  have hne : n ≠ 0 := ne_of_gt hpos
  rw [Finset.sum_add_distrib, Finset.sum_const, Finset.card_univ, nsmul_eq_mul, hn]
  field_simp

/-- The variance a kernel reads off the two column sums, E[y²] − μ², is the centred variance of h + b
    (and the bias b cancels out of it). -/
theorem var_of_sums (h : ι → ℝ) (b n : ℝ) (hn : (Fintype.card ι : ℝ) = n) (hpos : 0 < n) :
    ((∑ i, h i * h i) + 2 * b * (∑ i, h i)) / n + b * b - ((∑ i, h i) / n + b) * ((∑ i, h i) / n + b)
      = (∑ i, ((h i + b) - (∑ j, (h j + b)) / n) * ((h i + b) - (∑ j, (h j + b)) / n)) / n := by
  have hne : n ≠ 0 := ne_of_gt hpos
  rw [mean_add h b n hn hpos]
  have hsq : ∀ i, ((h i + b) - ((∑ j, h j) / n + b)) * ((h i + b) - ((∑ j, h j) / n + b))
      = h i * h i - 2 * ((∑ j, h j) / n) * h i + ((∑ j, h j) / n) * ((∑ j, h j) / n) := by
    intro i; ring
  simp only [hsq]
  rw [Finset.sum_add_distrib, Finset.sum_sub_distrib, ← Finset.mul_sum, Finset.sum_const, Finset.card_univ,
    nsmul_eq_mul, hn]
  field_simp
  ring

/-- The plain form of the same: the mean of the squares less the square of the mean is the centred variance. -/
theorem var_of_sums_plain (h : ι → ℝ) (n : ℝ) (hn : (Fintype.card ι : ℝ) = n) (hpos : 0 < n) :
    (∑ i, h i * h i) / n - ((∑ i, h i) / n) * ((∑ i, h i) / n)
      = (∑ i, (h i - (∑ j, h j) / n) * (h i - (∑ j, h j) / n)) / n := by
  have hne : n ≠ 0 := ne_of_gt hpos
  have hsq : ∀ i, (h i - (∑ j, h j) / n) * (h i - (∑ j, h j) / n)
      = h i * h i - 2 * ((∑ j, h j) / n) * h i + ((∑ j, h j) / n) * ((∑ j, h j) / n) := by
    intro i; ring
  simp only [hsq]
  rw [Finset.sum_add_distrib, Finset.sum_sub_distrib, ← Finset.mul_sum, Finset.sum_const, Finset.card_univ,
    nsmul_eq_mul, hn]
  field_simp
  ring

/-- Adding one number b to every entry of a column leaves its centred deviations, hence its variance, unchanged. -/
theorem centred_add (h : ι → ℝ) (b n : ℝ) (hn : (Fintype.card ι : ℝ) = n) (hpos : 0 < n) (i : ι) :
    (h i + b) - (∑ j, (h j + b)) / n = h i - (∑ j, h j) / n := by
  rw [mean_add h b n hn hpos]; ring

/-- The centred variance is nonnegative. -/
theorem centred_var_nonneg (y : ι → ℝ) (n : ℝ) (hpos : 0 < n) :
    0 ≤ (∑ i, (y i - (∑ j, y j) / n) * (y i - (∑ j, y j) / n)) / n :=
  div_nonneg (Finset.sum_nonneg fun i _ => mul_self_nonneg _) hpos.le

/-- The textbook form over the reals: centre, divide by the deviation, scale, shift. -/
def refReal (y : ι → ℝ) (g be n ε : ℝ) (r : ι) : ℝ :=
  (y r - (∑ j, y j) / n)
    / Real.sqrt ((∑ i, (y i - (∑ j, y j) / n) * (y i - (∑ j, y j) / n)) / n + ε) * g + be

/-- The fused scale over the reals, from the two column sums. -/
def scaleReal (cs css b g n ε : ℝ) : ℝ :=
  g * (Real.sqrt ((css + 2 * b * cs) / n + b * b - (cs / n + b) * (cs / n + b) + ε))⁻¹

/-- The fused shift over the reals. -/
def shiftReal (cs css b g be n ε : ℝ) : ℝ :=
  (b - (cs / n + b)) * scaleReal cs css b g n ε + be

/-- Over the reals the affine form is the textbook form. -/
theorem affine_eq_refReal (h : ι → ℝ) (b g be n ε : ℝ) (hn : (Fintype.card ι : ℝ) = n) (hpos : 0 < n) (r : ι) :
    h r * scaleReal (∑ i, h i) (∑ i, h i * h i) b g n ε + shiftReal (∑ i, h i) (∑ i, h i * h i) b g be n ε
      = refReal (fun i => h i + b) g be n ε r := by
  unfold shiftReal scaleReal refReal
  rw [var_of_sums h b n hn hpos, mean_add h b n hn hpos]
  rw [div_eq_mul_inv]
  ring

/-! ## Over the extended reals, at finite data -/

/-- The fused scale as the kernel computes it, operation by operation. -/
def scale (cs css b g n ε : EReal) : EReal :=
  g * Ideal.rsqrt
    ((Ideal.div (css + ((2 : ℝ) : EReal) * b * cs) n + b * b) - (Ideal.div cs n + b) * (Ideal.div cs n + b) + ε)

/-- The fused shift as the kernel computes it. -/
def shift (cs css b g be n ε : EReal) : EReal :=
  (b - (Ideal.div cs n + b)) * scale cs css b g n ε + be

/-- The textbook form as the reference computes it, operation by operation: the mean by a sum and a quotient, the
    variance by a second sum of squared deviations and a quotient, then the quotient by the square root. -/
def ref (y : ι → EReal) (g be n ε : EReal) (r : ι) : EReal :=
  Ideal.div (y r - Ideal.div (∑ j, y j) n)
    (Ideal.sqrt (Ideal.div (∑ i, (y i - Ideal.div (∑ j, y j) n) * (y i - Ideal.div (∑ j, y j) n)) n + ε)) * g + be

/-- At real sums the fused scale is the real one; ε positive keeps the argument of the reciprocal root positive. -/
theorem scale_coe (h : ι → ℝ) (b g n ε : ℝ) (hn : (Fintype.card ι : ℝ) = n) (hpos : 0 < n) (hε : 0 < ε) :
    scale (∑ i, (h i : EReal)) (∑ i, (h i : EReal) * (h i : EReal)) b g n ε
      = ((scaleReal (∑ i, h i) (∑ i, h i * h i) b g n ε : ℝ) : EReal) := by
  have hne : n ≠ 0 := ne_of_gt hpos
  have hv : 0 < ((∑ i, h i * h i) + 2 * b * (∑ i, h i)) / n + b * b
      - ((∑ i, h i) / n + b) * ((∑ i, h i) / n + b) + ε := by
    rw [var_of_sums h b n hn hpos]
    exact add_pos_of_nonneg_of_pos (centred_var_nonneg _ n hpos) hε
  unfold scale scaleReal
  simp only [← EReal.coe_mul]
  rw [← coe_sum, ← coe_sum]
  simp only [← EReal.coe_mul, ← EReal.coe_add, div_coe_coe _ hne, ← EReal.coe_sub]
  rw [rsqrt_coe_of_pos hv, ← EReal.coe_mul]

/-- At real sums the fused shift is the real one. -/
theorem shift_coe (h : ι → ℝ) (b g be n ε : ℝ) (hn : (Fintype.card ι : ℝ) = n) (hpos : 0 < n) (hε : 0 < ε) :
    shift (∑ i, (h i : EReal)) (∑ i, (h i : EReal) * (h i : EReal)) b g be n ε
      = ((shiftReal (∑ i, h i) (∑ i, h i * h i) b g be n ε : ℝ) : EReal) := by
  have hne : n ≠ 0 := ne_of_gt hpos
  unfold shift shiftReal
  rw [scale_coe h b g n ε hn hpos hε, ← coe_sum]
  simp only [div_coe_coe _ hne, ← EReal.coe_add, ← EReal.coe_sub, ← EReal.coe_mul]

/-- At real entries the textbook form is the real one. -/
theorem ref_coe (y : ι → ℝ) (g be n ε : ℝ) (hpos : 0 < n) (hε : 0 < ε) (r : ι) :
    ref (fun i => (y i : EReal)) g be n ε r = ((refReal y g be n ε r : ℝ) : EReal) := by
  have hne : n ≠ 0 := ne_of_gt hpos
  have hv : 0 < (∑ i, (y i - (∑ j, y j) / n) * (y i - (∑ j, y j) / n)) / n + ε :=
    add_pos_of_nonneg_of_pos (centred_var_nonneg y n hpos) hε
  unfold ref refReal
  rw [← coe_sum]
  simp only [div_coe_coe _ hne, ← EReal.coe_sub, ← EReal.coe_mul]
  rw [← coe_sum]
  simp only [div_coe_coe _ hne, ← EReal.coe_add]
  rw [sqrt_coe_of_nonneg hv.le, div_coe_coe _ (ne_of_gt (Real.sqrt_pos.2 hv)), ← EReal.coe_mul, ← EReal.coe_add]

/-- THE LAW. At finite data the kernel's affine map, its coefficients computed from the two column sums of h, is
    the reference's batch normalisation of h + b: entry by entry the same extended real, and a real one. -/
theorem affine_eq_ref (h : ι → ℝ) (b g be n ε : ℝ) (hn : (Fintype.card ι : ℝ) = n) (hpos : 0 < n) (hε : 0 < ε)
    (r : ι) :
    (h r : EReal) * scale (∑ i, (h i : EReal)) (∑ i, (h i : EReal) * (h i : EReal)) b g n ε
        + shift (∑ i, (h i : EReal)) (∑ i, (h i : EReal) * (h i : EReal)) b g be n ε
      = ref (fun i => (h i : EReal) + (b : EReal)) g be n ε r := by
  rw [scale_coe h b g n ε hn hpos hε, shift_coe h b g be n ε hn hpos hε, ← EReal.coe_mul, ← EReal.coe_add,
    affine_eq_refReal h b g be n ε hn hpos r]
  simp only [← EReal.coe_add]
  exact (ref_coe (fun i => h i + b) g be n ε hpos hε r).symm

end Idealize.ShloMosaic.LibBatchNormAffine

end
-- ==== Proof.BnLaw.lean ====
/-
  The one law that joins the two programs' batch normalisation, in the two spellings they compute.

  One program reads the variance of a column off two column sums, E[y²] − (E[y])²; the other centres the column first and
  averages the squared deviations, starting each sum from the word of +0.0. Both divide by the word of 100000.0, the
  number of rows. At real entries the two agree (over the extended reals the identity fails at an infinite entry, so
  realness of the column is a hypothesis). The means agree with no hypothesis at all: adding zero changes nothing.

  Also here: a sum over the 100000 rows, regrouped as 20 tiles of 5000 consecutive rows.
-/
import proofs.«100399_j30279519436917_1_alg».proof.Proof.Reals
import proofs.«100399_j30279519436917_1_alg».proof.Proof.LibBatchNormAffine

noncomputable section

open scoped BigOperators

namespace Cert.BnLaw

open Idealize.ShloMosaic Cert.Reals

/-- The column mean, with or without a leading +0.0 in the sum. -/
theorem mean_eq (y : Fin 100000 → EReal) :
    Ideal.div (∑ k, y k) (Ideal.ofBits .f32 0x47C35000#32)
      = Ideal.div (Ideal.ofBits .f32 0x00000000#32 + ∑ k, y k) (Ideal.ofBits .f32 0x47C35000#32) := by
  rw [ofBits_zero, zero_add]

/-- Mean of the squares less the square of the mean is the mean of the squared deviations from the mean, at a real
    column of 100000 entries, each sum on the right started from +0.0. -/
theorem variance_eq (y : Fin 100000 → EReal) (hy : AllReal y) :
    Ideal.div (∑ k, y k * y k) (Ideal.ofBits .f32 0x47C35000#32)
        - Ideal.div (∑ k, y k) (Ideal.ofBits .f32 0x47C35000#32)
          * Ideal.div (∑ k, y k) (Ideal.ofBits .f32 0x47C35000#32)
      = Ideal.div
          (Ideal.ofBits .f32 0x00000000#32
            + ∑ k, (y k - Ideal.div (Ideal.ofBits .f32 0x00000000#32 + ∑ j, y j) (Ideal.ofBits .f32 0x47C35000#32))
                * (y k - Ideal.div (Ideal.ofBits .f32 0x00000000#32 + ∑ j, y j) (Ideal.ofBits .f32 0x47C35000#32)))
          (Ideal.ofBits .f32 0x47C35000#32) := by
  -- name the real entries
  choose r hr using hy
  simp only [hr, ofBits_zero, ofBits_rows, zero_add]
  have hn : (100000 : ℝ) ≠ 0 := by norm_num
  -- both column sums are real sums; so are their quotients by the row count
  have hsum : ∑ k, (r k : EReal) = ((∑ k, r k : ℝ) : EReal) := (LibBatchNormAffine.coe_sum _ _).symm
  have hsq : ∑ k, (r k : EReal) * (r k : EReal) = ((∑ k, r k * r k : ℝ) : EReal) :=
    LibBatchNormAffine.dot_coe _ _ _
  rw [hsq, hsum, LibBatchNormAffine.div_coe_coe _ hn, LibBatchNormAffine.div_coe_coe _ hn]
  -- each squared deviation is a real square
  have hc : ∀ k, ((r k : EReal) - (((∑ j, r j) / 100000 : ℝ) : EReal))
        * ((r k : EReal) - (((∑ j, r j) / 100000 : ℝ) : EReal))
      = (((r k - (∑ j, r j) / 100000) * (r k - (∑ j, r j) / 100000) : ℝ) : EReal) := by
    intro k; rw [← EReal.coe_sub, ← EReal.coe_mul]
  simp only [hc]
  rw [← LibBatchNormAffine.coe_sum, LibBatchNormAffine.div_coe_coe _ hn, ← EReal.coe_mul, ← EReal.coe_sub]
  -- the identity over the reals
  exact congrArg _ (LibBatchNormAffine.var_of_sums_plain r 100000 (by simp) (by norm_num))

/-- Row 5000 * t + p is position p of tile t: the 100000 rows are 20 tiles of 5000 consecutive rows. -/
def tileEquiv : Fin 20 × Fin 5000 ≃ Fin 100000 where
  toFun x := ⟨5000 * x.1.val + x.2.val, by omega⟩
  invFun r := (⟨r.val / 5000, by omega⟩, ⟨r.val % 5000, by omega⟩)
  left_inv x := by
    obtain ⟨t, p⟩ := x
    ext
    · show (5000 * t.val + p.val) / 5000 = t.val
      omega
    · show (5000 * t.val + p.val) % 5000 = p.val
      omega
  right_inv r := by
    ext
    show 5000 * (r.val / 5000) + r.val % 5000 = r.val
    omega

/-- A sum over the rows, tile by tile. -/
theorem sum_tiles {M : Type*} [AddCommMonoid M] (f : Fin 100000 → M) :
    ∑ r, f r = ∑ t : Fin 20, ∑ p : Fin 5000, f ⟨5000 * t.val + p.val, by omega⟩ := by
  rw [← Equiv.sum_comp tileEquiv f, Fintype.sum_prod_type]
  rfl

end Cert.BnLaw

end
-- ==== Proof.Region2.lean ====
/-
  The first layer's normalise-and-clip step, read off the pipeline's frame: every entry of the output array is the scale
  times the centred activation, times the reciprocal square root of the variance plus a small constant, plus the shift,
  clipped below at zero; mean, variance, scale and shift are one-row arrays read at the entry's column.
-/
import proofs.«100399_j30279519436917_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.ValueIdx Idealize.ShloMosaic.TcCoe
open Idealize.ShloMosaic.Pipeline (Dat)
open Cert.KernelIdeal Cert.KernelIdeal.Gen
open scoped BigOperators

/-! ## One block of rows: the normalised, clipped value at a row and a column -/

/-- The body's value at row `p`, column `q` of a block: the four one-row operands are read at column `q`; the scale times the
    centred entry, times the reciprocal square root of the variance plus the small constant, plus the shift, clipped below
    at zero. -/
theorem pay_apply (y : Vec Ideal S5000x256 .f32) (mu va ga be : Vec Ideal S1x256 .f32) (p : Fin 5000) (q : Fin 256) :
    k2_pay1 (F := Ideal) y mu va ga be (ix2 p q)
      = max ((ga (ix2 (0 : Fin 1) q) * (y (ix2 p q) - mu (ix2 (0 : Fin 1) q)))
                * Ideal.rsqrt (va (ix2 (0 : Fin 1) q) + Ideal.ofBits .f32 0x3727C5AC#32)
              + be (ix2 (0 : Fin 1) q)) (Ideal.ofBits .f32 0x00000000#32) := by
  unfold k2_pay1
  simp only [shapeCast_self]
  rw [maximumf_apply, addf_apply, mulf_apply, mulf_apply, subf_apply, broadcast_apply,
    broadcastTo_1b_ab_apply ga, broadcastTo_1b_ab_apply mu, broadcastTo_1b_ab_apply be, broadcastTo_1b_ab_apply _ _ p q]
  rfl

variable (V : (c : Dev nD) → (b : Ref sig .tc) → Buf (Elt Ideal) ((c : Thread nD τ).loc b))

/-! ## From the blocks to the whole array -/

theorem zero_offsets : (![0, 0] : Fin 2 → Nat) = fun _ => 0 := funext fun a => by fin_cases a <;> rfl

/-- The output array as one function of the five operand arrays: entry `i` uses the activations' entry `i` and the four rows'
    entries at column `i 1`. -/
def norm (Y : S100000x256.Idx → EReal) (Mu Va Ga Be : S1x256.Idx → EReal) : S100000x256.Idx → EReal :=
  fun i => max ((Ga (ix2 (0 : Fin 1) (⟨(i 1).val, (i 1).isLt⟩ : Fin 256))
                    * (Y i - Mu (ix2 (0 : Fin 1) (⟨(i 1).val, (i 1).isLt⟩ : Fin 256))))
                  * Ideal.rsqrt (Va (ix2 (0 : Fin 1) (⟨(i 1).val, (i 1).isLt⟩ : Fin 256)) + Ideal.ofBits .f32 0x3727C5AC#32)
                + Be (ix2 (0 : Fin 1) (⟨(i 1).val, (i 1).isLt⟩ : Fin 256))) (Ideal.ofBits .f32 0x00000000#32)

/-- The same, with the index's coordinates named. -/
theorem norm_apply (Y : S100000x256.Idx → EReal) (Mu Va Ga Be : S1x256.Idx → EReal) (i : S100000x256.Idx) (s : Fin 256)
    (hs : (i 1).val = s.val) :
    norm Y Mu Va Ga Be i
      = max ((Ga (ix2 (0 : Fin 1) s) * (Y i - Mu (ix2 (0 : Fin 1) s))) * Ideal.rsqrt (Va (ix2 (0 : Fin 1) s) + Ideal.ofBits .f32 0x3727C5AC#32)
              + Be (ix2 (0 : Fin 1) s)) (Ideal.ofBits .f32 0x00000000#32) := by
  obtain rfl : s = ⟨(i 1).val, (i 1).isLt⟩ := Fin.ext hs.symm
  rfl

/-- A block whose activations at `(p, q)` are the array's at `i` and whose four rows are the arrays' rows, read at column `q`,
    has at `(p, q)` the output array's entry `i`. -/
theorem block_apply (Y : S100000x256.Idx → EReal) (Mu Va Ga Be : S1x256.Idx → EReal)
    (y : Vec Ideal S5000x256 .f32) (mu va ga be : Vec Ideal S1x256 .f32) (p : Fin 5000) (q : Fin 256) (i : S100000x256.Idx)
    (hi : (i 1).val = q.val) (hy : y (ix2 p q) = Y i)
    (hmu : mu (ix2 (0 : Fin 1) q) = Mu (ix2 (0 : Fin 1) q)) (hva : va (ix2 (0 : Fin 1) q) = Va (ix2 (0 : Fin 1) q))
    (hga : ga (ix2 (0 : Fin 1) q) = Ga (ix2 (0 : Fin 1) q)) (hbe : be (ix2 (0 : Fin 1) q) = Be (ix2 (0 : Fin 1) q)) :
    k2_pay1 (F := Ideal) y mu va ga be (ix2 p q) = norm Y Mu Va Ga Be i := by
  rw [pay_apply, norm_apply Y Mu Va Ga Be i q hi, hy, hmu, hva, hga, hbe]

/-- The windows' block indices at grid point `t`: the activations and the output are at row block `t`, the four one-row
    operands at block 0 (decided over the 20 points). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 400000 in
/-- What grid point `t` writes back is block `t` of the output array: its activation block is rows `5000 t …` of the
    activations, its four one-row blocks are the four rows themselves. -/
theorem flushed_eq (c : Dev nD) (t : Fin cfg2.N) :
    (dat2 (F := Ideal) V c).flushed 5 t
      = ((cfg2.win 5).blk t).view.read (Elt Ideal)
          (norm (V c main_v54_0) (V c main_v63) (V c main_v64) (V c main_v65) (V c main_v66)) := by
  show (cfg2.win 5).cut (grid2.coords t) ((dat2 V c).after 5 t) = _
  rw [after2_5]
  unfold out2_5
  rw [View.canon_unit_zero zero_offsets]
  simp only [View.ld_unit_zero (S := S5000x256) zero_offsets, View.ld_unit_zero (S := S1x256) zero_offsets]
  obtain ⟨e0, e1, e2, e3, e4, e5, e6, e7, e8, e9, e10, e11⟩ := idx_facts t
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = norm (V c main_v54_0) (V c main_v63) (V c main_v64) (V c main_v65) (V c main_v66) (((cfg2.win 5).blk t).view.emb (ix2 p q))
  refine block_apply (V c main_v54_0) (V c main_v63) (V c main_v64) (V c main_v65) (V c main_v66)
    (iblk2 V c 0 t) (iblk2 V c 1 t) (iblk2 V c 2 t) (iblk2 V c 3 t) (iblk2 V c 4 t) p q
    (((cfg2.win 5).blk t).view.emb (ix2 p q)) ?_ ?_ ?_ ?_ ?_ ?_
  · show win2_5.index t (1 : Fin 2) * 256 + 1 * q.val = q.val
    omega
  · show V c main_v54_0 (((cfg2.win 0).blk t).view.emb (ix2 p q)) = V c main_v54_0 (((cfg2.win 5).blk t).view.emb (ix2 p q))
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 256 + 1 * q.val = win2_5.index t (1 : Fin 2) * 256 + 1 * q.val; omega
  · show V c main_v63 (((cfg2.win 1).blk t).view.emb (ix2 (0 : Fin 1) q)) = V c main_v63 (ix2 (0 : Fin 1) q)
    refine congrArg _ (funext fun a => Fin.ext ?_)
    match a with
    | ⟨0, _⟩ => show win2_1.index t (0 : Fin 2) * 1 + 1 * 0 = 0; omega
    | ⟨1, _⟩ => show win2_1.index t (1 : Fin 2) * 256 + 1 * q.val = q.val; omega
  · show V c main_v64 (((cfg2.win 2).blk t).view.emb (ix2 (0 : Fin 1) q)) = V c main_v64 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega
  · show V c main_v65 (((cfg2.win 3).blk t).view.emb (ix2 (0 : Fin 1) q)) = V c main_v65 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * q.val = q.val; omega
  · show V c main_v66 (((cfg2.win 4).blk t).view.emb (ix2 (0 : Fin 1) q)) = V c main_v66 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * q.val = q.val; omega

/-- An entry of the output array lies in point `t`'s block exactly when each coordinate lies in the block's range. -/
theorem mem_blk (t : Fin cfg2.N) (i : S100000x256.Idx) :
    i ∈ ((cfg2.win 5).blk t).view.set ↔ ∀ a : Fin 2, win2_5.index t a * S5000x256.size a ≤ (i a).val
      ∧ (i a).val < win2_5.index t a * S5000x256.size a + S5000x256.size a := by
  show i ∈ ((View.whole main_v67).slice (win2_5.rect t)).set ↔ _
  rw [View.set_slice_whole, Rect.mem_set_unit]
  exact Iff.rfl

/-- Row `r` is written back by grid point `r / 5000`. -/
theorem cover (i : S100000x256.Idx) :
    ∃ t : Fin cfg2.N, (cfg2.win 5).flush t = true ∧ i ∈ ((cfg2.win 5).blk t).view.set := by
  have hi0 : (i 0).val < 100000 := (i 0).isLt
  have hi1 : (i 1).val < 256 := (i 1).isLt
  have hN : cfg2.N = 20 := N_2
  have hlt : (i 0).val / 5000 < cfg2.N := lt_of_lt_of_eq (by omega : (i 0).val / 5000 < 20) hN.symm
  obtain ⟨e0, e1, e2, e3, e4, e5, e6, e7, e8, e9, e10, e11⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e10]
    show (i 0).val / 5000 * 5000 ≤ (i 0).val ∧ (i 0).val < (i 0).val / 5000 * 5000 + 5000
    omega
  | ⟨1, _⟩ =>
    show win2_5.index ⟨(i 0).val / 5000, hlt⟩ (1 : Fin 2) * 256 ≤ (i 1).val
      ∧ (i 1).val < win2_5.index ⟨(i 0).val / 5000, hlt⟩ (1 : Fin 2) * 256 + 256
    rw [e11]
    omega

/-- The output array after the region, as one function of the operand arrays as the region finds them. -/
theorem out_eq (c : Dev nD) :
    (dat2 (F := Ideal) V c).arrAt 5 cfg2.N
      = norm (V c main_v54_0) (V c main_v63) (V c main_v64) (V c main_v65) (V c main_v66) :=
  (dat2 (F := Ideal) V c).arrAt_eq_of_cover 5
    (norm (V c main_v54_0) (V c main_v63) (V c main_v64) (V c main_v65) (V c main_v66))
    (fun t _ => flushed_eq V c t) cover

/-- The output function at named coordinates. -/
theorem norm_ix2 (Y : S100000x256.Idx → EReal) (Mu Va Ga Be : S1x256.Idx → EReal) (r : Fin 100000) (q : Fin 256) :
    norm Y Mu Va Ga Be (ix2 r q)
      = max ((Ga (ix2 (0 : Fin 1) q) * (Y (ix2 r q) - Mu (ix2 (0 : Fin 1) q)))
                * Ideal.rsqrt (Va (ix2 (0 : Fin 1) q) + Ideal.ofBits .f32 0x3727C5AC#32)
              + Be (ix2 (0 : Fin 1) q)) (Ideal.ofBits .f32 0x00000000#32) :=
  norm_apply Y Mu Va Ga Be (ix2 r q) q rfl

/-- The output array after the region, entry by entry, for operand arrays that the region finds on entry: activations `Y`,
    mean row `Mu`, variance row `Va`, scale row `Ga`, shift row `Be`. -/
theorem out_norm (c : Dev nD) (Y : S100000x256.Idx → EReal) (Mu Va Ga Be : S1x256.Idx → EReal)
    (hY : V c main_v54_0 = Y) (hMu : V c main_v63 = Mu) (hVa : V c main_v64 = Va) (hGa : V c main_v65 = Ga) (hBe : V c main_v66 = Be)
    (r : Fin 100000) (q : Fin 256) :
    (dat2 (F := Ideal) V c).arrAt 5 cfg2.N (ix2 r q)
      = max ((Ga (ix2 (0 : Fin 1) q) * (Y (ix2 r q) - Mu (ix2 (0 : Fin 1) q)))
                * Ideal.rsqrt (Va (ix2 (0 : Fin 1) q) + Ideal.ofBits .f32 0x3727C5AC#32)
              + Be (ix2 (0 : Fin 1) q)) (Ideal.ofBits .f32 0x00000000#32) := by
  subst hY hMu hVa hGa hBe
  exact (congrFun (out_eq V c) (ix2 r q)).trans (norm_ix2 _ _ _ _ _ r q)

end Cert.KernelIdeal.Region2

end
-- ==== Proof.Region3.lean ====
/-
  The second dense layer's matrix product, read off the pipeline's frame: every entry of the product array is the sum, over
  the shared axis, of a row entry of the left operand times a column entry of the right operand.
-/
import proofs.«100399_j30279519436917_1_alg».proof.Proof.Gen.KernelIdeal.Frame
import proofs.«100399_j30279519436917_1_alg».proof.Proof.LibDenseRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.ValueIdx Idealize.ShloMosaic.TcCoe
open Idealize.ShloMosaic.Pipeline (Dat)
open Cert.KernelIdeal Cert.KernelIdeal.Gen
open scoped BigOperators

/-! ## One block of rows: the product at a row and a column -/

/-- The kept left axis of the block product is the output's row. -/
theorem lhs_row (j : S5000x256.Idx) (k : dot_S5000x256_S256x256_S5000x256_1_0_0_1_n_n.contr.Idx) :
    (dot_S5000x256_S256x256_S5000x256_1_0_0_1_n_n.lhsIdx j k (0 : Fin 2)).val = (j (0 : Fin 2)).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The kept right axis of the block product is the output's column. -/
theorem rhs_col (j : S5000x256.Idx) (k : dot_S5000x256_S256x256_S5000x256_1_0_0_1_n_n.contr.Idx) :
    (dot_S5000x256_S256x256_S5000x256_1_0_0_1_n_n.rhsIdx j k (1 : Fin 2)).val = (j (1 : Fin 2)).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The body's value at row `p`, column `q` of a block: the same-shape cast and the narrowing of the operands change nothing at the ideal values, and the
    product into the zero accumulator is the plain sum over the 256 shared entries. -/
theorem pay_apply (x0 : Vec Ideal S5000x256 .f32) (x1 : Vec Ideal S256x256 .f32) (p : Fin 5000) (q : Fin 256) :
    k3_pay1 (F := Ideal) x0 x1 (ix2 p q) = ∑ k : Fin 256, x0 (ix2 p k) * x1 (ix2 k q) := by
  unfold k3_pay1
  simp only [shapeCast_self]
  exact Cert.DenseRows.matmul_zero_plain_apply dot_S5000x256_S256x256_S5000x256_1_0_0_1_n_n rfl rfl rfl rfl lhs_row rhs_col
    (truncf .bf16 x0 bitsLt_bf16_f32) (truncf .bf16 x1 bitsLt_bf16_f32) p q

variable (V : (c : Dev nD) → (b : Ref sig .tc) → Buf (Elt Ideal) ((c : Thread nD τ).loc b))

/-! ## From the blocks to the whole array -/

theorem zero_offsets : (![0, 0] : Fin 2 → Nat) = fun _ => 0 := funext fun a => by fin_cases a <;> rfl

/-- The product array as one function of the two operand arrays: entry `i` is row `i 0` of the left operand against column
    `i 1` of the right operand. -/
def prod (A : S100000x256.Idx → EReal) (W : S256x256.Idx → EReal) : S100000x256.Idx → EReal :=
  fun i => ∑ k : Fin 256, A (ix2 (⟨(i 0).val, (i 0).isLt⟩ : Fin 100000) k) * W (ix2 k (⟨(i 1).val, (i 1).isLt⟩ : Fin 256))

/-- The same, with the index's coordinates named. -/
theorem prod_apply (A : S100000x256.Idx → EReal) (W : S256x256.Idx → EReal) (i : S100000x256.Idx) (r : Fin 100000) (s : Fin 256)
    (hr : (i 0).val = r.val) (hs : (i 1).val = s.val) :
    prod A W i = ∑ k : Fin 256, A (ix2 r k) * W (ix2 k s) := by
  obtain rfl : r = ⟨(i 0).val, (i 0).isLt⟩ := Fin.ext hr.symm
  obtain rfl : s = ⟨(i 1).val, (i 1).isLt⟩ := Fin.ext hs.symm
  rfl

/-- A block of rows whose entries are the operands' entries at row `r` (left) and column `s` (right) has, at `(p, q)`, the
    product array's entry `(r, s)`. -/
theorem block_apply (A : S100000x256.Idx → EReal) (W : S256x256.Idx → EReal)
    (x0 : Vec Ideal S5000x256 .f32) (x1 : Vec Ideal S256x256 .f32) (p : Fin 5000) (q : Fin 256) (r : Fin 100000) (s : Fin 256)
    (h0 : ∀ k : Fin 256, x0 (ix2 p k) = A (ix2 r k)) (h1 : ∀ k : Fin 256, x1 (ix2 k q) = W (ix2 k s)) :
    k3_pay1 (F := Ideal) x0 x1 (ix2 p q) = ∑ k : Fin 256, A (ix2 r k) * W (ix2 k s) := by
  rw [pay_apply]
  exact Finset.sum_congr rfl fun k _ => by rw [h0 k, h1 k]

/-- The windows' block indices at grid point `t`: the row-blocked windows are at row block `t`, the whole right operand at
    block 0 (decided over the 20 points). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What grid point `t` writes back is block `t` of the product array: its left block is rows `5000 t …` of the left operand,
    its right block the whole right operand. -/
theorem flushed_eq (c : Dev nD) (t : Fin cfg3.N) :
    (dat3 (F := Ideal) V c).flushed 2 t
      = ((cfg3.win 2).blk t).view.read (Elt Ideal) (prod (V c main_v67) (V c main_arg6)) := by
  show (cfg3.win 2).cut (grid3.coords t) ((dat3 V c).after 2 t) = _
  rw [after3_2]
  unfold out3_2
  rw [View.canon_unit_zero zero_offsets]
  simp only [View.ld_unit_zero (S := S5000x256) zero_offsets, View.ld_unit_zero (S := S256x256) zero_offsets]
  obtain ⟨e0, e1, e2, e3, e4, e5⟩ := idx_facts t
  have hN : cfg3.N = 20 := N_3
  have ht : t.val < 20 := lt_of_lt_of_eq t.isLt hN
  funext j
  obtain ⟨p, q, rfl⟩ : ∃ (p : Fin 5000) (q : Fin 256), j = ix2 p q := ⟨j 0, j 1, eq_ix2 j⟩
  have hp : p.val < 5000 := p.isLt
  show k3_pay1 (F := Ideal) (iblk3 V c 0 t) (iblk3 V c 1 t) (ix2 p q)
    = prod (V c main_v67) (V c main_arg6) (((cfg3.win 2).blk t).view.emb (ix2 p q))
  have hr : ((((cfg3.win 2).blk t).view.emb (ix2 p q)) 0).val = (⟨5000 * t.val + p.val, by omega⟩ : Fin 100000).val := by
    show win3_2.index t (0 : Fin 2) * 5000 + 1 * p.val = 5000 * t.val + p.val
    omega
  have hs : ((((cfg3.win 2).blk t).view.emb (ix2 p q)) 1).val = q.val := by
    show win3_2.index t (1 : Fin 2) * 256 + 1 * q.val = q.val
    omega
  refine (block_apply (V c main_v67) (V c main_arg6) (iblk3 V c 0 t) (iblk3 V c 1 t) p q
    ⟨5000 * t.val + p.val, by omega⟩ q (fun k => ?_) (fun k => ?_)).trans
    (prod_apply (V c main_v67) (V c main_arg6) _ ⟨5000 * t.val + p.val, by omega⟩ q hr hs).symm
  · show V c main_v67 (((cfg3.win 0).blk t).view.emb (ix2 p k)) = V c main_v67 (ix2 ⟨5000 * t.val + p.val, by omega⟩ k)
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 256 + 1 * k.val = k.val; omega
  · show V c main_arg6 (((cfg3.win 1).blk t).view.emb (ix2 k q)) = V c main_arg6 (ix2 k q)
    refine congrArg _ (funext fun a => Fin.ext ?_)
    match a with
    | ⟨0, _⟩ => show win3_1.index t (0 : Fin 2) * 256 + 1 * k.val = k.val; omega
    | ⟨1, _⟩ => show win3_1.index t (1 : Fin 2) * 256 + 1 * q.val = q.val; omega

/-- An entry of the product array lies in point `t`'s block exactly when each coordinate lies in the block's range. -/
theorem mem_blk (t : Fin cfg3.N) (i : S100000x256.Idx) :
    i ∈ ((cfg3.win 2).blk t).view.set ↔ ∀ a : Fin 2, win3_2.index t a * S5000x256.size a ≤ (i a).val
      ∧ (i a).val < win3_2.index t a * S5000x256.size a + S5000x256.size a := by
  show i ∈ ((View.whole main_v68).slice (win3_2.rect t)).set ↔ _
  rw [View.set_slice_whole, Rect.mem_set_unit]
  exact Iff.rfl

/-- Row `r` is written back by grid point `r / 5000`. -/
theorem cover (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  have hN : cfg3.N = 20 := N_3
  have hlt : (i 0).val / 5000 < cfg3.N := lt_of_lt_of_eq (by omega : (i 0).val / 5000 < 20) hN.symm
  obtain ⟨e0, e1, e2, e3, e4, e5⟩ := idx_facts ⟨(i 0).val / 5000, hlt⟩
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hlt⟩ (1 : Fin 2) * 256 ≤ (i 1).val
      ∧ (i 1).val < win3_2.index ⟨(i 0).val / 5000, hlt⟩ (1 : Fin 2) * 256 + 256
    rw [e5]
    omega

/-- The product array after the region, as one function of the operand arrays as the region finds them. -/
theorem out_eq (c : Dev nD) :
    (dat3 (F := Ideal) V c).arrAt 2 cfg3.N = prod (V c main_v67) (V c main_arg6) :=
  (dat3 (F := Ideal) V c).arrAt_eq_of_cover 2 (prod (V c main_v67) (V c main_arg6)) (fun t _ => flushed_eq V c t) cover

/-- The product function at named coordinates. -/
theorem prod_ix2 (A : S100000x256.Idx → EReal) (W : S256x256.Idx → EReal) (r : Fin 100000) (q : Fin 256) :
    prod A W (ix2 r q) = ∑ k : Fin 256, A (ix2 r k) * W (ix2 k q) :=
  prod_apply A W (ix2 r q) r q rfl rfl

/-- The product array after the region, entry by entry, for operand arrays `A`, `W` that the region finds on entry. -/
theorem out_rows (c : Dev nD) (A : S100000x256.Idx → EReal) (W : S256x256.Idx → EReal)
    (hA : V c main_v67 = A) (hW : V c main_arg6 = W) (r : Fin 100000) (q : Fin 256) :
    (dat3 (F := Ideal) V c).arrAt 2 cfg3.N (ix2 r q) = ∑ k : Fin 256, A (ix2 r k) * W (ix2 k q) := by
  subst hA hW
  exact (congrFun (out_eq V c) (ix2 r q)).trans (prod_ix2 _ _ r q)

end Cert.KernelIdeal.Region3

end
-- ==== Proof.StitchL1b.lean ====
/-
  The first layer from the statistics region's exit to the second dense product: the host's column mean and variance
  rows are the reference's (for real activations), the normalise-and-clip region then leaves the reference's layer
  output, and the dense region after it the reference's second dense product.
-/
import proofs.«100399_j30279519436917_1_alg».proof.Proof.Gen.KernelIdeal.Frame
import proofs.«100399_j30279519436917_1_alg».proof.Proof.RefRead
import proofs.«100399_j30279519436917_1_alg».proof.Proof.RefForms
import proofs.«100399_j30279519436917_1_alg».proof.Proof.BnLaw
import proofs.«100399_j30279519436917_1_alg».proof.Proof.Reals
import proofs.«100399_j30279519436917_1_alg».proof.Proof.Region2
import proofs.«100399_j30279519436917_1_alg».proof.Proof.Region3
import Idealize.ShloMosaic.Lib.ValueIdx
import Idealize.ShloMosaic.Lib.ValueLayout
import Idealize.ShloMosaic.Lib.IdealHost

noncomputable section

namespace Cert.Stitch

open Idealize.ShloMosaic Idealize.ShloMosaic.ValueIdx Idealize.ShloMosaic.StableHlo Idealize.SL.Sem Idealize.ShloMosaic.TcCoe
open Cert.KernelIdeal Cert.KernelIdeal.Gen Cert.ReferenceIdeal.Read Cert.Reals
open scoped BigOperators

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## The host's column statistics, entry by entry -/

/-- The row-count word spread along 256 entries. -/
abbrev rowCount : FVec Ideal S256 .f32 :=
  broadcastInDim S256 ![] bcast_S_S256 (constant (F := Ideal) S_ .f32 0x47C35000#32)

theorem rowCount_apply (q : Fin 256) : rowCount (ix1 q) = Ideal.ofBits .f32 0x47C35000#32 :=
  broadcastInDim_scalar_apply bcast_S_S256 _ (ix1 q)

/-- A one-row array of column sums, laid out as a vector and divided by the row count, reads at `q` the sum at column `q`
    over the row count. -/
theorem quot_apply (s : FVec Ideal S1x256 .f32) (q : Fin 256) :
    Host.divf (F := Ideal) (φ := .f32) (shapeCast S256 s shapeCasts_S1x256_S256) rowCount (ix1 q)
      = Ideal.div (s (ix2 (0 : Fin 1) q)) (Ideal.ofBits .f32 0x47C35000#32) := by
  rw [hostDivf_apply, shapeCast_1a_a_apply, rowCount_apply]

/-! ## What the host stretch between the statistics region and the normalise-and-clip region leaves -/

/-- A host stretch leaves a buffer it does not write as it found it. -/
local macro "kept" : tactic => `(tactic| (show StableHlo.after _ _ _ = _; after_results_simp))

/-- The activations pass the host stretch unchanged. -/
theorem W5_main_v54_0 : W5 m ρ c (Proc.devRef .tc main_v54_0) = W4 m ρ c (Proc.devRef .tc main_v54_0) := by kept

set_option maxHeartbeats 1000000 in
/-- The mean row: the column sums over the row count, which is the reference's column mean (its sum starts from +0.0). -/
theorem W5_main_v63
    (hs : ∀ q : Fin 256, (W4 m ρ c (Proc.devRef .tc main_v54_1) : S1x256.Idx → EReal) (ix2 (0 : Fin 1) q)
      = ∑ r : Fin 100000, val_main_v58 (F := Ideal) x0 x1 x2 x3 (ix2 r q)) :
    W5 m ρ c (Proc.devRef .tc main_v63)
      = shapeCast S1x256 (val_main_v61 (F := Ideal) x0 x1 x2 x3) shapeCasts_S256_S1x256 := by
  show StableHlo.after hostOps2 (W4 m ρ c) (Proc.devRef .tc main_v63) = _
  after_results_simp
  show shapeCast S1x256 (Host.divf (F := Ideal) (φ := .f32)
      (shapeCast S256 (W4 m ρ c (Proc.devRef .tc main_v54_1) : FVec Ideal S1x256 .f32) shapeCasts_S1x256_S256)
      rowCount) shapeCasts_S256_S1x256 = _
  refine congrArg (fun v : FVec Ideal S256 .f32 => shapeCast S1x256 v shapeCasts_S256_S1x256) (funext fun j => ?_)
  obtain ⟨q, rfl⟩ : ∃ q : Fin 256, j = ix1 q := ⟨j 0, eq_ix1 (n := 256) j⟩
  rw [quot_apply, hs q, Cert.RefForms.mean1_apply]
  exact Cert.BnLaw.mean_eq fun k => val_main_v58 (F := Ideal) x0 x1 x2 x3 (ix2 k q)

set_option maxHeartbeats 1000000 in
/-- The variance row: the mean of the squares less the square of the mean, which for real activations is the reference's
    mean of the squared deviations. -/
theorem W5_main_v64
    (hs : ∀ q : Fin 256, (W4 m ρ c (Proc.devRef .tc main_v54_1) : S1x256.Idx → EReal) (ix2 (0 : Fin 1) q)
      = ∑ r : Fin 100000, val_main_v58 (F := Ideal) x0 x1 x2 x3 (ix2 r q))
    (hss : ∀ q : Fin 256, (W4 m ρ c (Proc.devRef .tc main_v54_2) : S1x256.Idx → EReal) (ix2 (0 : Fin 1) q)
      = ∑ r : Fin 100000, val_main_v58 (F := Ideal) x0 x1 x2 x3 (ix2 r q) * val_main_v58 (F := Ideal) x0 x1 x2 x3 (ix2 r q))
    (hreal : AllReal (val_main_v58 (F := Ideal) x0 x1 x2 x3)) :
    W5 m ρ c (Proc.devRef .tc main_v64)
      = shapeCast S1x256 (val_main_v68 (F := Ideal) x0 x1 x2 x3) shapeCasts_S256_S1x256 := by
  show StableHlo.after hostOps2 (W4 m ρ c) (Proc.devRef .tc main_v64) = _
  after_results_simp
  show shapeCast S1x256 (subf (F := Ideal) (φ := .f32)
      (Host.divf (F := Ideal) (φ := .f32)
        (shapeCast S256 (W4 m ρ c (Proc.devRef .tc main_v54_2) : FVec Ideal S1x256 .f32) shapeCasts_S1x256_S256) rowCount)
      (mulf (F := Ideal) (φ := .f32)
        (Host.divf (F := Ideal) (φ := .f32)
          (shapeCast S256 (W4 m ρ c (Proc.devRef .tc main_v54_1) : FVec Ideal S1x256 .f32) shapeCasts_S1x256_S256) rowCount)
        (Host.divf (F := Ideal) (φ := .f32)
          (shapeCast S256 (W4 m ρ c (Proc.devRef .tc main_v54_1) : FVec Ideal S1x256 .f32) shapeCasts_S1x256_S256) rowCount)))
      shapeCasts_S256_S1x256 = _
  refine congrArg (fun v : FVec Ideal S256 .f32 => shapeCast S1x256 v shapeCasts_S256_S1x256) (funext fun j => ?_)
  obtain ⟨q, rfl⟩ : ∃ q : Fin 256, j = ix1 q := ⟨j 0, eq_ix1 (n := 256) j⟩
  rw [subf_apply, mulf_apply, quot_apply, quot_apply, hs q, hss q, Cert.RefForms.var1_apply, Cert.RefForms.mean1_apply]
  exact Cert.BnLaw.variance_eq (fun k => val_main_v58 (F := Ideal) x0 x1 x2 x3 (ix2 k q)) (hreal.comp fun k : Fin 100000 => ix2 k q)

/-- The scale row is the scale argument laid out as one row. -/
theorem W5_main_v65 (h4 : W4 m ρ c (Proc.devRef .tc main_arg4) = x4) :
    W5 m ρ c (Proc.devRef .tc main_v65) = shapeCast S1x256 x4 shapeCasts_S256_S1x256 := by
  show StableHlo.after hostOps2 (W4 m ρ c) (Proc.devRef .tc main_v65) = _
  after_results_simp
  show shapeCast S1x256 (W4 m ρ c (Proc.devRef .tc main_arg4)) shapeCasts_S256_S1x256 = _
  rw [h4]

/-- The shift row is the shift argument laid out as one row. -/
theorem W5_main_v66 (h5 : W4 m ρ c (Proc.devRef .tc main_arg5) = x5) :
    W5 m ρ c (Proc.devRef .tc main_v66) = shapeCast S1x256 x5 shapeCasts_S256_S1x256 := by
  show StableHlo.after hostOps2 (W4 m ρ c) (Proc.devRef .tc main_v66) = _
  after_results_simp
  show shapeCast S1x256 (W4 m ρ c (Proc.devRef .tc main_arg5)) shapeCasts_S256_S1x256 = _
  rw [h5]

/-! ## The normalised output, and the next dense product -/

set_option maxHeartbeats 1000000 in
/-- The normalise-and-clip region leaves the reference's layer output: its five operands are the reference's activations,
    mean, variance, and the scale and shift arguments, the four rows read at the entry's column. -/
theorem W6_v67
    (hy : W4 m ρ c (Proc.devRef .tc main_v54_0) = val_main_v58 (F := Ideal) x0 x1 x2 x3)
    (hs : ∀ q : Fin 256, (W4 m ρ c (Proc.devRef .tc main_v54_1) : S1x256.Idx → EReal) (ix2 (0 : Fin 1) q)
      = ∑ r : Fin 100000, val_main_v58 (F := Ideal) x0 x1 x2 x3 (ix2 r q))
    (hss : ∀ q : Fin 256, (W4 m ρ c (Proc.devRef .tc main_v54_2) : S1x256.Idx → EReal) (ix2 (0 : Fin 1) q)
      = ∑ r : Fin 100000, val_main_v58 (F := Ideal) x0 x1 x2 x3 (ix2 r q) * val_main_v58 (F := Ideal) x0 x1 x2 x3 (ix2 r q))
    (h4 : W4 m ρ c (Proc.devRef .tc main_arg4) = x4) (h5 : W4 m ρ c (Proc.devRef .tc main_arg5) = x5)
    (hreal : AllReal (val_main_v58 (F := Ideal) x0 x1 x2 x3)) :
    W6 m ρ c (Proc.devRef .tc main_v67) = val_main_v84 (F := Ideal) x0 x1 x2 x3 x4 x5 := by
  funext i
  obtain ⟨r, q, rfl⟩ : ∃ (r : Fin 100000) (q : Fin 256), i = ix2 r q := ⟨i 0, i 1, eq_ix2 (n0 := 100000) (n1 := 256) i⟩
  refine ((congrFun (W6_arr m ρ c 5) (ix2 r q)).trans
    (Cert.KernelIdeal.Region2.out_norm (V5 m ρ) c
      (val_main_v58 (F := Ideal) x0 x1 x2 x3)
      (shapeCast S1x256 (val_main_v61 (F := Ideal) x0 x1 x2 x3) shapeCasts_S256_S1x256)
      (shapeCast S1x256 (val_main_v68 (F := Ideal) x0 x1 x2 x3) shapeCasts_S256_S1x256)
      (shapeCast S1x256 x4 shapeCasts_S256_S1x256)
      (shapeCast S1x256 x5 shapeCasts_S256_S1x256)
      ((W5_main_v54_0 m ρ c).trans hy) (W5_main_v63 m ρ c hs) (W5_main_v64 m ρ c hs hss hreal)
      (W5_main_v65 m ρ c h4) (W5_main_v66 m ρ c h5) r q)).trans ?_
  rw [shapeCast_a_1a_apply, shapeCast_a_1a_apply, shapeCast_a_1a_apply, shapeCast_a_1a_apply, Cert.RefForms.out1_apply]

set_option maxHeartbeats 1000000 in
/-- The dense region that follows multiplies that output by the next weight matrix: the reference's next dense product. -/
theorem W7_v68
    (hy : W4 m ρ c (Proc.devRef .tc main_v54_0) = val_main_v58 (F := Ideal) x0 x1 x2 x3)
    (hs : ∀ q : Fin 256, (W4 m ρ c (Proc.devRef .tc main_v54_1) : S1x256.Idx → EReal) (ix2 (0 : Fin 1) q)
      = ∑ r : Fin 100000, val_main_v58 (F := Ideal) x0 x1 x2 x3 (ix2 r q))
    (hss : ∀ q : Fin 256, (W4 m ρ c (Proc.devRef .tc main_v54_2) : S1x256.Idx → EReal) (ix2 (0 : Fin 1) q)
      = ∑ r : Fin 100000, val_main_v58 (F := Ideal) x0 x1 x2 x3 (ix2 r q) * val_main_v58 (F := Ideal) x0 x1 x2 x3 (ix2 r q))
    (h4 : W4 m ρ c (Proc.devRef .tc main_arg4) = x4) (h5 : W4 m ρ c (Proc.devRef .tc main_arg5) = x5)
    (hreal : AllReal (val_main_v58 (F := Ideal) x0 x1 x2 x3))
    (h6 : W6 m ρ c (Proc.devRef .tc main_arg6) = x6) :
    W7 m ρ c (Proc.devRef .tc main_v68) = val_main_v85 (F := Ideal) x0 x1 x2 x3 x4 x5 x6 := by
  funext i
  obtain ⟨r, q, rfl⟩ : ∃ (r : Fin 100000) (q : Fin 256), i = ix2 r q := ⟨i 0, i 1, eq_ix2 (n0 := 100000) (n1 := 256) i⟩
  refine ((congrFun (W7_arr m ρ c 2) (ix2 r q)).trans
    (Cert.KernelIdeal.Region3.out_rows (V6 m ρ) c
      (val_main_v84 (F := Ideal) x0 x1 x2 x3 x4 x5) x6
      (W6_v67 m ρ c hy hs hss h4 h5 hreal) h6 r q)).trans ?_
  rw [Cert.RefForms.h2_apply]

end Cert.Stitch

end
-- ==== Proof.StitchL2a.lean ====
/-
  The kernel's second layer, from the exit of the region that forms the layer's dense product to the exit of the region
  that combines it with the neighbourhood sum and takes column statistics.

  Between the two regions the kernel's program runs, on the host, the reference's own operations for the degrees, the
  edge coefficients, the messages and their sum at the destination rows; so the arrays the combining region finds are
  the reference's stages. The region adds the neighbourhood sum, the node's own row over its degree and the bias, which
  is the reference's activation before normalisation, and sums it and its square down the columns.
-/
import proofs.«100399_j30279519436917_1_alg».proof.Proof.Gen.KernelIdeal.Frame
import proofs.«100399_j30279519436917_1_alg».proof.Proof.RefRead
import proofs.«100399_j30279519436917_1_alg».proof.Proof.Reals
import proofs.«100399_j30279519436917_1_alg».proof.Proof.LibColumnLayout
import proofs.«100399_j30279519436917_1_alg».proof.Proof.RefForms
import Idealize.ShloMosaic.Lib.ValueIdx
import Idealize.ShloMosaic.Lib.ValueLayout

noncomputable section

namespace Cert.Stitch

open Idealize.ShloMosaic Idealize.ShloMosaic.ValueIdx Idealize.ShloMosaic.StableHlo Idealize.SL.Sem Idealize.ShloMosaic.TcCoe
open Cert.KernelIdeal Cert.KernelIdeal.Gen Cert.ReferenceIdeal.Read Cert.Reals
open scoped BigOperators

set_option quotPrecheck false

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## The host operations between the first layer's last region and the second layer's combining region

  They are the reference's own operations on the second layer: the degrees from the destination rows, their reciprocals
  and reciprocal square roots, the edge coefficients, the messages gathered from the layer's dense product at the source
  rows, and the messages added up at the destination rows. So the arrays they leave are the reference's stages, once
  the arrays they start from are. -/

/-- The neighbourhood sum the combining region reads is the reference's. -/
theorem W8_v115
    (h68 : W7 m ρ c (Proc.devRef .tc main_v68) = val_main_v85 (F := Ideal) x0 x1 x2 x3 x4 x5 x6)
    (h1 : W7 m ρ c (Proc.devRef .tc main_v1) = val_main_v1 (F := Ideal) x1)
    (h3 : W7 m ρ c (Proc.devRef .tc main_v3) = val_main_v3 (F := Ideal) x1) :
    W8 m ρ c (Proc.devRef .tc main_v115) = val_main_v130 (F := Ideal) x0 x1 x2 x3 x4 x5 x6 := by
  show StableHlo.after hostOps4 (W7 m ρ c) (Proc.devRef .tc main_v115) = _
  after_results_simp
  rw [h1, h3, h68]
  rfl

/-- The layer's dense product is not written by these operations. -/
theorem W8_v68 : W8 m ρ c (Proc.devRef .tc main_v68) = W7 m ρ c (Proc.devRef .tc main_v68) := by
  show StableHlo.after hostOps4 _ _ = _
  after_results_simp

/-- The column of reciprocal degrees: row r holds the reference's reciprocal degree of node r. -/
theorem W8_v116 (h3 : W7 m ρ c (Proc.devRef .tc main_v3) = val_main_v3 (F := Ideal) x1) (r : Fin 100000) (u : Fin 1) :
    (W8 m ρ c (Proc.devRef .tc main_v116) : S100000x1.Idx → EReal) (ix2 r u) = val_main_v132 (F := Ideal) x1 (ix1 r) := by
  have e : (StableHlo.after hostOps4 (W7 m ρ c) (Proc.devRef .tc main_v116) : S100000x1.Idx → EReal)
      = shapeCast S100000x1 (val_main_v132 (F := Ideal) x1) Facts₀.shapeCasts_S100000_S100000x1 := by
    after_results_simp
    rw [h3]
    rfl
  show (StableHlo.after hostOps4 (W7 m ρ c) (Proc.devRef .tc main_v116) : S100000x1.Idx → EReal) (ix2 r u) = _
  rw [e]
  exact Cert.ColumnLayout.shapeCast_a_a1_apply _ _ r u

/-- The bias as a row: column q holds the bias of column q. -/
theorem W8_v117 (h7 : W7 m ρ c (Proc.devRef .tc main_arg7) = x7) (u : Fin 1) (q : Fin 256) :
    (W8 m ρ c (Proc.devRef .tc main_v117) : S1x256.Idx → EReal) (ix2 u q) = x7 (ix1 q) := by
  have e : (StableHlo.after hostOps4 (W7 m ρ c) (Proc.devRef .tc main_v117) : S1x256.Idx → EReal)
      = shapeCast S1x256 x7 Facts₀.shapeCasts_S256_S1x256 := by
    after_results_simp
    rw [h7]
    rfl
  show (StableHlo.after hostOps4 (W7 m ρ c) (Proc.devRef .tc main_v117) : S1x256.Idx → EReal) (ix2 u q) = _
  rw [e]
  exact shapeCast_a_1a_apply _ _ u q

/-- What the combining region computes at row r and column q from these four arrays, the neighbourhood sum plus the
    node's own row times its reciprocal degree plus the bias, is the reference's activation before normalisation. -/
theorem y2_entry (h3 : W7 m ρ c (Proc.devRef .tc main_v3) = val_main_v3 (F := Ideal) x1)
    (h7 : W7 m ρ c (Proc.devRef .tc main_arg7) = x7) (r : Fin 100000) (q : Fin 256) :
    (val_main_v130 (F := Ideal) x0 x1 x2 x3 x4 x5 x6 (ix2 r q)
        + val_main_v85 (F := Ideal) x0 x1 x2 x3 x4 x5 x6 (ix2 r q)
          * (W8 m ρ c (Proc.devRef .tc main_v116) : S100000x1.Idx → EReal) (ix2 r (0 : Fin 1)))
      + (W8 m ρ c (Proc.devRef .tc main_v117) : S1x256.Idx → EReal) (ix2 (0 : Fin 1) q)
      = val_main_v139 (F := Ideal) x0 x1 x2 x3 x4 x5 x6 x7 (ix2 r q) := by
  rw [Cert.RefForms.y2_apply, W8_v116 m ρ c h3 r 0, W8_v117 m ρ c h7 0 q]

/-! ## The combining region's three outputs -/

/-- The activation before normalisation that the region writes is the reference's. -/
theorem W9_y (h68 : W7 m ρ c (Proc.devRef .tc main_v68) = val_main_v85 (F := Ideal) x0 x1 x2 x3 x4 x5 x6)
    (h1 : W7 m ρ c (Proc.devRef .tc main_v1) = val_main_v1 (F := Ideal) x1)
    (h3 : W7 m ρ c (Proc.devRef .tc main_v3) = val_main_v3 (F := Ideal) x1)
    (h7 : W7 m ρ c (Proc.devRef .tc main_arg7) = x7)
    (hR4y : ∀ (V : (c : Dev nD) → (b : Ref sig .tc) → Buf (Elt Ideal) ((c : Thread nD τ).loc b)) (c : Dev nD)
      (A H : S100000x256.Idx → EReal) (D : S100000x1.Idx → EReal) (B : S1x256.Idx → EReal),
      V c main_v115 = A → V c main_v68 = H → V c main_v116 = D → V c main_v117 = B →
      ∀ (r : Fin 100000) (q : Fin 256), (dat4 (F := Ideal) V c).arrAt 4 cfg4.N (ix2 r q) = (A (ix2 r q) + H (ix2 r q) * D (ix2 r (0 : Fin 1))) + B (ix2 (0 : Fin 1) q)) :
    W9 m ρ c (Proc.devRef .tc main_v118_0) = val_main_v139 (F := Ideal) x0 x1 x2 x3 x4 x5 x6 x7 := by
  funext i
  obtain ⟨r, q, rfl⟩ : ∃ (r : Fin 100000) (q : Fin 256), i = ix2 r q := ⟨i 0, i 1, eq_ix2 (n0 := 100000) (n1 := 256) i⟩
  refine (congrFun (W9_arr m ρ c 4) (ix2 r q)).trans ?_
  refine (hR4y (V8 m ρ) c _ _ _ _ (W8_v115 m ρ c h68 h1 h3) ((W8_v68 m ρ c).trans h68) rfl rfl r q).trans ?_
  exact y2_entry m ρ c h3 h7 r q

/-- The column sums the region writes are the sums of the reference's activations down each column. -/
theorem W9_s (h68 : W7 m ρ c (Proc.devRef .tc main_v68) = val_main_v85 (F := Ideal) x0 x1 x2 x3 x4 x5 x6)
    (h1 : W7 m ρ c (Proc.devRef .tc main_v1) = val_main_v1 (F := Ideal) x1)
    (h3 : W7 m ρ c (Proc.devRef .tc main_v3) = val_main_v3 (F := Ideal) x1)
    (h7 : W7 m ρ c (Proc.devRef .tc main_arg7) = x7)
    (hR4s : ∀ (V : (c : Dev nD) → (b : Ref sig .tc) → Buf (Elt Ideal) ((c : Thread nD τ).loc b)) (c : Dev nD)
      (A H : S100000x256.Idx → EReal) (D : S100000x1.Idx → EReal) (B : S1x256.Idx → EReal),
      V c main_v115 = A → V c main_v68 = H → V c main_v116 = D → V c main_v117 = B →
      ∀ (q : Fin 256), ((dat4 (F := Ideal) V c).arrAt 5 cfg4.N : S1x256.Idx → EReal) (ix2 (0 : Fin 1) q)
        = (∑ r : Fin 100000, ((A (ix2 r q) + H (ix2 r q) * D (ix2 r (0 : Fin 1))) + B (ix2 (0 : Fin 1) q)) : EReal))
    (q : Fin 256) :
    (W9 m ρ c (Proc.devRef .tc main_v118_1) : S1x256.Idx → EReal) (ix2 (0 : Fin 1) q)
      = ∑ r : Fin 100000, val_main_v139 (F := Ideal) x0 x1 x2 x3 x4 x5 x6 x7 (ix2 r q) := by
  refine (congrFun (W9_arr m ρ c 5) (ix2 (0 : Fin 1) q)).trans ?_
  refine (hR4s (V8 m ρ) c _ _ _ _ (W8_v115 m ρ c h68 h1 h3) ((W8_v68 m ρ c).trans h68) rfl rfl q).trans ?_
  show @Eq EReal _ _
  exact Finset.sum_congr rfl fun r _ => y2_entry m ρ c h3 h7 r q

/-- The column sums of squares the region writes are the sums of the squared reference activations. -/
theorem W9_ss (h68 : W7 m ρ c (Proc.devRef .tc main_v68) = val_main_v85 (F := Ideal) x0 x1 x2 x3 x4 x5 x6)
    (h1 : W7 m ρ c (Proc.devRef .tc main_v1) = val_main_v1 (F := Ideal) x1)
    (h3 : W7 m ρ c (Proc.devRef .tc main_v3) = val_main_v3 (F := Ideal) x1)
    (h7 : W7 m ρ c (Proc.devRef .tc main_arg7) = x7)
    (hR4ss : ∀ (V : (c : Dev nD) → (b : Ref sig .tc) → Buf (Elt Ideal) ((c : Thread nD τ).loc b)) (c : Dev nD)
      (A H : S100000x256.Idx → EReal) (D : S100000x1.Idx → EReal) (B : S1x256.Idx → EReal),
      V c main_v115 = A → V c main_v68 = H → V c main_v116 = D → V c main_v117 = B →
      ∀ (q : Fin 256), ((dat4 (F := Ideal) V c).arrAt 6 cfg4.N : S1x256.Idx → EReal) (ix2 (0 : Fin 1) q)
        = (∑ r : Fin 100000, ((A (ix2 r q) + H (ix2 r q) * D (ix2 r (0 : Fin 1))) + B (ix2 (0 : Fin 1) q)) * ((A (ix2 r q) + H (ix2 r q) * D (ix2 r (0 : Fin 1))) + B (ix2 (0 : Fin 1) q)) : EReal))
    (q : Fin 256) :
    (W9 m ρ c (Proc.devRef .tc main_v118_2) : S1x256.Idx → EReal) (ix2 (0 : Fin 1) q)
      = ∑ r : Fin 100000, val_main_v139 (F := Ideal) x0 x1 x2 x3 x4 x5 x6 x7 (ix2 r q)
          * val_main_v139 (F := Ideal) x0 x1 x2 x3 x4 x5 x6 x7 (ix2 r q) := by
  refine (congrFun (W9_arr m ρ c 6) (ix2 (0 : Fin 1) q)).trans ?_
  refine (hR4ss (V8 m ρ) c _ _ _ _ (W8_v115 m ρ c h68 h1 h3) ((W8_v68 m ρ c).trans h68) rfl rfl q).trans ?_
  show @Eq EReal _ _
  exact Finset.sum_congr rfl fun r _ => by rw [y2_entry m ρ c h3 h7 r q]

end Cert.Stitch

end
-- ==== Proof.Region5.lean ====
/-
  The second layer's normalise-and-clip step, read off the pipeline's frame: every entry of the output array is the scale
  times the centred activation, times the reciprocal square root of the variance plus a small constant, plus the shift,
  clipped below at zero; mean, variance, scale and shift are one-row arrays read at the entry's column.
-/
import proofs.«100399_j30279519436917_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Idealize.ShloMosaic Idealize.ShloMosaic.ValueIdx Idealize.ShloMosaic.TcCoe
open Idealize.ShloMosaic.Pipeline (Dat)
open Cert.KernelIdeal Cert.KernelIdeal.Gen
open scoped BigOperators

/-! ## One block of rows: the normalised, clipped value at a row and a column -/

/-- The body's value at row `p`, column `q` of a block: the four one-row operands are read at column `q`; the scale times the
    centred entry, times the reciprocal square root of the variance plus the small constant, plus the shift, clipped below
    at zero. -/
theorem pay_apply (y : Vec Ideal S5000x256 .f32) (mu va ga be : Vec Ideal S1x256 .f32) (p : Fin 5000) (q : Fin 256) :
    k5_pay1 (F := Ideal) y mu va ga be (ix2 p q)
      = max ((ga (ix2 (0 : Fin 1) q) * (y (ix2 p q) - mu (ix2 (0 : Fin 1) q)))
                * Ideal.rsqrt (va (ix2 (0 : Fin 1) q) + Ideal.ofBits .f32 0x3727C5AC#32)
              + be (ix2 (0 : Fin 1) q)) (Ideal.ofBits .f32 0x00000000#32) := by
  unfold k5_pay1
  simp only [shapeCast_self]
  rw [maximumf_apply, addf_apply, mulf_apply, mulf_apply, subf_apply, broadcast_apply,
    broadcastTo_1b_ab_apply ga, broadcastTo_1b_ab_apply mu, broadcastTo_1b_ab_apply be, broadcastTo_1b_ab_apply _ _ p q]
  rfl

variable (V : (c : Dev nD) → (b : Ref sig .tc) → Buf (Elt Ideal) ((c : Thread nD τ).loc b))

/-! ## From the blocks to the whole array -/

theorem zero_offsets : (![0, 0] : Fin 2 → Nat) = fun _ => 0 := funext fun a => by fin_cases a <;> rfl

/-- The output array as one function of the five operand arrays: entry `i` uses the activations' entry `i` and the four rows'
    entries at column `i 1`. -/
def norm (Y : S100000x256.Idx → EReal) (Mu Va Ga Be : S1x256.Idx → EReal) : S100000x256.Idx → EReal :=
  fun i => max ((Ga (ix2 (0 : Fin 1) (⟨(i 1).val, (i 1).isLt⟩ : Fin 256))
                    * (Y i - Mu (ix2 (0 : Fin 1) (⟨(i 1).val, (i 1).isLt⟩ : Fin 256))))
                  * Ideal.rsqrt (Va (ix2 (0 : Fin 1) (⟨(i 1).val, (i 1).isLt⟩ : Fin 256)) + Ideal.ofBits .f32 0x3727C5AC#32)
                + Be (ix2 (0 : Fin 1) (⟨(i 1).val, (i 1).isLt⟩ : Fin 256))) (Ideal.ofBits .f32 0x00000000#32)

/-- The same, with the index's coordinates named. -/
theorem norm_apply (Y : S100000x256.Idx → EReal) (Mu Va Ga Be : S1x256.Idx → EReal) (i : S100000x256.Idx) (s : Fin 256)
    (hs : (i 1).val = s.val) :
    norm Y Mu Va Ga Be i
      = max ((Ga (ix2 (0 : Fin 1) s) * (Y i - Mu (ix2 (0 : Fin 1) s))) * Ideal.rsqrt (Va (ix2 (0 : Fin 1) s) + Ideal.ofBits .f32 0x3727C5AC#32)
              + Be (ix2 (0 : Fin 1) s)) (Ideal.ofBits .f32 0x00000000#32) := by
  obtain rfl : s = ⟨(i 1).val, (i 1).isLt⟩ := Fin.ext hs.symm
  rfl

/-- A block whose activations at `(p, q)` are the array's at `i` and whose four rows are the arrays' rows, read at column `q`,
    has at `(p, q)` the output array's entry `i`. -/
theorem block_apply (Y : S100000x256.Idx → EReal) (Mu Va Ga Be : S1x256.Idx → EReal)
    (y : Vec Ideal S5000x256 .f32) (mu va ga be : Vec Ideal S1x256 .f32) (p : Fin 5000) (q : Fin 256) (i : S100000x256.Idx)
    (hi : (i 1).val = q.val) (hy : y (ix2 p q) = Y i)
    (hmu : mu (ix2 (0 : Fin 1) q) = Mu (ix2 (0 : Fin 1) q)) (hva : va (ix2 (0 : Fin 1) q) = Va (ix2 (0 : Fin 1) q))
    (hga : ga (ix2 (0 : Fin 1) q) = Ga (ix2 (0 : Fin 1) q)) (hbe : be (ix2 (0 : Fin 1) q) = Be (ix2 (0 : Fin 1) q)) :
    k5_pay1 (F := Ideal) y mu va ga be (ix2 p q) = norm Y Mu Va Ga Be i := by
  rw [pay_apply, norm_apply Y Mu Va Ga Be i q hi, hy, hmu, hva, hga, hbe]

/-- The windows' block indices at grid point `t`: the activations and the output are at row block `t`, the four one-row
    operands at block 0 (decided over the 20 points). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 400000 in
/-- What grid point `t` writes back is block `t` of the output array: its activation block is rows `5000 t …` of the
    activations, its four one-row blocks are the four rows themselves. -/
theorem flushed_eq (c : Dev nD) (t : Fin cfg5.N) :
    (dat5 (F := Ideal) V c).flushed 5 t
      = ((cfg5.win 5).blk t).view.read (Elt Ideal)
          (norm (V c main_v118_0) (V c main_v127) (V c main_v128) (V c main_v129) (V c main_v130)) := by
  show (cfg5.win 5).cut (grid5.coords t) ((dat5 V c).after 5 t) = _
  rw [after5_5]
  unfold out5_5
  rw [View.canon_unit_zero zero_offsets]
  simp only [View.ld_unit_zero (S := S5000x256) zero_offsets, View.ld_unit_zero (S := S1x256) zero_offsets]
  obtain ⟨e0, e1, e2, e3, e4, e5, e6, e7, e8, e9, e10, e11⟩ := idx_facts t
  funext j
  obtain ⟨p, q, rfl⟩ : ∃ (p : Fin 5000) (q : Fin 256), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = norm (V c main_v118_0) (V c main_v127) (V c main_v128) (V c main_v129) (V c main_v130) (((cfg5.win 5).blk t).view.emb (ix2 p q))
  refine block_apply (V c main_v118_0) (V c main_v127) (V c main_v128) (V c main_v129) (V c main_v130)
    (iblk5 V c 0 t) (iblk5 V c 1 t) (iblk5 V c 2 t) (iblk5 V c 3 t) (iblk5 V c 4 t) p q
    (((cfg5.win 5).blk t).view.emb (ix2 p q)) ?_ ?_ ?_ ?_ ?_ ?_
  · show win5_5.index t (1 : Fin 2) * 256 + 1 * q.val = q.val
    omega
  · show V c main_v118_0 (((cfg5.win 0).blk t).view.emb (ix2 p q)) = V c main_v118_0 (((cfg5.win 5).blk t).view.emb (ix2 p q))
    refine congrArg _ (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 256 + 1 * q.val = win5_5.index t (1 : Fin 2) * 256 + 1 * q.val; omega
  · show V c main_v127 (((cfg5.win 1).blk t).view.emb (ix2 (0 : Fin 1) q)) = V c main_v127 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 256 + 1 * q.val = q.val; omega
  · show V c main_v128 (((cfg5.win 2).blk t).view.emb (ix2 (0 : Fin 1) q)) = V c main_v128 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 256 + 1 * q.val = q.val; omega
  · show V c main_v129 (((cfg5.win 3).blk t).view.emb (ix2 (0 : Fin 1) q)) = V c main_v129 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 256 + 1 * q.val = q.val; omega
  · show V c main_v130 (((cfg5.win 4).blk t).view.emb (ix2 (0 : Fin 1) q)) = V c main_v130 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 256 + 1 * q.val = q.val; omega

/-- An entry of the output array lies in point `t`'s block exactly when each coordinate lies in the block's range. -/
theorem mem_blk (t : Fin cfg5.N) (i : S100000x256.Idx) :
    i ∈ ((cfg5.win 5).blk t).view.set ↔ ∀ a : Fin 2, win5_5.index t a * S5000x256.size a ≤ (i a).val
      ∧ (i a).val < win5_5.index t a * S5000x256.size a + S5000x256.size a := by
  show i ∈ ((View.whole main_v131).slice (win5_5.rect t)).set ↔ _
  rw [View.set_slice_whole, Rect.mem_set_unit]
  exact Iff.rfl

/-- Row `r` is written back by grid point `r / 5000`. -/
theorem cover (i : S100000x256.Idx) :
    ∃ t : Fin cfg5.N, (cfg5.win 5).flush t = true ∧ i ∈ ((cfg5.win 5).blk t).view.set := by
  have hi0 : (i 0).val < 100000 := (i 0).isLt
  have hi1 : (i 1).val < 256 := (i 1).isLt
  have hN : cfg5.N = 20 := N_5
  have hlt : (i 0).val / 5000 < cfg5.N := lt_of_lt_of_eq (by omega : (i 0).val / 5000 < 20) hN.symm
  obtain ⟨e0, e1, e2, e3, e4, e5, e6, e7, e8, e9, e10, e11⟩ := idx_facts ⟨(i 0).val / 5000, hlt⟩
  refine ⟨⟨(i 0).val / 5000, hlt⟩, flush5_5 _, ?_⟩
  rw [mem_blk]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    rw [e10]
    show (i 0).val / 5000 * 5000 ≤ (i 0).val ∧ (i 0).val < (i 0).val / 5000 * 5000 + 5000
    omega
  | ⟨1, _⟩ =>
    show win5_5.index ⟨(i 0).val / 5000, hlt⟩ (1 : Fin 2) * 256 ≤ (i 1).val
      ∧ (i 1).val < win5_5.index ⟨(i 0).val / 5000, hlt⟩ (1 : Fin 2) * 256 + 256
    rw [e11]
    omega

/-- The output array after the region, as one function of the operand arrays as the region finds them. -/
theorem out_eq (c : Dev nD) :
    (dat5 (F := Ideal) V c).arrAt 5 cfg5.N
      = norm (V c main_v118_0) (V c main_v127) (V c main_v128) (V c main_v129) (V c main_v130) :=
  (dat5 (F := Ideal) V c).arrAt_eq_of_cover 5
    (norm (V c main_v118_0) (V c main_v127) (V c main_v128) (V c main_v129) (V c main_v130))
    (fun t _ => flushed_eq V c t) cover

/-- The output function at named coordinates. -/
theorem norm_ix2 (Y : S100000x256.Idx → EReal) (Mu Va Ga Be : S1x256.Idx → EReal) (r : Fin 100000) (q : Fin 256) :
    norm Y Mu Va Ga Be (ix2 r q)
      = max ((Ga (ix2 (0 : Fin 1) q) * (Y (ix2 r q) - Mu (ix2 (0 : Fin 1) q)))
                * Ideal.rsqrt (Va (ix2 (0 : Fin 1) q) + Ideal.ofBits .f32 0x3727C5AC#32)
              + Be (ix2 (0 : Fin 1) q)) (Ideal.ofBits .f32 0x00000000#32) :=
  norm_apply Y Mu Va Ga Be (ix2 r q) q rfl

/-- The output array after the region, entry by entry, for operand arrays that the region finds on entry: activations `Y`,
    mean row `Mu`, variance row `Va`, scale row `Ga`, shift row `Be`. -/
theorem out_norm (c : Dev nD) (Y : S100000x256.Idx → EReal) (Mu Va Ga Be : S1x256.Idx → EReal)
    (hY : V c main_v118_0 = Y) (hMu : V c main_v127 = Mu) (hVa : V c main_v128 = Va) (hGa : V c main_v129 = Ga) (hBe : V c main_v130 = Be)
    (r : Fin 100000) (q : Fin 256) :
    (dat5 (F := Ideal) V c).arrAt 5 cfg5.N (ix2 r q)
      = max ((Ga (ix2 (0 : Fin 1) q) * (Y (ix2 r q) - Mu (ix2 (0 : Fin 1) q)))
                * Ideal.rsqrt (Va (ix2 (0 : Fin 1) q) + Ideal.ofBits .f32 0x3727C5AC#32)
              + Be (ix2 (0 : Fin 1) q)) (Ideal.ofBits .f32 0x00000000#32) := by
  subst hY hMu hVa hGa hBe
  exact (congrFun (out_eq V c) (ix2 r q)).trans (norm_ix2 _ _ _ _ _ r q)

end Cert.KernelIdeal.Region5

end
-- ==== Proof.StitchL2b.lean ====
/-
  The second layer from the statistics region's exit to the kernel's result: the host's column mean and variance rows are
  the reference's (for real activations), and the normalise-and-clip region then leaves the reference's result.
-/
import proofs.«100399_j30279519436917_1_alg».proof.Proof.Gen.KernelIdeal.Frame
import proofs.«100399_j30279519436917_1_alg».proof.Proof.RefRead
import proofs.«100399_j30279519436917_1_alg».proof.Proof.RefForms
import proofs.«100399_j30279519436917_1_alg».proof.Proof.BnLaw
import proofs.«100399_j30279519436917_1_alg».proof.Proof.Reals
import proofs.«100399_j30279519436917_1_alg».proof.Proof.Region5
import Idealize.ShloMosaic.Lib.ValueIdx
import Idealize.ShloMosaic.Lib.ValueLayout
import Idealize.ShloMosaic.Lib.IdealHost

noncomputable section

namespace Cert.Stitch

open Idealize.ShloMosaic Idealize.ShloMosaic.ValueIdx Idealize.ShloMosaic.StableHlo Idealize.SL.Sem Idealize.ShloMosaic.TcCoe
open Cert.KernelIdeal Cert.KernelIdeal.Gen Cert.ReferenceIdeal.Read Cert.Reals
open scoped BigOperators

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## The host's column statistics, entry by entry -/

/-- The row-count word spread along 256 entries. -/
abbrev layer2_rowCount : FVec Ideal S256 .f32 :=
  broadcastInDim S256 ![] bcast_S_S256 (constant (F := Ideal) S_ .f32 0x47C35000#32)

theorem layer2_rowCount_apply (q : Fin 256) : layer2_rowCount (ix1 q) = Ideal.ofBits .f32 0x47C35000#32 :=
  broadcastInDim_scalar_apply bcast_S_S256 _ (ix1 q)

/-- A one-row array of column sums, laid out as a vector and divided by the row count, reads at `q` the sum at column `q`
    over the row count. -/
theorem layer2_quot_apply (s : FVec Ideal S1x256 .f32) (q : Fin 256) :
    Host.divf (F := Ideal) (φ := .f32) (shapeCast S256 s shapeCasts_S1x256_S256) layer2_rowCount (ix1 q)
      = Ideal.div (s (ix2 (0 : Fin 1) q)) (Ideal.ofBits .f32 0x47C35000#32) := by
  rw [hostDivf_apply, shapeCast_1a_a_apply, layer2_rowCount_apply]

/-! ## What the host stretch between the second statistics region and the last region leaves -/

/-- A host stretch leaves a buffer it does not write as it found it. -/
local macro "kept" : tactic => `(tactic| (show StableHlo.after _ _ _ = _; after_results_simp))

/-- The activations pass the host stretch unchanged. -/
theorem W10_main_v118_0 : W10 m ρ c (Proc.devRef .tc main_v118_0) = W9 m ρ c (Proc.devRef .tc main_v118_0) := by kept

set_option maxHeartbeats 1000000 in
/-- The mean row: the column sums over the row count, which is the reference's column mean (its sum starts from +0.0). -/
theorem W10_main_v127
    (hs : ∀ q : Fin 256, (W9 m ρ c (Proc.devRef .tc main_v118_1) : S1x256.Idx → EReal) (ix2 (0 : Fin 1) q)
      = ∑ r : Fin 100000, val_main_v139 (F := Ideal) x0 x1 x2 x3 x4 x5 x6 x7 (ix2 r q)) :
    W10 m ρ c (Proc.devRef .tc main_v127)
      = shapeCast S1x256 (val_main_v142 (F := Ideal) x0 x1 x2 x3 x4 x5 x6 x7) shapeCasts_S256_S1x256 := by
  show StableHlo.after hostOps5 (W9 m ρ c) (Proc.devRef .tc main_v127) = _
  after_results_simp
  show shapeCast S1x256 (Host.divf (F := Ideal) (φ := .f32)
      (shapeCast S256 (W9 m ρ c (Proc.devRef .tc main_v118_1) : FVec Ideal S1x256 .f32) shapeCasts_S1x256_S256)
      layer2_rowCount) shapeCasts_S256_S1x256 = _
  refine congrArg (fun v : FVec Ideal S256 .f32 => shapeCast S1x256 v shapeCasts_S256_S1x256) (funext fun j => ?_)
  obtain ⟨q, rfl⟩ : ∃ q : Fin 256, j = ix1 q := ⟨j 0, eq_ix1 (n := 256) j⟩
  rw [layer2_quot_apply, hs q, Cert.RefForms.mean2_apply]
  exact Cert.BnLaw.mean_eq fun k => val_main_v139 (F := Ideal) x0 x1 x2 x3 x4 x5 x6 x7 (ix2 k q)

set_option maxHeartbeats 1000000 in
/-- The variance row: the mean of the squares less the square of the mean, which for real activations is the reference's
    mean of the squared deviations. -/
theorem W10_main_v128
    (hs : ∀ q : Fin 256, (W9 m ρ c (Proc.devRef .tc main_v118_1) : S1x256.Idx → EReal) (ix2 (0 : Fin 1) q)
      = ∑ r : Fin 100000, val_main_v139 (F := Ideal) x0 x1 x2 x3 x4 x5 x6 x7 (ix2 r q))
    (hss : ∀ q : Fin 256, (W9 m ρ c (Proc.devRef .tc main_v118_2) : S1x256.Idx → EReal) (ix2 (0 : Fin 1) q)
      = ∑ r : Fin 100000, val_main_v139 (F := Ideal) x0 x1 x2 x3 x4 x5 x6 x7 (ix2 r q) * val_main_v139 (F := Ideal) x0 x1 x2 x3 x4 x5 x6 x7 (ix2 r q))
    (hreal : AllReal (val_main_v139 (F := Ideal) x0 x1 x2 x3 x4 x5 x6 x7)) :
    W10 m ρ c (Proc.devRef .tc main_v128)
      = shapeCast S1x256 (val_main_v149 (F := Ideal) x0 x1 x2 x3 x4 x5 x6 x7) shapeCasts_S256_S1x256 := by
  show StableHlo.after hostOps5 (W9 m ρ c) (Proc.devRef .tc main_v128) = _
  after_results_simp
  show shapeCast S1x256 (subf (F := Ideal) (φ := .f32)
      (Host.divf (F := Ideal) (φ := .f32)
        (shapeCast S256 (W9 m ρ c (Proc.devRef .tc main_v118_2) : FVec Ideal S1x256 .f32) shapeCasts_S1x256_S256) layer2_rowCount)
      (mulf (F := Ideal) (φ := .f32)
        (Host.divf (F := Ideal) (φ := .f32)
          (shapeCast S256 (W9 m ρ c (Proc.devRef .tc main_v118_1) : FVec Ideal S1x256 .f32) shapeCasts_S1x256_S256) layer2_rowCount)
        (Host.divf (F := Ideal) (φ := .f32)
          (shapeCast S256 (W9 m ρ c (Proc.devRef .tc main_v118_1) : FVec Ideal S1x256 .f32) shapeCasts_S1x256_S256) layer2_rowCount)))
      shapeCasts_S256_S1x256 = _
  refine congrArg (fun v : FVec Ideal S256 .f32 => shapeCast S1x256 v shapeCasts_S256_S1x256) (funext fun j => ?_)
  obtain ⟨q, rfl⟩ : ∃ q : Fin 256, j = ix1 q := ⟨j 0, eq_ix1 (n := 256) j⟩
  rw [subf_apply, mulf_apply, layer2_quot_apply, layer2_quot_apply, hs q, hss q, Cert.RefForms.var2_apply, Cert.RefForms.mean2_apply]
  exact Cert.BnLaw.variance_eq (fun k => val_main_v139 (F := Ideal) x0 x1 x2 x3 x4 x5 x6 x7 (ix2 k q)) (hreal.comp fun k : Fin 100000 => ix2 k q)

/-- The scale row is the scale argument laid out as one row. -/
theorem W10_main_v129 (h8 : W9 m ρ c (Proc.devRef .tc main_arg8) = x8) :
    W10 m ρ c (Proc.devRef .tc main_v129) = shapeCast S1x256 x8 shapeCasts_S256_S1x256 := by
  show StableHlo.after hostOps5 (W9 m ρ c) (Proc.devRef .tc main_v129) = _
  after_results_simp
  show shapeCast S1x256 (W9 m ρ c (Proc.devRef .tc main_arg8)) shapeCasts_S256_S1x256 = _
  rw [h8]

/-- The shift row is the shift argument laid out as one row. -/
theorem W10_main_v130 (h9 : W9 m ρ c (Proc.devRef .tc main_arg9) = x9) :
    W10 m ρ c (Proc.devRef .tc main_v130) = shapeCast S1x256 x9 shapeCasts_S256_S1x256 := by
  show StableHlo.after hostOps5 (W9 m ρ c) (Proc.devRef .tc main_v130) = _
  after_results_simp
  show shapeCast S1x256 (W9 m ρ c (Proc.devRef .tc main_arg9)) shapeCasts_S256_S1x256 = _
  rw [h9]

/-! ## The normalised output -/

set_option maxHeartbeats 1000000 in
/-- The normalise-and-clip region leaves the reference's layer output: its five operands are the reference's activations,
    mean, variance, and the scale and shift arguments, the four rows read at the entry's column. -/
theorem W11_v131
    (hy : W9 m ρ c (Proc.devRef .tc main_v118_0) = val_main_v139 (F := Ideal) x0 x1 x2 x3 x4 x5 x6 x7)
    (hs : ∀ q : Fin 256, (W9 m ρ c (Proc.devRef .tc main_v118_1) : S1x256.Idx → EReal) (ix2 (0 : Fin 1) q)
      = ∑ r : Fin 100000, val_main_v139 (F := Ideal) x0 x1 x2 x3 x4 x5 x6 x7 (ix2 r q))
    (hss : ∀ q : Fin 256, (W9 m ρ c (Proc.devRef .tc main_v118_2) : S1x256.Idx → EReal) (ix2 (0 : Fin 1) q)
      = ∑ r : Fin 100000, val_main_v139 (F := Ideal) x0 x1 x2 x3 x4 x5 x6 x7 (ix2 r q) * val_main_v139 (F := Ideal) x0 x1 x2 x3 x4 x5 x6 x7 (ix2 r q))
    (h8 : W9 m ρ c (Proc.devRef .tc main_arg8) = x8) (h9 : W9 m ρ c (Proc.devRef .tc main_arg9) = x9)
    (hreal : AllReal (val_main_v139 (F := Ideal) x0 x1 x2 x3 x4 x5 x6 x7)) :
    W11 m ρ c (Proc.devRef .tc main_v131) = val_main_v165 (F := Ideal) x0 x1 x2 x3 x4 x5 x6 x7 x8 x9 := by
  funext i
  obtain ⟨r, q, rfl⟩ : ∃ (r : Fin 100000) (q : Fin 256), i = ix2 r q := ⟨i 0, i 1, eq_ix2 (n0 := 100000) (n1 := 256) i⟩
  refine ((congrFun (W11_arr m ρ c 5) (ix2 r q)).trans
    (Cert.KernelIdeal.Region5.out_norm (V10 m ρ) c
      (val_main_v139 (F := Ideal) x0 x1 x2 x3 x4 x5 x6 x7)
      (shapeCast S1x256 (val_main_v142 (F := Ideal) x0 x1 x2 x3 x4 x5 x6 x7) shapeCasts_S256_S1x256)
      (shapeCast S1x256 (val_main_v149 (F := Ideal) x0 x1 x2 x3 x4 x5 x6 x7) shapeCasts_S256_S1x256)
      (shapeCast S1x256 x8 shapeCasts_S256_S1x256)
      (shapeCast S1x256 x9 shapeCasts_S256_S1x256)
      ((W10_main_v118_0 m ρ c).trans hy) (W10_main_v127 m ρ c hs) (W10_main_v128 m ρ c hs hss hreal)
      (W10_main_v129 m ρ c h8) (W10_main_v130 m ρ c h9) r q)).trans ?_
  rw [shapeCast_a_1a_apply, shapeCast_a_1a_apply, shapeCast_a_1a_apply, shapeCast_a_1a_apply, Cert.RefForms.out2_apply]

end Cert.Stitch

end
-- ==== Proof.Region4.lean ====
/-
  The combine-and-column-statistics region read as values over the extended reals. The rows of a [100000, 256] array are
  handled in twenty tiles of 5000 rows. Each tile's entries are  aggregate + feature · (the row's reciprocal degree) + (the
  column's bias); the first output collects the tiles, the second and third accumulate, tile after tile, every column's sum
  of the entries and of their squares, starting from zero at the first tile. So the first output holds the combined
  activations entry by entry, and the other two hold each column's sum (of the entries, of their squares) over all
  100000 rows: addition of extended reals is a commutative monoid, so the tile-by-tile order is the whole sum.
-/
import proofs.«100399_j30279519436917_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«100399_j30279519436917_1_alg».proof.Proof.LibColumnLayout

noncomputable section

namespace Cert.KernelIdeal.Region4

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

section Pieces

variable {F : FTy → Type} [FloatOps F]

/-! ## What one point leaves in each output, as the arithmetic of what it read

At any float type: the first output receives the combined block; the two accumulators receive what they held (the zero
row, at the first point) plus the block's column sums (of the entries, of their squares). -/

/-- The zero offsets, however spelt. -/
theorem hz : (![0, 0] : Fin 2 → Nat) = fun _ => 0 := funext fun a => by fin_cases a <;> rfl

/-- A later point: the first output holds the combined block of the four blocks read. -/
theorem piece_B_4 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond4_0 i) (x0 x1 : Vec F S5000x256 .f32) (x2 : Vec F S5000x1 .f32) (x3 xo5 xo6 : Vec F S1x256 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread,
    View.ld_unit_zero (S := S5000x256) hz, View.ld_unit_zero (S := S5000x1) hz, View.ld_unit_zero (S := S1x256) hz]

/-- A later point: the sums' accumulator holds what it held, updated with the block. -/
theorem piece_B_5 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond4_0 i) (x0 x1 : Vec F S5000x256 .f32) (x2 : Vec F S5000x1 .f32) (x3 xo5 xo6 : Vec F S1x256 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread,
    View.ld_unit_zero (S := S5000x256) hz, View.ld_unit_zero (S := S5000x1) hz, View.ld_unit_zero (S := S1x256) hz]

/-- A later point: the squares' accumulator holds what it held, updated with the block. -/
theorem piece_B_6 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : ¬cond4_0 i) (x0 x1 : Vec F S5000x256 .f32) (x2 : Vec F S5000x1 .f32) (x3 xo5 xo6 : Vec F S1x256 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h7.read_unread,
    View.ld_unit_zero (S := S5000x256) hz, View.ld_unit_zero (S := S5000x1) hz, View.ld_unit_zero (S := S1x256) hz]

/-- The first point: the first output holds the combined block. -/
theorem piece_A_4 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond4_0 i) (x0 x1 : Vec F S5000x256 .f32) (x2 : Vec F S5000x1 .f32) (x3 : Vec F S1x256 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  rw [View.canon_unit_zero hz]
  simp only [View.readAt_eq_ld, h1.read_unread, h2.read_unread, h3.read_unread, h4.read_unread,
    View.ld_unit_zero (S := S5000x256) hz, View.ld_unit_zero (S := S5000x1) hz, View.ld_unit_zero (S := S1x256) hz]

/-- The first point: the sums' accumulator is reset to the zero row, read back, and updated with the block. -/
theorem piece_A_5 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond4_0 i) (x0 x1 : Vec F S5000x256 .f32) (x2 : Vec F S5000x1 .f32) (x3 : Vec F S1x256 .f32) :
    out4_A_5 c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S5000x256) hz, View.ld_unit_zero (S := S5000x1) hz, View.ld_unit_zero (S := S1x256) hz]

/-- The first point: the squares' accumulator is reset to the zero row, read back, and updated with the block. -/
theorem piece_A_6 (c : Dev nD) (i : grid4.Coords) (a1 : Memref sig .tc .vmem S5000x256 .f32) (h1 : a1.IsWhole)
    (a2 : Memref sig .tc .vmem S5000x256 .f32) (h2 : a2.IsWhole) (a3 : Memref sig .tc .vmem S5000x1 .f32) (h3 : a3.IsWhole)
    (a4 : Memref sig .tc .vmem S1x256 .f32) (h4 : a4.IsWhole) (a5 : Memref sig .tc .vmem S5000x256 .f32) (h5 : a5.IsWhole)
    (a6 : Memref sig .tc .vmem S1x256 .f32) (h6 : a6.IsWhole) (a7 : Memref sig .tc .vmem S1x256 .f32) (h7 : a7.IsWhole)
    (hc : cond4_0 i) (x0 x1 : Vec F S5000x256 .f32) (x2 : Vec F S5000x1 .f32) (x3 : Vec F S1x256 .f32) :
    out4_A_6 c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S5000x256) hz, View.ld_unit_zero (S := S5000x1) hz, View.ld_unit_zero (S := S1x256) hz]

end Pieces

section Payloads

/-- For a reduction of `[M, N]` along its rows to `[N]`, the source index over column `q` whose row coordinate is `p` is `(p, q)`. -/
theorem lift_col {M N : ℕ} (h : (⟨2, ![M, N]⟩ : Shape).Reduces [(0 : Fin 2)] ⟨1, ![N]⟩) (q : Fin N) (p : Fin M) :
    h.lift (ix1 q) p = ix2 p q := by
  funext c
  apply Fin.ext
  match c with
  | ⟨0, _⟩ => rfl
  | ⟨1, _⟩ => rfl

/-- The sum of a `[5000, 256]` block along its rows from the zero word, kept as a `[1, 256]` row: at column `q` it is the sum over the 5000 rows. -/
theorem colSum_apply (src : FVec Ideal S5000x256 .f32) (q : Fin 256) :
    shapeCast S1x256 (multiReduction (F := Ideal) .add [0] S256 src 0x00000000#32 reduces_S5000x256_S256 (.inl rfl) rfl) shapeCasts_S256_S1x256 (ix2 (0 : Fin 1) q)
      = ∑ p : Fin 5000, src (ix2 p q) :=
  (shapeCast_a_1a_apply _ _ (0 : Fin 1) q).trans
    ((Ideal.multiReduction_add_single src 0x00000000#32 reduces_S5000x256_S256 (.inl rfl) rfl (ix1 q)).trans
      (Finset.sum_congr rfl fun p _ => congrArg src (lift_col _ q p)))

/-- One entry of the combined block: aggregate + feature · (row's column entry) + (bias row's entry). -/
theorem pay3_apply (x0 x1 : Vec Ideal S5000x256 .f32) (x2 : Vec Ideal S5000x1 .f32) (x3 : Vec Ideal S1x256 .f32)
    (p : Fin 5000) (q : Fin 256) :
    k4_pay3 (F := Ideal) x0 x1 x2 x3 (ix2 p q)
      = (x0 (ix2 p q) + x1 (ix2 p q) * x2 (ix2 p (0 : Fin 1))) + x3 (ix2 (0 : Fin 1) q) := by
  have e2 : broadcastTo S5000x256 x2 broadcasts_S5000x1_S5000x256 (ix2 p q) = x2 (ix2 p (0 : Fin 1)) :=
    Cert.ColumnLayout.broadcastTo_a1_ab_apply x2 _ p q
  have e3 : broadcastTo S5000x256 x3 broadcasts_S1x256_S5000x256 (ix2 p q) = x3 (ix2 (0 : Fin 1) q) :=
    broadcastTo_1b_ab_apply x3 _ p q
  unfold k4_pay3
  (try dsimp only)
  rw [shapeCast_self, shapeCast_self, shapeCast_self, shapeCast_self]
  show (x0 (ix2 p q) + x1 (ix2 p q) * broadcastTo S5000x256 x2 broadcasts_S5000x1_S5000x256 (ix2 p q))
    + broadcastTo S5000x256 x3 broadcasts_S1x256_S5000x256 (ix2 p q) = _
  rw [e2, e3]

/-- The running column sums after a block: what was there plus the block's column sums. -/
theorem pay4_apply (x0 x1 : Vec Ideal S5000x256 .f32) (x2 : Vec Ideal S5000x1 .f32) (x3 v : Vec Ideal S1x256 .f32) (q : Fin 256) :
    k4_pay4 (F := Ideal) x0 x1 x2 x3 v (ix2 (0 : Fin 1) q)
      = v (ix2 (0 : Fin 1) q) + ∑ p : Fin 5000, k4_pay3 (F := Ideal) x0 x1 x2 x3 (ix2 p q) := by
  unfold k4_pay4
  (try dsimp only)
  rw [shapeCast_self]
  exact congrArg (fun z => v (ix2 (0 : Fin 1) q) + z) (colSum_apply (k4_pay3 (F := Ideal) x0 x1 x2 x3) q)

/-- The running column sums of squares after a block. -/
theorem pay5_apply (x0 x1 : Vec Ideal S5000x256 .f32) (x2 : Vec Ideal S5000x1 .f32) (x3 v : Vec Ideal S1x256 .f32) (q : Fin 256) :
    k4_pay5 (F := Ideal) x0 x1 x2 x3 v (ix2 (0 : Fin 1) q)
      = v (ix2 (0 : Fin 1) q) + ∑ p : Fin 5000, k4_pay3 (F := Ideal) x0 x1 x2 x3 (ix2 p q) * k4_pay3 (F := Ideal) x0 x1 x2 x3 (ix2 p q) := by
  unfold k4_pay5
  (try dsimp only)
  rw [shapeCast_self]
  exact congrArg (fun z => v (ix2 (0 : Fin 1) q) + z)
    (colSum_apply (mulf (k4_pay3 (F := Ideal) x0 x1 x2 x3) (k4_pay3 (F := Ideal) x0 x1 x2 x3)) q)

/-- The reset row is zero everywhere. -/
theorem pay1_apply (q : Fin 256) : k4_pay1 (F := Ideal) (ix2 (0 : Fin 1) q) = 0 := by
  unfold k4_pay1
  exact Ideal.ofBits_zero_f32

/-- The squares' reset row is zero everywhere. -/
theorem pay2_apply (q : Fin 256) : k4_pay2 (F := Ideal) (ix2 (0 : Fin 1) q) = 0 := by
  unfold k4_pay2
  exact Ideal.ofBits_zero_f32

end Payloads

section Value

variable (V : (c : Dev nD) → (b : Ref sig .tc) → Buf (Elt Ideal) ((c : Thread nD τ).loc b))

/-- One entry of the combined activations: aggregate + feature · (1/degree of the row) + bias of the column, of four arrays
    given as functions of their indices. -/
def y (A H : S100000x256.Idx → EReal) (D : S100000x1.Idx → EReal) (B : S1x256.Idx → EReal) (r : Fin 100000) (q : Fin 256) : EReal :=
  (A (ix2 r q) + H (ix2 r q) * D (ix2 r (0 : Fin 1))) + B (ix2 (0 : Fin 1) q)

/-- The same entry of the four operand arrays as the region finds them. -/
abbrev yV (c : Dev nD) (r : Fin 100000) (q : Fin 256) : EReal :=
  y (V c main_v115) (V c main_v68) (V c main_v116) (V c main_v117) r q

/-- The block index maps, decided once over the twenty points: the row-tiled windows sit at block row `t`, the
    single-block windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row `p` of tile `t` is a row of the array. -/
theorem row_lt (t : Fin cfg4.N) (p : Fin 5000) : 5000 * t.val + p.val < 100000 := by
  have hN : t.val < 20 := lt_of_lt_of_eq t.isLt (show cfg4.N = 20 from N_4)
  have := p.isLt
  omega

/-- The aggregate's block at point `t` holds rows `5000 t …` of the array. -/
theorem blk0_apply (c : Dev nD) (t : Fin cfg4.N) (p : Fin 5000) (q : Fin 256) :
    (iblk4 (F := Ideal) V c 0 t : Vec Ideal S5000x256 .f32) (ix2 p q) = V c main_v115 (ix2 (⟨5000 * t.val + p.val, row_lt t p⟩ : Fin 100000) q) := by
  obtain ⟨e0, e1, -⟩ := idx_facts t
  unfold iblk4
  rw [View.read_apply]
  show V c main_v115 _ = V c main_v115 _
  congr 1
  funext a
  apply Fin.ext
  match a with
  | ⟨0, _⟩ => show win4_0.index t (0 : Fin 2) * 5000 + 1 * p.val = 5000 * t.val + p.val; rw [e0]; omega
  | ⟨1, _⟩ => show win4_0.index t (1 : Fin 2) * 256 + 1 * q.val = q.val; rw [e1]; omega

/-- The features' block at point `t`. -/
theorem blk1_apply (c : Dev nD) (t : Fin cfg4.N) (p : Fin 5000) (q : Fin 256) :
    (iblk4 (F := Ideal) V c 1 t : Vec Ideal S5000x256 .f32) (ix2 p q) = V c main_v68 (ix2 (⟨5000 * t.val + p.val, row_lt t p⟩ : Fin 100000) q) := by
  obtain ⟨-, -, e0, e1, -⟩ := idx_facts t
  unfold iblk4
  rw [View.read_apply]
  show V c main_v68 _ = V c main_v68 _
  congr 1
  funext a
  apply Fin.ext
  match a with
  | ⟨0, _⟩ => show win4_1.index t (0 : Fin 2) * 5000 + 1 * p.val = 5000 * t.val + p.val; rw [e0]; omega
  | ⟨1, _⟩ => show win4_1.index t (1 : Fin 2) * 256 + 1 * q.val = q.val; rw [e1]; omega

/-- The reciprocal-degree column's block at point `t`. -/
theorem blk2_apply (c : Dev nD) (t : Fin cfg4.N) (p : Fin 5000) :
    (iblk4 (F := Ideal) V c 2 t : Vec Ideal S5000x1 .f32) (ix2 p (0 : Fin 1)) = V c main_v116 (ix2 (⟨5000 * t.val + p.val, row_lt t p⟩ : Fin 100000) (0 : Fin 1)) := by
  obtain ⟨-, -, -, -, e0, e1, -⟩ := idx_facts t
  unfold iblk4
  rw [View.read_apply]
  show V c main_v116 _ = V c main_v116 _
  congr 1
  funext a
  apply Fin.ext
  match a with
  | ⟨0, _⟩ => show win4_2.index t (0 : Fin 2) * 5000 + 1 * p.val = 5000 * t.val + p.val; rw [e0]; omega
  | ⟨1, _⟩ => show win4_2.index t (1 : Fin 2) * 1 + 1 * 0 = 0; rw [e1]

/-- The bias row's one block. -/
theorem blk3_apply (c : Dev nD) (t : Fin cfg4.N) (q : Fin 256) :
    (iblk4 (F := Ideal) V c 3 t : Vec Ideal S1x256 .f32) (ix2 (0 : Fin 1) q) = V c main_v117 (ix2 (0 : Fin 1) q) := by
  obtain ⟨-, -, -, -, -, -, e0, e1, -⟩ := idx_facts t
  unfold iblk4
  rw [View.read_apply]
  show V c main_v117 _ = V c main_v117 _
  congr 1
  funext a
  apply Fin.ext
  match a with
  | ⟨0, _⟩ => show win4_3.index t (0 : Fin 2) * 1 + 1 * 0 = 0; rw [e0]
  | ⟨1, _⟩ => show win4_3.index t (1 : Fin 2) * 256 + 1 * q.val = q.val; rw [e1]; omega

/-- The combined block at point `t` holds the combined activations of rows `5000 t …`. -/
theorem point_y (c : Dev nD) (t : Fin cfg4.N) (p : Fin 5000) (q : Fin 256) :
    k4_pay3 (F := Ideal) (iblk4 V c 0 t) (iblk4 V c 1 t) (iblk4 V c 2 t) (iblk4 V c 3 t) (ix2 p q) = yV V c ⟨5000 * t.val + p.val, row_lt t p⟩ q := by
  refine (pay3_apply (iblk4 V c 0 t) (iblk4 V c 1 t) (iblk4 V c 2 t) (iblk4 V c 3 t) p q).trans ?_
  show _ = y (V c main_v115) (V c main_v68) (V c main_v116) (V c main_v117) ⟨5000 * t.val + p.val, row_lt t p⟩ q
  unfold y
  rw [blk0_apply V c t p q, blk1_apply V c t p q, blk2_apply V c t p, blk3_apply V c t q]

end Value

section Sums

variable (V : (c : Dev nD) → (b : Ref sig .tc) → Buf (Elt Ideal) ((c : Thread nD τ).loc b))

/-- The first output: every point leaves the combined block in it. -/
theorem at_4 (c : Dev nD) (t : Fin cfg4.N) :
    (outsAt4 (F := Ideal) V c t.val t.isLt).1 = k4_pay3 (F := Ideal) (iblk4 V c 0 t) (iblk4 V c 1 t) (iblk4 V c 2 t) (iblk4 V c 3 t) := by
  by_cases h0 : t.val % 20 = 0
  · rw [outsAt4_A V c t h0]
    dsimp only
    exact piece_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact piece_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- The column sums of the tile of rows `5000 t …`. -/
def tileSum (c : Dev nD) (q : Fin 256) (t : Fin cfg4.N) : EReal := ∑ p : Fin 5000, yV V c ⟨5000 * t.val + p.val, row_lt t p⟩ q
/-- and of its squares. -/
def tileSq (c : Dev nD) (q : Fin 256) (t : Fin cfg4.N) : EReal :=
  ∑ p : Fin 5000, yV V c ⟨5000 * t.val + p.val, row_lt t p⟩ q * yV V c ⟨5000 * t.val + p.val, row_lt t p⟩ q

/-- The first point resets the two accumulators and adds its tile. -/
theorem at_A (c : Dev nD) (t : Fin cfg4.N) (h0 : t.val % 20 = 0) (q : Fin 256) :
    (outsAt4 (F := Ideal) V c t.val t.isLt).2.1 (ix2 (0 : Fin 1) q) = 0 + tileSum V c q t
    ∧ (outsAt4 (F := Ideal) V c t.val t.isLt).2.2 (ix2 (0 : Fin 1) q) = 0 + tileSq V c q t := by
  rw [outsAt4_A V c t h0]
  dsimp only
  constructor
  · refine (congrFun (piece_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 (0 : Fin 1) q)).trans ?_
    refine (pay4_apply (iblk4 V c 0 t) (iblk4 V c 1 t) (iblk4 V c 2 t) (iblk4 V c 3 t) (k4_pay1 (F := Ideal)) q).trans ?_
    rw [pay1_apply]
    exact congrArg (fun z => (0 : EReal) + z) (Finset.sum_congr rfl fun p _ => point_y V c t p q)
  · refine (congrFun (piece_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 (0 : Fin 1) q)).trans ?_
    refine (pay5_apply (iblk4 V c 0 t) (iblk4 V c 1 t) (iblk4 V c 2 t) (iblk4 V c 3 t) (k4_pay2 (F := Ideal)) q).trans ?_
    rw [pay2_apply]
    exact congrArg (fun z => (0 : EReal) + z) (Finset.sum_congr rfl fun p _ => by rw [point_y V c t p q])

/-- Every later point adds its tile to what the point before left. -/
theorem at_B (c : Dev nD) (t : Fin cfg4.N) (h0 : ¬t.val % 20 = 0) (q : Fin 256) :
    (outsAt4 (F := Ideal) V c t.val t.isLt).2.1 (ix2 (0 : Fin 1) q)
        = (outsAt4 V c (t.val - 1) (Nat.lt_of_le_of_lt (Nat.sub_le _ _) t.isLt)).2.1 (ix2 (0 : Fin 1) q) + tileSum V c q t
    ∧ (outsAt4 (F := Ideal) V c t.val t.isLt).2.2 (ix2 (0 : Fin 1) q)
        = (outsAt4 V c (t.val - 1) (Nat.lt_of_le_of_lt (Nat.sub_le _ _) t.isLt)).2.2 (ix2 (0 : Fin 1) q) + tileSq V c q t := by
  rw [outsAt4_B V c t h0]
  dsimp only
  constructor
  · refine (congrFun (piece_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
    refine (pay4_apply (iblk4 V c 0 t) (iblk4 V c 1 t) (iblk4 V c 2 t) (iblk4 V c 3 t) (outsAt4 V c (t.val - 1) (Nat.lt_of_le_of_lt (Nat.sub_le _ _) t.isLt)).2.1 q).trans ?_
    exact congrArg (fun z => (outsAt4 V c (t.val - 1) (Nat.lt_of_le_of_lt (Nat.sub_le _ _) t.isLt)).2.1 (ix2 (0 : Fin 1) q) + z) (Finset.sum_congr rfl fun p _ => point_y V c t p q)
  · refine (congrFun (piece_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
    refine (pay5_apply (iblk4 V c 0 t) (iblk4 V c 1 t) (iblk4 V c 2 t) (iblk4 V c 3 t) (outsAt4 V c (t.val - 1) (Nat.lt_of_le_of_lt (Nat.sub_le _ _) t.isLt)).2.2 q).trans ?_
    exact congrArg (fun z => (outsAt4 V c (t.val - 1) (Nat.lt_of_le_of_lt (Nat.sub_le _ _) t.isLt)).2.2 (ix2 (0 : Fin 1) q) + z) (Finset.sum_congr rfl fun p _ => by rw [point_y V c t p q])

/-- A function of the row number, zero past the last row: the combined activations of column `q`. -/
def yN (c : Dev nD) (q : Fin 256) (n : ℕ) : EReal := if h : n < 100000 then yV V c ⟨n, h⟩ q else 0

theorem tileSum_eq (c : Dev nD) (q : Fin 256) (t : Fin cfg4.N) :
    tileSum V c q t = ∑ p : Fin 5000, yN V c q (5000 * t.val + p.val) :=
  Finset.sum_congr rfl fun p _ => by unfold yN; rw [dif_pos (row_lt t p)]

theorem tileSq_eq (c : Dev nD) (q : Fin 256) (t : Fin cfg4.N) :
    tileSq V c q t = ∑ p : Fin 5000, yN V c q (5000 * t.val + p.val) * yN V c q (5000 * t.val + p.val) :=
  Finset.sum_congr rfl fun p _ => by unfold yN; rw [dif_pos (row_lt t p)]

/-- THE INVARIANT: after point `n` the two accumulators hold the column sums (of the entries, of their squares) over the
    rows of tiles `0 … n`. By induction on the point. -/
theorem outsAt_sum (c : Dev nD) (q : Fin 256) : ∀ (n : ℕ) (hn : n < cfg4.N),
    (outsAt4 (F := Ideal) V c n hn).2.1 (ix2 (0 : Fin 1) q)
        = ∑ t ∈ Finset.range (n + 1), ∑ p : Fin 5000, yN V c q (5000 * t + p.val)
    ∧ (outsAt4 (F := Ideal) V c n hn).2.2 (ix2 (0 : Fin 1) q)
        = ∑ t ∈ Finset.range (n + 1), ∑ p : Fin 5000, yN V c q (5000 * t + p.val) * yN V c q (5000 * t + p.val)
  | 0, hn => by
    obtain ⟨a, b⟩ := at_A V c ⟨0, hn⟩ rfl q
    rw [tileSum_eq] at a
    rw [tileSq_eq] at b
    rw [Finset.sum_range_one, Finset.sum_range_one]
    exact ⟨a.trans (zero_add _), b.trans (zero_add _)⟩
  | n + 1, hn => by
    have hN : cfg4.N = 20 := N_4
    have hB : ¬(⟨n + 1, hn⟩ : Fin cfg4.N).val % 20 = 0 := by dsimp only; omega
    obtain ⟨a, b⟩ := at_B V c ⟨n + 1, hn⟩ hB q
    obtain ⟨ia, ib⟩ := outsAt_sum c q n (Nat.lt_of_succ_lt hn)
    rw [tileSum_eq] at a
    rw [tileSq_eq] at b
    rw [Finset.sum_range_succ _ (n + 1), Finset.sum_range_succ (fun t => ∑ p : Fin 5000, yN V c q (5000 * t + p.val) * yN V c q (5000 * t + p.val)) (n + 1)]
    exact ⟨a.trans (congrArg (fun z => z + _) ia), b.trans (congrArg (fun z => z + _) ib)⟩

/-- Twenty tiles of 5000 rows are the 100000 rows. -/
theorem sum_tiles (g : ℕ → EReal) :
    ∑ t ∈ Finset.range 20, ∑ p : Fin 5000, g (5000 * t + p.val) = ∑ r : Fin 100000, g r.val := by
  rw [Finset.sum_range (fun t => ∑ p : Fin 5000, g (5000 * t + p.val))]
  rw [← Fintype.sum_prod_type' (fun (t : Fin 20) (p : Fin 5000) => g (5000 * t.val + p.val))]
  exact Fintype.sum_equiv (finProdFinEquiv : Fin 20 × Fin 5000 ≃ Fin (20 * 5000)) _ (fun r : Fin 100000 => g r.val)
    (fun x => congrArg g (show 5000 * x.1.val + x.2.val = x.2.val + 5000 * x.1.val by omega))

end Sums

section Arrays

variable (V : (c : Dev nD) → (b : Ref sig .tc) → Buf (Elt Ideal) ((c : Thread nD τ).loc b))

/-- The first output array as one function of its index: the combined activations. -/
def G4 (c : Dev nD) : S100000x256.Idx → Elt Ideal .f32 := fun i => yV V c (i 0) (i 1)
/-- The second: every column's sum over all the rows. -/
def G5 (c : Dev nD) : S1x256.Idx → Elt Ideal .f32 := fun i => ∑ r : Fin 100000, yV V c r (i 1)
/-- The third: every column's sum of squares over all the rows. -/
def G6 (c : Dev nD) : S1x256.Idx → Elt Ideal .f32 := fun i => ∑ r : Fin 100000, yV V c r (i 1) * yV V c r (i 1)

/-- What point `t` writes back of the first output is tile `t` of the combined activations. -/
theorem flushed4_eq (c : Dev nD) (t : Fin cfg4.N) :
    (dat4 (F := Ideal) V c).flushed 4 t = ((cfg4.win 4).blk t).view.read (Elt Ideal) (G4 V c) := by
  obtain ⟨-, -, -, -, -, -, -, -, e0, e1, -⟩ := idx_facts t
  show (cfg4.win 4).cut (grid4.coords t) ((dat4 (F := Ideal) V c).after 4 t) = _
  rw [after4_4, at_4 V c t]
  funext j
  obtain ⟨p, q, rfl⟩ : ∃ (p : Fin 5000) (q : Fin 256), j = ix2 p q := ⟨j 0, j 1, eq_ix2 j⟩
  have hemb : ((cfg4.win 4).blk t).view.emb (ix2 p q) = (ix2 (⟨5000 * t.val + p.val, row_lt t p⟩ : Fin 100000) q : S100000x256.Idx) := by
    funext a
    apply Fin.ext
    match a with
    | ⟨0, _⟩ => show win4_4.index t (0 : Fin 2) * 5000 + 1 * p.val = 5000 * t.val + p.val; rw [e0]; omega
    | ⟨1, _⟩ => show win4_4.index t (1 : Fin 2) * 256 + 1 * q.val = q.val; rw [e1]; omega
  show k4_pay3 (F := Ideal) (iblk4 V c 0 t) (iblk4 V c 1 t) (iblk4 V c 2 t) (iblk4 V c 3 t) (ix2 p q) = G4 V c (((cfg4.win 4).blk t).view.emb (ix2 p q))
  rw [hemb]
  exact point_y V c t p q

/-- An index of the first output is in point `t`'s block iff each coordinate is in the block's range. -/
theorem mem_blk4 (t : Fin cfg4.N) (i : S100000x256.Idx) :
    i ∈ ((cfg4.win 4).blk t).view.set ↔ ∀ a : Fin 2, win4_4.index t a * S5000x256.size a ≤ (i a).val ∧ (i a).val < win4_4.index t a * S5000x256.size a + S5000x256.size a := by
  show i ∈ ((View.whole main_v118_0).slice (win4_4.rect t)).set ↔ _
  rw [View.set_slice_whole, Rect.mem_set_unit]
  exact Iff.rfl

/-- Row `r` is in the tile of point `r / 5000`. -/
theorem cover4 (i : S100000x256.Idx) :
    ∃ t : Fin cfg4.N, (cfg4.win 4).flush t = true ∧ i ∈ ((cfg4.win 4).blk t).view.set := by
  have hi0 : (i 0).val < 100000 := (i 0).isLt
  have hi1 : (i 1).val < 256 := (i 1).isLt
  have hN : cfg4.N = 20 := N_4
  have ht : (i 0).val / 5000 < cfg4.N := by rw [hN]; omega
  obtain ⟨-, -, -, -, -, -, -, -, e0, e1, -⟩ := idx_facts ⟨(i 0).val / 5000, ht⟩
  refine ⟨⟨(i 0).val / 5000, ht⟩, flush4_4 _, ?_⟩
  rw [mem_blk4]
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [e0]; dsimp only; omega
  | ⟨1, _⟩ =>
    show win4_4.index ⟨(i 0).val / 5000, ht⟩ (1 : Fin 2) * 256 ≤ (i 1).val ∧ (i 1).val < win4_4.index ⟨(i 0).val / 5000, ht⟩ (1 : Fin 2) * 256 + 256
    rw [e1]; omega

/-- The first output array ends holding the combined activations. -/
theorem final4 (c : Dev nD) : (dat4 (F := Ideal) V c).arrAt 4 cfg4.N = G4 V c :=
  (dat4 (F := Ideal) V c).arrAt_eq_of_cover 4 (G4 V c) (fun t _ => flushed4_eq V c t) cover4

/-- THE FIRST OUTPUT: entry (r, q) is the combined activation of row r, column q. -/
theorem out_y (c : Dev nD) (A H : S100000x256.Idx → EReal) (D : S100000x1.Idx → EReal) (B : S1x256.Idx → EReal)
    (hA : V c main_v115 = A) (hH : V c main_v68 = H) (hD : V c main_v116 = D) (hB : V c main_v117 = B)
    (r : Fin 100000) (q : Fin 256) :
    (dat4 (F := Ideal) V c).arrAt 4 cfg4.N (ix2 r q) = y A H D B r q := by
  subst hA hH hD hB
  exact congrFun (final4 V c) (ix2 r q)

end Arrays

section Accumulated

variable (V : (c : Dev nD) → (b : Ref sig .tc) → Buf (Elt Ideal) ((c : Thread nD τ).loc b))

/-- After the last point the accumulator of output 5 holds the sums over all twenty tiles: the whole-array sums. -/
theorem acc5_eq (c : Dev nD) (t : Fin cfg4.N) (h19 : t.val = 19) :
    (outsAt4 (F := Ideal) V c t.val t.isLt).2.1 = G5 V c := by
  funext j
  obtain ⟨u, q, rfl⟩ : ∃ (u : Fin 1) (q : Fin 256), j = ix2 u q := ⟨j 0, j 1, eq_ix2 j⟩
  obtain rfl : u = 0 := Subsingleton.elim _ _
  refine ((outsAt_sum V c q t.val t.isLt).1).trans ?_
  rw [h19]
  refine (sum_tiles (yN V c q)).trans ?_
  exact Finset.sum_congr rfl fun r _ => by unfold yN; rw [dif_pos r.isLt]

/-- Output 5 is written back once, after the last point; its one block, at block index (0, 0), is the whole array. -/
theorem flushed5_eq (c : Dev nD) (t : Fin cfg4.N) (hf : (cfg4.win 5).flush t = true) :
    (dat4 (F := Ideal) V c).flushed 5 t = ((cfg4.win 5).blk t).view.read (Elt Ideal) (G5 V c) := by
  have hN : cfg4.N = 20 := N_4
  have h19 : t.val = 19 := by have := (flush4_5 t).mp hf; have := t.isLt; omega
  obtain ⟨-, -, -, -, -, -, -, -, -, -, e0, e1, -⟩ := idx_facts t
  show (cfg4.win 5).cut (grid4.coords t) ((dat4 (F := Ideal) V c).after 5 t) = _
  rw [after4_5, acc5_eq V c t h19]
  have hz' : (fun a => win4_5.index t a * main_v118_1.ty.shape.size a) = fun _ => 0 := funext fun (a : Fin 2) => by
    match a with
    | ⟨0, _⟩ => show win4_5.index t (0 : Fin 2) * 1 = 0; rw [e0]
    | ⟨1, _⟩ => show win4_5.index t (1 : Fin 2) * 256 = 0; rw [e1]
  exact (Memref.read_access_unit_zero (Elt Ideal) main_v118_1 hz' (fun a => by rw [congrFun hz' a]; simp) (G5 V c)).symm

/-- An index of output 5 is in point `t`'s block iff each coordinate is in the block's range. -/
theorem mem_blk5 (t : Fin cfg4.N) (i : S1x256.Idx) :
    i ∈ ((cfg4.win 5).blk t).view.set ↔ ∀ a : Fin 2, win4_5.index t a * S1x256.size a ≤ (i a).val ∧ (i a).val < win4_5.index t a * S1x256.size a + S1x256.size a := by
  show i ∈ ((View.whole main_v118_1).slice (win4_5.rect t)).set ↔ _
  rw [View.set_slice_whole, Rect.mem_set_unit]
  exact Iff.rfl

/-- The last point's block covers the whole row. -/
theorem cover5 (i : S1x256.Idx) :
    ∃ t : Fin cfg4.N, (cfg4.win 5).flush t = true ∧ i ∈ ((cfg4.win 5).blk t).view.set := by
  have hN : cfg4.N = 20 := N_4
  have h19 : 19 < cfg4.N := by rw [hN]; omega
  have hi0 : (i 0).val < 1 := (i 0).isLt
  have hi1 : (i 1).val < 256 := (i 1).isLt
  obtain ⟨-, -, -, -, -, -, -, -, -, -, e0, e1, -⟩ := idx_facts ⟨19, h19⟩
  refine ⟨⟨19, h19⟩, (flush4_5 _).mpr rfl, ?_⟩
  rw [mem_blk5]
  intro a
  match a with
  | ⟨0, _⟩ =>
    show win4_5.index ⟨19, h19⟩ (0 : Fin 2) * 1 ≤ (i 0).val ∧ (i 0).val < win4_5.index ⟨19, h19⟩ (0 : Fin 2) * 1 + 1
    rw [e0]; omega
  | ⟨1, _⟩ =>
    show win4_5.index ⟨19, h19⟩ (1 : Fin 2) * 256 ≤ (i 1).val ∧ (i 1).val < win4_5.index ⟨19, h19⟩ (1 : Fin 2) * 256 + 256
    rw [e1]; omega

theorem final5 (c : Dev nD) : (dat4 (F := Ideal) V c).arrAt 5 cfg4.N = G5 V c :=
  (dat4 (F := Ideal) V c).arrAt_eq_of_cover 5 (G5 V c) (flushed5_eq V c) cover5

/-- After the last point the accumulator of output 6 holds the sums over all twenty tiles: the whole-array sums. -/
theorem acc6_eq (c : Dev nD) (t : Fin cfg4.N) (h19 : t.val = 19) :
    (outsAt4 (F := Ideal) V c t.val t.isLt).2.2 = G6 V c := by
  funext j
  obtain ⟨u, q, rfl⟩ : ∃ (u : Fin 1) (q : Fin 256), j = ix2 u q := ⟨j 0, j 1, eq_ix2 j⟩
  obtain rfl : u = 0 := Subsingleton.elim _ _
  refine ((outsAt_sum V c q t.val t.isLt).2).trans ?_
  rw [h19]
  refine (sum_tiles (fun n => yN V c q n * yN V c q n)).trans ?_
  exact Finset.sum_congr rfl fun r _ => by unfold yN; rw [dif_pos r.isLt]

/-- Output 6 is written back once, after the last point; its one block, at block index (0, 0), is the whole array. -/
theorem flushed6_eq (c : Dev nD) (t : Fin cfg4.N) (hf : (cfg4.win 6).flush t = true) :
    (dat4 (F := Ideal) V c).flushed 6 t = ((cfg4.win 6).blk t).view.read (Elt Ideal) (G6 V c) := by
  have hN : cfg4.N = 20 := N_4
  have h19 : t.val = 19 := by have := (flush4_6 t).mp hf; have := t.isLt; omega
  obtain ⟨-, -, -, -, -, -, -, -, -, -, -, -, e0, e1⟩ := idx_facts t
  show (cfg4.win 6).cut (grid4.coords t) ((dat4 (F := Ideal) V c).after 6 t) = _
  rw [after4_6, acc6_eq V c t h19]
  have hz' : (fun a => win4_6.index t a * main_v118_2.ty.shape.size a) = fun _ => 0 := funext fun (a : Fin 2) => by
    match a with
    | ⟨0, _⟩ => show win4_6.index t (0 : Fin 2) * 1 = 0; rw [e0]
    | ⟨1, _⟩ => show win4_6.index t (1 : Fin 2) * 256 = 0; rw [e1]
  exact (Memref.read_access_unit_zero (Elt Ideal) main_v118_2 hz' (fun a => by rw [congrFun hz' a]; simp) (G6 V c)).symm

/-- An index of output 6 is in point `t`'s block iff each coordinate is in the block's range. -/
theorem mem_blk6 (t : Fin cfg4.N) (i : S1x256.Idx) :
    i ∈ ((cfg4.win 6).blk t).view.set ↔ ∀ a : Fin 2, win4_6.index t a * S1x256.size a ≤ (i a).val ∧ (i a).val < win4_6.index t a * S1x256.size a + S1x256.size a := by
  show i ∈ ((View.whole main_v118_2).slice (win4_6.rect t)).set ↔ _
  rw [View.set_slice_whole, Rect.mem_set_unit]
  exact Iff.rfl

/-- The last point's block covers the whole row. -/
theorem cover6 (i : S1x256.Idx) :
    ∃ t : Fin cfg4.N, (cfg4.win 6).flush t = true ∧ i ∈ ((cfg4.win 6).blk t).view.set := by
  have hN : cfg4.N = 20 := N_4
  have h19 : 19 < cfg4.N := by rw [hN]; omega
  have hi0 : (i 0).val < 1 := (i 0).isLt
  have hi1 : (i 1).val < 256 := (i 1).isLt
  obtain ⟨-, -, -, -, -, -, -, -, -, -, -, -, e0, e1⟩ := idx_facts ⟨19, h19⟩
  refine ⟨⟨19, h19⟩, (flush4_6 _).mpr rfl, ?_⟩
  rw [mem_blk6]
  intro a
  match a with
  | ⟨0, _⟩ =>
    show win4_6.index ⟨19, h19⟩ (0 : Fin 2) * 1 ≤ (i 0).val ∧ (i 0).val < win4_6.index ⟨19, h19⟩ (0 : Fin 2) * 1 + 1
    rw [e0]; omega
  | ⟨1, _⟩ =>
    show win4_6.index ⟨19, h19⟩ (1 : Fin 2) * 256 ≤ (i 1).val ∧ (i 1).val < win4_6.index ⟨19, h19⟩ (1 : Fin 2) * 256 + 256
    rw [e1]; omega

theorem final6 (c : Dev nD) : (dat4 (F := Ideal) V c).arrAt 6 cfg4.N = G6 V c :=
  (dat4 (F := Ideal) V c).arrAt_eq_of_cover 6 (G6 V c) (flushed6_eq V c) cover6

/-- THE SECOND OUTPUT: column q holds the sum of the combined activations over all the rows. -/
theorem out_sum (c : Dev nD) (A H : S100000x256.Idx → EReal) (D : S100000x1.Idx → EReal) (B : S1x256.Idx → EReal)
    (hA : V c main_v115 = A) (hH : V c main_v68 = H) (hD : V c main_v116 = D) (hB : V c main_v117 = B) (q : Fin 256) :
    (dat4 (F := Ideal) V c).arrAt 5 cfg4.N (ix2 (0 : Fin 1) q) = ∑ r : Fin 100000, y A H D B r q := by
  subst hA hH hD hB
  exact congrFun (final5 V c) (ix2 (0 : Fin 1) q)

/-- THE THIRD OUTPUT: column q holds the sum of their squares over all the rows. -/
theorem out_sumsq (c : Dev nD) (A H : S100000x256.Idx → EReal) (D : S100000x1.Idx → EReal) (B : S1x256.Idx → EReal)
    (hA : V c main_v115 = A) (hH : V c main_v68 = H) (hD : V c main_v116 = D) (hB : V c main_v117 = B) (q : Fin 256) :
    (dat4 (F := Ideal) V c).arrAt 6 cfg4.N (ix2 (0 : Fin 1) q) = ∑ r : Fin 100000, y A H D B r q * y A H D B r q := by
  subst hA hH hD hB
  exact congrFun (final6 V c) (ix2 (0 : Fin 1) q)

end Accumulated

end Cert.KernelIdeal.Region4

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.RealClosure.lean ====
/-
  The real numbers, inside the extended reals, are closed under everything a graph-convolution layer followed by a
  batch normalisation does to its data: finite sums, differences, products, maxima, quotients by a positive real, the
  reciprocal square root of a positive real, reading an array at computed places (a gather), and adding selected
  entries of one array into another (an accumulating scatter).

  Three predicates on a single extended real: it is a real number; it is a nonnegative real number; it is a positive
  real number. The two sign-carrying ones are what keeps a degree (one plus a count) and a variance plus a positive
  epsilon away from zero, where the quotient and the reciprocal square root would leave the reals.
-/
import proofs.«100399_j30279519436917_1_alg».proof.Proof.Reals
import proofs.«100399_j30279519436917_1_alg».proof.Proof.LibSegmentSum
import proofs.«100399_j30279519436917_1_alg».proof.Proof.LibSegmentDims
import proofs.«100399_j30279519436917_1_alg».proof.Proof.LibGatherRows
import proofs.«100399_j30279519436917_1_alg».proof.Proof.LibBatchNormAffine

noncomputable section

namespace Cert.RefReal

open Idealize.ShloMosaic Idealize.ShloMosaic.ValueIdx Cert.Reals
open scoped BigOperators

/-! ## One extended real -/

/-- The extended real is a real number. -/
def Rl (x : EReal) : Prop := ∃ r : ℝ, x = (r : EReal)

/-- The extended real is a nonnegative real number. -/
def Nn (x : EReal) : Prop := ∃ r : ℝ, 0 ≤ r ∧ x = (r : EReal)

/-- The extended real is a positive real number. -/
def Ps (x : EReal) : Prop := ∃ r : ℝ, 0 < r ∧ x = (r : EReal)

theorem Nn.rl {x : EReal} (h : Nn x) : Rl x := by
  obtain ⟨r, _, e⟩ := h; exact ⟨r, e⟩

theorem Ps.nn {x : EReal} (h : Ps x) : Nn x := by
  obtain ⟨r, p, e⟩ := h; exact ⟨r, p.le, e⟩

theorem Ps.rl {x : EReal} (h : Ps x) : Rl x := h.nn.rl

/-- An array is real exactly when each entry is. -/
theorem allReal_iff {ι : Type*} (x : ι → EReal) : AllReal x ↔ ∀ i, Rl (x i) := Iff.rfl

theorem Rl.add {x y : EReal} (hx : Rl x) (hy : Rl y) : Rl (x + y) := by
  obtain ⟨a, rfl⟩ := hx; obtain ⟨b, rfl⟩ := hy; exact ⟨a + b, (EReal.coe_add a b).symm⟩

theorem Rl.sub {x y : EReal} (hx : Rl x) (hy : Rl y) : Rl (x - y) := by
  obtain ⟨a, rfl⟩ := hx; obtain ⟨b, rfl⟩ := hy; exact ⟨a - b, (EReal.coe_sub a b).symm⟩

theorem Rl.mul {x y : EReal} (hx : Rl x) (hy : Rl y) : Rl (x * y) := by
  obtain ⟨a, rfl⟩ := hx; obtain ⟨b, rfl⟩ := hy; exact ⟨a * b, (EReal.coe_mul a b).symm⟩

/-- The larger of two reals is one of them. -/
theorem Rl.max {x y : EReal} (hx : Rl x) (hy : Rl y) : Rl (max x y) := by
  rcases le_total x y with h | h
  · rw [max_eq_right h]; exact hy
  · rw [max_eq_left h]; exact hx

/-- A real times itself is a nonnegative real. -/
theorem Rl.mul_self {x : EReal} (hx : Rl x) : Nn (x * x) := by
  obtain ⟨a, rfl⟩ := hx; exact ⟨a * a, mul_self_nonneg a, (EReal.coe_mul a a).symm⟩

theorem Nn.add {x y : EReal} (hx : Nn x) (hy : Nn y) : Nn (x + y) := by
  obtain ⟨a, ha, rfl⟩ := hx; obtain ⟨b, hb, rfl⟩ := hy
  exact ⟨a + b, add_nonneg ha hb, (EReal.coe_add a b).symm⟩

/-- A nonnegative real plus a positive one is positive. -/
theorem Nn.add_ps {x y : EReal} (hx : Nn x) (hy : Ps y) : Ps (x + y) := by
  obtain ⟨a, ha, rfl⟩ := hx; obtain ⟨b, hb, rfl⟩ := hy
  exact ⟨a + b, add_pos_of_nonneg_of_pos ha hb, (EReal.coe_add a b).symm⟩

/-- A finite sum of reals is real. -/
theorem Rl.sum {κ : Type*} (s : Finset κ) (f : κ → EReal) (h : ∀ k ∈ s, Rl (f k)) : Rl (∑ k ∈ s, f k) := by
  classical
  induction s using Finset.induction_on with
  | empty => exact ⟨0, by rw [Finset.sum_empty, EReal.coe_zero]⟩
  | insert a s ha ih =>
    rw [Finset.sum_insert ha]
    exact (h a (Finset.mem_insert_self a s)).add (ih fun k hk => h k (Finset.mem_insert_of_mem hk))

/-- A finite sum of nonnegative reals is a nonnegative real. -/
theorem Nn.sum {κ : Type*} (s : Finset κ) (f : κ → EReal) (h : ∀ k ∈ s, Nn (f k)) : Nn (∑ k ∈ s, f k) := by
  classical
  induction s using Finset.induction_on with
  | empty => exact ⟨0, le_rfl, by rw [Finset.sum_empty, EReal.coe_zero]⟩
  | insert a s ha ih =>
    rw [Finset.sum_insert ha]
    exact (h a (Finset.mem_insert_self a s)).add (ih fun k hk => h k (Finset.mem_insert_of_mem hk))

/-- The quotient of a real by a positive real is real. -/
theorem Rl.div_ps {x y : EReal} (hx : Rl x) (hy : Ps y) : Rl (Ideal.div x y) := by
  obtain ⟨a, rfl⟩ := hx; obtain ⟨b, hb, rfl⟩ := hy
  exact ⟨a / b, LibBatchNormAffine.div_coe_coe a hb.ne'⟩

/-- The quotient of a nonnegative real by a positive real is a nonnegative real. -/
theorem Nn.div_ps {x y : EReal} (hx : Nn x) (hy : Ps y) : Nn (Ideal.div x y) := by
  obtain ⟨a, ha, rfl⟩ := hx; obtain ⟨b, hb, rfl⟩ := hy
  exact ⟨a / b, div_nonneg ha hb.le, LibBatchNormAffine.div_coe_coe a hb.ne'⟩

/-- The reciprocal square root of a positive real is real. -/
theorem Ps.rsqrt {x : EReal} (hx : Ps x) : Rl (Ideal.rsqrt x) := by
  obtain ⟨a, ha, rfl⟩ := hx
  exact ⟨(Real.sqrt a)⁻¹, LibBatchNormAffine.rsqrt_coe_of_pos ha⟩

/-! ## The float words both layers spell -/

theorem nn_zero : Nn (0 : EReal) := ⟨0, le_rfl, EReal.coe_zero.symm⟩

theorem nn_word_zero : Nn (Ideal.ofBits .f32 0x00000000#32) := by rw [ofBits_zero]; exact nn_zero

theorem ps_word_one : Ps (Ideal.ofBits .f32 0x3F800000#32) := ⟨1, one_pos, ofBits_one⟩

theorem ps_word_rows : Ps (Ideal.ofBits .f32 0x47C35000#32) := ⟨100000, by norm_num, ofBits_rows⟩

theorem ps_word_eps : Ps (Ideal.ofBits .f32 0x3727C5AC#32) := ofBits_eps

/-! ## Arrays: the accumulating scatter and the gather -/

/-- Adding rows of a real matrix of updates into a real matrix, each update row into the row its number names, gives
    a real matrix: an entry of the result is the operand's entry plus a finite sum of update entries. -/
theorem scatterRows_real {S C N w : ℕ}
    (wf : ScatterDims.WF ⟨2, ![S, C]⟩ ⟨2, ![N, 1]⟩ ⟨2, ![N, C]⟩ [1] [0] [0] 1)
    (x : FVec Ideal ⟨2, ![S, C]⟩ .f32) (idx : IVec ⟨2, ![N, 1]⟩ w) (upd : FVec Ideal ⟨2, ![N, C]⟩ .f32)
    (hx : AllReal x) (hu : AllReal upd) :
    AllReal (Host.scatterAdd (Cert.SegmentDims.rowsDims S C N wf) x idx upd) := by
  intro j
  obtain ⟨s, c, rfl⟩ : ∃ (s : Fin S) (c : Fin C), j = ix2 s c := ⟨j 0, j 1, eq_ix2 j⟩
  rw [Cert.SegmentSum.scatterAdd_rows_apply _ (Cert.SegmentDims.rows_start0 wf) (Cert.SegmentDims.rows_start1 wf)
    (Cert.SegmentDims.rows_window0 wf) (Cert.SegmentDims.rows_window1 wf)]
  exact Rl.add (hx _) (Rl.sum _ _ fun i _ => hu _)

/-- Adding nonnegative real updates into a vector of nonnegative reals, each at the element its number names, gives
    nonnegative reals: an element of the result is the operand's plus a finite sum of updates. (With the operand zero
    and every update one this is a count.) -/
theorem scatterVec_nn {S N w : ℕ} (wf : ScatterDims.WF ⟨1, ![S]⟩ ⟨2, ![N, 1]⟩ ⟨1, ![N]⟩ [] [0] [0] 1)
    (x : FVec Ideal ⟨1, ![S]⟩ .f32) (idx : IVec ⟨2, ![N, 1]⟩ w) (upd : FVec Ideal ⟨1, ![N]⟩ .f32)
    (hx : ∀ j, Nn (x j)) (hu : ∀ j, Nn (upd j)) (j : (⟨1, ![S]⟩ : Shape).Idx) :
    Nn (Host.scatterAdd (Cert.SegmentDims.vecDims S N wf) x idx upd j) := by
  obtain ⟨s, rfl⟩ : ∃ s : Fin S, j = ix1 s := ⟨j 0, eq_ix1 j⟩
  rw [Cert.SegmentSum.scatterAdd_vec_apply _ (Cert.SegmentDims.vec_start0 wf) (Cert.SegmentDims.vec_window0 wf)]
  exact Nn.add (hx _) (Nn.sum _ _ fun i _ => hu _)

/-- Rows gathered from a real matrix are real: each entry of the result is an entry of the operand. -/
theorem gatherRows_real {N C M w : ℕ} (hN : 0 < N)
    (wf : GatherDims.WF ⟨2, ![N, C]⟩ ⟨2, ![M, 1]⟩ ⟨2, ![M, C]⟩ [1] [0] [] [0] [] 1 ![1, C])
    (x : FVec Ideal ⟨2, ![N, C]⟩ .f32) (idx : IVec ⟨2, ![M, 1]⟩ w) (hx : AllReal x) :
    AllReal (Host.gather (Cert.GatherRows.rowDims N C M wf) x idx) := by
  intro j
  obtain ⟨e, c, rfl⟩ : ∃ (e : Fin M) (c : Fin C), j = ix2 e c := ⟨j 0, j 1, eq_ix2 j⟩
  rw [Cert.GatherRows.gather_rows_apply hN]
  exact hx _

/-- Elements gathered from a real vector are real. -/
theorem gatherVec_real {N M w : ℕ} (hN : 0 < N)
    (wf : GatherDims.WF ⟨1, ![N]⟩ ⟨2, ![M, 1]⟩ ⟨1, ![M]⟩ [] [0] [] [0] [] 1 ![1])
    (x : FVec Ideal ⟨1, ![N]⟩ .f32) (idx : IVec ⟨2, ![M, 1]⟩ w) (hx : AllReal x) :
    AllReal (Host.gather (Cert.GatherRows.vecDims N M wf) x idx) := by
  intro j
  obtain ⟨e, rfl⟩ : ∃ e : Fin M, j = ix1 e := ⟨j 0, eq_ix1 j⟩
  rw [Cert.GatherRows.gather_vec_apply hN]
  exact hx _

end Cert.RefReal

end
-- ==== Proof.RefReal.lean ====
/-
  Every entry stays a real number, on the reference side.

  The reference computes each layer as: a dense product h = x·W; a degree per node (one plus the number of edges whose
  destination number names the node); a coefficient per edge (the product of the reciprocal square roots of the degrees
  at its two ends, read by gathers that clamp the edge's numbers into the nodes); a neighbourhood sum (each edge's source
  row of h times its coefficient, added into the row its destination number names, edges whose number names no row
  adding nothing); the node's own row over its degree; a bias. Then a batch normalisation over the rows and a rectifier.

  Each of these keeps real arrays real, whatever words the edge list holds: sums, products and differences of reals are
  real; a degree is one plus a count, hence positive, so its reciprocal and its reciprocal square root are real; a
  variance is a sum of squares over a positive count, hence nonnegative, and adding the positive epsilon makes it
  positive, so its reciprocal square root is real. The stages of the generated reading of the reference are walked in
  program order, each read at an index from the stages before it.
-/
import proofs.«100399_j30279519436917_1_alg».proof.Proof.RefRead
import proofs.«100399_j30279519436917_1_alg».proof.Proof.RealClosure

noncomputable section

namespace Cert.RefReal

open Idealize.ShloMosaic Cert.ReferenceIdeal Cert.ReferenceIdeal.Read Cert.Reals
open scoped BigOperators

/-! ## Layer 1: the convolution -/

/-- The degree of a node, one plus the number of edges whose destination number names it, is a positive real: the
    count is a scatter of ones into zeros. -/
theorem deg1_ps (x1 : (⟨S2x800000, .i32⟩ : BufTy).Contents (Elt Ideal)) (i : S100000.Idx) :
    Ps (val_main_v15 (F := Ideal) x1 i) := by
  rw [val_main_v15_apply]
  refine Nn.add_ps ?_ ?_
  · unfold val_main_v13
    generalize val_main_v11 (F := Ideal) x1 = idx
    refine scatterVec_nn _ _ idx _ (fun j => ?_) (fun j => ?_) i
    · rw [val_main_v5_apply, val_main_cst_apply]; exact nn_word_zero
    · rw [val_main_v12_apply, val_main_cst_1_apply]; exact ps_word_one.nn
  · rw [val_main_v14_apply, val_main_cst_2_apply]; exact ps_word_one

/-- The degree factor, the reciprocal square root of the degree, is real. -/
theorem dinv1_real (x1 : (⟨S2x800000, .i32⟩ : BufTy).Contents (Elt Ideal)) :
    AllReal (val_main_v16 (F := Ideal) x1) := fun i => by
  rw [val_main_v16_apply, Ideal.hostUnary_rsqrt_def]
  exact (deg1_ps x1 i).rsqrt

/-- An edge's coefficient, the product of the degree factors read at its two ends, is real. -/
theorem coef1_real (x1 : (⟨S2x800000, .i32⟩ : BufTy).Contents (Elt Ideal)) :
    AllReal (val_main_v31 (F := Ideal) x1) := fun i => by
  rw [val_main_v31_apply]
  refine Rl.mul ?_ ?_
  · unfold val_main_v23
    exact gatherVec_real (by norm_num) _ _ _ (dinv1_real x1) i
  · unfold val_main_v30
    exact gatherVec_real (by norm_num) _ _ _ (dinv1_real x1) i

/-- An edge's message, the source row of the dense product times the edge's coefficient, is real when the dense
    product is. -/
theorem msg1_real (x0 : (⟨S100000x384, .f32⟩ : BufTy).Contents (Elt Ideal)) (x1 : (⟨S2x800000, .i32⟩ : BufTy).Contents (Elt Ideal))
    (x2 : (⟨S384x256, .f32⟩ : BufTy).Contents (Elt Ideal))
    (hh : AllReal (val_main_v4 (F := Ideal) x0 x2)) : AllReal (val_main_v42 (F := Ideal) x0 x1 x2) := fun i => by
  rw [val_main_v42_apply]
  refine Rl.mul ?_ ?_
  · unfold val_main_v39
    exact gatherRows_real (by norm_num) _ _ _ hh i
  · rw [val_main_v41_apply, val_main_v40_apply]; exact coef1_real x1 _

/-- The neighbourhood sum, the messages added into zeros at their destination rows, is real. -/
theorem agg1_real (x0 : (⟨S100000x384, .f32⟩ : BufTy).Contents (Elt Ideal)) (x1 : (⟨S2x800000, .i32⟩ : BufTy).Contents (Elt Ideal))
    (x2 : (⟨S384x256, .f32⟩ : BufTy).Contents (Elt Ideal))
    (hh : AllReal (val_main_v4 (F := Ideal) x0 x2)) : AllReal (val_main_v49 (F := Ideal) x0 x1 x2) := by
  unfold val_main_v49
  refine scatterRows_real _ _ _ _ (fun j => ?_) (msg1_real x0 x1 x2 hh)
  rw [val_main_v32_apply, val_main_cst_7_apply]; exact nn_word_zero.rl

/-- The layer's output before normalisation, neighbourhood sum plus the node's own row over its degree plus the bias,
    is real when the dense product and the bias are. -/
theorem conv1_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (b : (⟨S256, .f32⟩ : BufTy).Contents (Elt Ideal))
    (hh : AllReal (val_main_v4 (F := Ideal) x0 x2)) (hb : AllReal b) :
    AllReal (val_main_v58 (F := Ideal) x0 x1 x2 b) := fun i => by
  rw [val_main_v58_apply, val_main_v55_apply, val_main_v54_apply]
  refine Rl.add (Rl.add (agg1_real x0 x1 x2 hh i) (Rl.mul (hh i) ?_)) ?_
  · rw [val_main_v53_apply, val_main_v52_apply, val_main_v51_apply]
    refine Rl.div_ps ?_ (deg1_ps x1 _)
    rw [val_main_v50_apply, val_main_cst_12_apply]; exact ps_word_one.rl
  · rw [val_main_v57_apply, val_main_v56_apply]; exact hb _

/-! ## Layer 1: the batch normalisation and the rectifier -/

/-- The column mean of a real matrix, a finite sum over the rows divided by the row count, is real. -/
theorem mean1_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 : (⟨S256, .f32⟩ : BufTy).Contents (Elt Ideal))
    (hy : AllReal (val_main_v58 (F := Ideal) x0 x1 x2 x3)) : AllReal (val_main_v61 (F := Ideal) x0 x1 x2 x3) := fun i => by
  rw [val_main_v61_apply, val_main_v59_apply]
  refine Rl.div_ps (Rl.add ?_ (Rl.sum _ _ fun k _ => hy _)) ?_
  · rw [val_main_cst_13_apply]; exact nn_word_zero.rl
  · rw [val_main_v60_apply, val_main_cst_14_apply]; exact ps_word_rows

/-- The deviations from the column mean are real. -/
theorem centred1_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 : (⟨S256, .f32⟩ : BufTy).Contents (Elt Ideal))
    (hy : AllReal (val_main_v58 (F := Ideal) x0 x1 x2 x3)) : AllReal (val_main_v64 (F := Ideal) x0 x1 x2 x3) := fun i => by
  rw [val_main_v64_apply, val_main_v63_apply, val_main_v62_apply]
  exact Rl.sub (hy i) (mean1_real x0 x1 x2 x3 hy _)

/-- The column variance plus epsilon is a positive real: a finite sum of squares of reals over a positive count, plus
    a positive number. -/
theorem vareps1_ps (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 : (⟨S256, .f32⟩ : BufTy).Contents (Elt Ideal))
    (hy : AllReal (val_main_v58 (F := Ideal) x0 x1 x2 x3)) (i : S256.Idx) :
    Ps (val_main_v76 (F := Ideal) x0 x1 x2 x3 i) := by
  rw [val_main_v76_apply, val_main_v68_apply, val_main_v66_apply]
  refine Nn.add_ps (Nn.div_ps (Nn.add ?_ (Nn.sum _ _ fun k _ => ?_)) ?_) ?_
  · rw [val_main_cst_15_apply]; exact nn_word_zero
  · rw [val_main_v65_apply]; exact Rl.mul_self (centred1_real x0 x1 x2 x3 hy _)
  · rw [val_main_v67_apply, val_main_cst_16_apply]; exact ps_word_rows
  · rw [val_main_v75_apply, val_main_cst_17_apply]; exact ps_word_eps

/-! ## Layer 2: the convolution -/

/-- The degree of a node, one plus the number of edges whose destination number names it, is a positive real: the
    count is a scatter of ones into zeros. -/
theorem deg2_ps (x1 : (⟨S2x800000, .i32⟩ : BufTy).Contents (Elt Ideal)) (i : S100000.Idx) :
    Ps (val_main_v96 (F := Ideal) x1 i) := by
  rw [val_main_v96_apply]
  refine Nn.add_ps ?_ ?_
  · unfold val_main_v94
    generalize val_main_v92 (F := Ideal) x1 = idx
    refine scatterVec_nn _ _ idx _ (fun j => ?_) (fun j => ?_) i
    · rw [val_main_v86_apply, val_main_cst_18_apply]; exact nn_word_zero
    · rw [val_main_v93_apply, val_main_cst_21_apply]; exact ps_word_one.nn
  · rw [val_main_v95_apply, val_main_cst_22_apply]; exact ps_word_one

/-- The degree factor, the reciprocal square root of the degree, is real. -/
theorem dinv2_real (x1 : (⟨S2x800000, .i32⟩ : BufTy).Contents (Elt Ideal)) :
    AllReal (val_main_v97 (F := Ideal) x1) := fun i => by
  rw [val_main_v97_apply, Ideal.hostUnary_rsqrt_def]
  exact (deg2_ps x1 i).rsqrt

/-- An edge's coefficient, the product of the degree factors read at its two ends, is real. -/
theorem coef2_real (x1 : (⟨S2x800000, .i32⟩ : BufTy).Contents (Elt Ideal)) :
    AllReal (val_main_v112 (F := Ideal) x1) := fun i => by
  rw [val_main_v112_apply]
  refine Rl.mul ?_ ?_
  · unfold val_main_v104
    exact gatherVec_real (by norm_num) _ _ _ (dinv2_real x1) i
  · unfold val_main_v111
    exact gatherVec_real (by norm_num) _ _ _ (dinv2_real x1) i

/-- An edge's message, the source row of the dense product times the edge's coefficient, is real when the dense
    product is. -/
theorem msg2_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (x6 : (⟨S256x256, .f32⟩ : BufTy).Contents (Elt Ideal))
    (hh : AllReal (val_main_v85 (F := Ideal) x0 x1 x2 x3 x4 x5 x6)) : AllReal (val_main_v123 (F := Ideal) x0 x1 x2 x3 x4 x5 x6) := fun i => by
  rw [val_main_v123_apply]
  refine Rl.mul ?_ ?_
  · unfold val_main_v120
    exact gatherRows_real (by norm_num) _ _ _ hh i
  · rw [val_main_v122_apply, val_main_v121_apply]; exact coef2_real x1 _

/-- The neighbourhood sum, the messages added into zeros at their destination rows, is real. -/
theorem agg2_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (x6 : (⟨S256x256, .f32⟩ : BufTy).Contents (Elt Ideal))
    (hh : AllReal (val_main_v85 (F := Ideal) x0 x1 x2 x3 x4 x5 x6)) : AllReal (val_main_v130 (F := Ideal) x0 x1 x2 x3 x4 x5 x6) := by
  unfold val_main_v130
  refine scatterRows_real _ _ _ _ (fun j => ?_) (msg2_real x0 x1 x2 x3 x4 x5 x6 hh)
  rw [val_main_v113_apply, val_main_cst_27_apply]; exact nn_word_zero.rl

/-- The layer's output before normalisation, neighbourhood sum plus the node's own row over its degree plus the bias,
    is real when the dense product and the bias are. -/
theorem conv2_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (x6 : (⟨S256x256, .f32⟩ : BufTy).Contents (Elt Ideal)) (b : (⟨S256, .f32⟩ : BufTy).Contents (Elt Ideal))
    (hh : AllReal (val_main_v85 (F := Ideal) x0 x1 x2 x3 x4 x5 x6)) (hb : AllReal b) :
    AllReal (val_main_v139 (F := Ideal) x0 x1 x2 x3 x4 x5 x6 b) := fun i => by
  rw [val_main_v139_apply, val_main_v136_apply, val_main_v135_apply]
  refine Rl.add (Rl.add (agg2_real x0 x1 x2 x3 x4 x5 x6 hh i) (Rl.mul (hh i) ?_)) ?_
  · rw [val_main_v134_apply, val_main_v133_apply, val_main_v132_apply]
    refine Rl.div_ps ?_ (deg2_ps x1 _)
    rw [val_main_v131_apply, val_main_cst_32_apply]; exact ps_word_one.rl
  · rw [val_main_v138_apply, val_main_v137_apply]; exact hb _

/-! ## The three results -/

/-- The first dense product, a finite sum of products of input entries, is real. -/
theorem xw1_real (x0 : (⟨S100000x384, .f32⟩ : BufTy).Contents (Elt Ideal)) (x2 : (⟨S384x256, .f32⟩ : BufTy).Contents (Elt Ideal))
    (h0 : AllReal x0) (h2 : AllReal x2) : AllReal (val_main_v4 (F := Ideal) x0 x2) := fun i => by
  rw [val_main_v4_apply]
  exact Rl.sum _ _ fun k _ => Rl.mul (h0 _) (h2 _)

/-- The first layer's activations before normalisation are real at real inputs, whatever the edge list's words. -/
theorem y1_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 : (⟨S256, .f32⟩ : BufTy).Contents (Elt Ideal))
    (h0 : AllReal x0) (h2 : AllReal x2) (h3 : AllReal x3) : AllReal (val_main_v58 (F := Ideal) x0 x1 x2 x3) :=
  conv1_real x0 x1 x2 x3 (xw1_real x0 x2 h0 h2) h3

/-- The first layer's output (normalised, scaled, shifted, rectified) is real at real inputs. -/
theorem h1_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (h0 : AllReal x0) (h2 : AllReal x2) (h3 : AllReal x3) (h4 : AllReal x4) (h5 : AllReal x5) :
    AllReal (val_main_v84 (F := Ideal) x0 x1 x2 x3 x4 x5) := fun i => by
  have hy := y1_real x0 x1 x2 x3 h0 h2 h3
  rw [val_main_v84_apply, val_main_v83_apply, val_main_v80_apply, val_main_v74_apply]
  refine Rl.max (Rl.add (Rl.mul (Rl.mul ?_ ?_) ?_) ?_) ?_
  · rw [val_main_v73_apply, val_main_v72_apply]; exact h4 _
  · rw [val_main_v71_apply, val_main_v70_apply, val_main_v69_apply]
    exact Rl.sub (hy i) (mean1_real x0 x1 x2 x3 hy _)
  · rw [val_main_v79_apply, val_main_v78_apply, val_main_v77_apply, Ideal.hostUnary_rsqrt_def]
    exact (vareps1_ps x0 x1 x2 x3 hy _).rsqrt
  · rw [val_main_v82_apply, val_main_v81_apply]; exact h5 _
  · rw [val_main_call0_v0_apply, val_main_call0_cst_apply]; exact nn_word_zero.rl

/-- The second dense product, a finite sum of products of first-layer outputs and weights, is real. -/
theorem xw2_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (x6 : (⟨S256x256, .f32⟩ : BufTy).Contents (Elt Ideal))
    (hh : AllReal (val_main_v84 (F := Ideal) x0 x1 x2 x3 x4 x5)) (h6 : AllReal x6) :
    AllReal (val_main_v85 (F := Ideal) x0 x1 x2 x3 x4 x5 x6) := fun i => by
  rw [val_main_v85_apply]
  exact Rl.sum _ _ fun k _ => Rl.mul (hh _) (h6 _)

/-- The second layer's activations before normalisation are real at real inputs. -/
theorem y2_real (x0 : (⟨S100000x384, .f32⟩ : BufTy).Contents (Elt Ideal)) (x1 : (⟨S2x800000, .i32⟩ : BufTy).Contents (Elt Ideal))
    (x2 : (⟨S384x256, .f32⟩ : BufTy).Contents (Elt Ideal)) (x3 x4 x5 : (⟨S256, .f32⟩ : BufTy).Contents (Elt Ideal))
    (x6 : (⟨S256x256, .f32⟩ : BufTy).Contents (Elt Ideal)) (x7 : (⟨S256, .f32⟩ : BufTy).Contents (Elt Ideal))
    (h0 : AllReal x0) (h2 : AllReal x2) (h3 : AllReal x3) (h4 : AllReal x4) (h5 : AllReal x5)
    (h6 : AllReal x6) (h7 : AllReal x7) :
    AllReal (val_main_v139 (F := Ideal) x0 x1 x2 x3 x4 x5 x6 x7) :=
  conv2_real x0 x1 x2 x3 x4 x5 x6 x7
    (xw2_real x0 x1 x2 x3 x4 x5 x6 (h1_real x0 x1 x2 x3 x4 x5 h0 h2 h3 h4 h5) h6) h7

end Cert.RefReal

end
-- ==== Proof.PreReal.lean ====
/-
  From the certificate's precondition to realness of every float argument.

  The precondition is, for each of the nine float arguments, the conjunction over all entries of the test
  |x| < +infinity, and the conjunction of the nine results; it is stated to be true. A conjunction that is true has only
  true members, and an extended real whose absolute value lies strictly below +infinity is neither infinity: it is a real
  number. The integer argument (the edge list) is not tested and nothing is said of it.
-/
import proofs.«100399_j30279519436917_1_alg».proof.Defs
import proofs.«100399_j30279519436917_1_alg».proof.Proof.Gen.Pre_finite_inputs
import proofs.«100399_j30279519436917_1_alg».proof.Proof.Reals
import Idealize.ShloMosaic.Lib.ReduceAll
import Idealize.ShloMosaic.Lib.ValueIdx

noncomputable section

namespace Cert.PreReal

open Idealize.ShloMosaic Idealize.SL.Sem Cert.Pre_finite_inputs Cert.Reals

/-- A rank-0 array has one index. -/
instance : Subsingleton S_.Idx := ⟨fun a b => funext fun d => d.elim0⟩

/-- An extended real whose absolute value lies strictly below the word of +infinity is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- One test of the precondition: an array whose entrywise comparison of the absolute value with +infinity reduces
    by conjunction to true has only real entries. -/
theorem allReal_of_all {S : Shape} {axes : List (Fin S.rank)} (x : FVec Ideal S .f32)
    (hb : S_.BroadcastsInDim S (![] : Fin 0 → Fin S.rank)) (hr : S.ReducesTo axes S_) (hu : 0 < S_.numel)
    (init : IVec S_ 1)
    (e : Host.reduce IntOp.andi
          (cmpf .olt (Host.absf x) (broadcastInDim S ![] hb (constant (F := Ideal) S_ .f32 0x7F800000#32)))
          init hr hu ValueIdx.ix0 = 1#1) :
    AllReal x := by
  intro i
  exact real_of_abs_lt_inf (x i) (Host.reduce_andi_all _ init hr hu ValueIdx.ix0 e i)

/-- The conjunction of two one-entry truth arrays, at the entry. -/
theorem andi_apply {s : Shape} {w : Nat} (x y : IVec s w) (i : s.Idx) : andi x y i = IntOp.andi (x i) (y i) := rfl

/-- The printed precondition over any nine float arrays and the integer one: if it is true, every float array is real. -/
theorem fn_real [hF : Facts] (a0 : FVec Ideal S100000x384 .f32) (a1 : IVec S2x800000 32) (a2 : FVec Ideal S384x256 .f32)
    (a3 a4 a5 : FVec Ideal S256 .f32) (a6 : FVec Ideal S256x256 .f32) (a7 a8 a9 : FVec Ideal S256 .f32)
    (h : fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8
      ∧ AllReal a9 := by
  have h0 := congrFun h ValueIdx.ix0
  dsimp only [fn, fn_part1, fn_part2] at h0
  simp only [andi_apply, IntOp.andi_eq_one] at h0
  obtain ⟨⟨⟨⟨⟨⟨⟨⟨e0, e2⟩, e3⟩, e4⟩, e5⟩, e6⟩, e7⟩, e8⟩, e9⟩ := h0
  exact ⟨allReal_of_all a0 _ _ _ _ e0, allReal_of_all a2 _ _ _ _ e2, allReal_of_all a3 _ _ _ _ e3,
    allReal_of_all a4 _ _ _ _ e4, allReal_of_all a5 _ _ _ _ e5, allReal_of_all a6 _ _ _ _ e6,
    allReal_of_all a7 _ _ _ _ e7, allReal_of_all a8 _ _ _ _ e8, allReal_of_all a9 _ _ _ _ e9⟩

/-- From the certificate's precondition on a memory to realness of each float argument, on every device. -/
theorem inputs_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8))
      ∧ AllReal (m ((c.tc : Thread Cert.KernelIdeal.nD Cert.KernelIdeal.τ).loc Cert.KernelIdeal.main_arg9)) :=
  fn_real (hF := Cert.Pre_finite_inputs.Gen.facts) _ _ _ _ _ _ _ _ _ _ (h c)

end Cert.PreReal

end
-- ==== Proof.Bridge.lean ====
/-
  The kernel's result is the reference's final stage of the same arguments.

  Under the certificate's precondition every float argument array holds real numbers. Then the pre-normalisation
  activations of both layers are real arrays (the reference-side walk), which is exactly what the variance identity
  E[y²] − (E[y])² = E[(y − E[y])²] needs in each layer. With it, boundary by boundary — region 0, the host stretch of
  gathers and scatter-adds, region 1 with its column sums, the mean and variance rows, region 2, region 3, and the same
  again for the second layer — the buffers of the idealized kernel hold the reference's stages, and the last region's
  output array is the reference's result.
-/
import proofs.«100399_j30279519436917_1_alg».proof.Proof.StitchL1a
import proofs.«100399_j30279519436917_1_alg».proof.Proof.StitchL1b
import proofs.«100399_j30279519436917_1_alg».proof.Proof.StitchL2a
import proofs.«100399_j30279519436917_1_alg».proof.Proof.StitchL2b
import proofs.«100399_j30279519436917_1_alg».proof.Proof.Region4
import proofs.«100399_j30279519436917_1_alg».proof.Proof.RefReal
import proofs.«100399_j30279519436917_1_alg».proof.Proof.PreReal

set_option quotPrecheck false

noncomputable section

namespace Cert.Bridge

open Idealize.ShloMosaic Idealize.ShloMosaic.ValueIdx Idealize.SL.Sem Idealize.ShloMosaic.TcCoe
open Cert.KernelIdeal Cert.KernelIdeal.Gen Cert.ReferenceIdeal.Read Cert.Reals Cert.Stitch

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-- Under the precondition the last region's output array is the reference's final stage of the arguments. -/
theorem result_eq (hpre : Cert.Pre_KernelIdeal (hPre_finite_inputs := Cert.Pre_finite_inputs.Gen.facts) m) :
    W11 m ρ c (Proc.devRef .tc main_v131) = val_main_v165 (F := Ideal) x0 x1 x2 x3 x4 x5 x6 x7 x8 x9 := by
  obtain ⟨r0, r2, r3, r4, r5, r6, r7, r8, r9⟩ := Cert.PreReal.inputs_real m hpre c
  have hy1 : AllReal (val_main_v58 (F := Ideal) x0 x1 x2 x3) := Cert.RefReal.y1_real x0 x1 x2 x3 r0 r2 r3
  have hy2 : AllReal (val_main_v139 (F := Ideal) x0 x1 x2 x3 x4 x5 x6 x7) :=
    Cert.RefReal.y2_real x0 x1 x2 x3 x4 x5 x6 x7 r0 r2 r3 r4 r5 r6 r7
  -- the first layer
  have e68 : W7 m ρ c (Proc.devRef .tc main_v68) = val_main_v85 (F := Ideal) x0 x1 x2 x3 x4 x5 x6 :=
    W7_v68 m ρ c (W4_y m ρ c) (W4_s m ρ c) (W4_ss m ρ c) (W4_arg4 m ρ c) (W4_arg5 m ρ c) hy1 (W6_arg6 m ρ c)
  -- the second layer
  have ey : W9 m ρ c (Proc.devRef .tc main_v118_0) = val_main_v139 (F := Ideal) x0 x1 x2 x3 x4 x5 x6 x7 :=
    W9_y m ρ c e68 (W7_v1 m ρ c) (W7_v3 m ρ c) (W7_arg7 m ρ c)
      (fun V c A H D B hA hH hD hB r q => Cert.KernelIdeal.Region4.out_y V c A H D B hA hH hD hB r q)
  have es := W9_s m ρ c e68 (W7_v1 m ρ c) (W7_v3 m ρ c) (W7_arg7 m ρ c)
      (fun V c A H D B hA hH hD hB q => Cert.KernelIdeal.Region4.out_sum V c A H D B hA hH hD hB q)
  have ess := W9_ss m ρ c e68 (W7_v1 m ρ c) (W7_v3 m ρ c) (W7_arg7 m ρ c)
      (fun V c A H D B hA hH hD hB q => Cert.KernelIdeal.Region4.out_sumsq V c A H D B hA hH hD hB q)
  exact W11_v131 m ρ c ey es ess (W9_arg8 m ρ c) (W9_arg9 m ρ c) hy2

end Cert.Bridge

end
-- ==== Proof.RefRunHand.lean ====
/-
  The reference program's run, read piece by piece.

  The reference is a straight line of 210 host operations. Its run ends with every buffer at the fold of the
  operations' results over the launch contents. That fold is read here without ever composing the whole line into one
  term: the line is cut into six consecutive pieces at the stages that later operations read (the edge rows and the
  first dense product; the first layer's activation before normalisation; the first layer's output; the second dense
  product; the second layer's activation; the result), and each piece is run from an ARBITRARY valuation that holds the
  earlier stages under their names. Each piece then leaves its own stage, a function of the arguments defined from the
  earlier stages' functions, and keeps the buffers it does not write. Chaining the six gives the result buffer at the
  last stage function of the arguments, with the arguments unchanged.
-/
import proofs.«100399_j30279519436917_1_alg».proof.Proof.RefOps
import proofs.«100399_j30279519436917_1_alg».proof.Proof.RefRead
import Idealize.ShloMosaic.Lib.StableHlo.Run

noncomputable section

namespace Cert.RefRun

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

/-- A valuation of the reference's buffers at the ideal instance. -/
abbrev Vl : Type := Valuation τ sig (Elt Ideal)
/-- A line of the reference's host operations at the ideal instance. -/
abbrev OpL : Type := List (HloOp τ sig (Elt Ideal))

/-- Running two lines one after the other is running their concatenation. -/
theorem after_append (l₁ l₂ : OpL) (V : Vl) : after (l₁ ++ l₂) V = after l₂ (after l₁ V) := by
  induction l₁ generalizing V with
  | nil => rfl
  | cons op l ih => exact ih _

/-- A line cut after its first n operations. -/
theorem after_split (n : Nat) (l : OpL) (V : Vl) : after l V = after (l.drop n) (after (l.take n) V) := by
  rw [← after_append, List.take_append_drop]

/-! ## The line, cut at the stages later operations read more than once

  The reference's 210 operations in six consecutive pieces: the edge rows and the first dense product; the first
  layer's activation before normalisation; the first layer's output; the second dense product; the second layer's
  activation before normalisation; the second layer's output. -/

/-- Operations 1–5: source rows, destination rows, first dense product. -/
def opsA : OpL := List.take 5 (ops (F := Ideal))
/-- Operations 6–74: the first layer's aggregate, self term and bias. -/
def opsB : OpL := List.take 69 (List.drop 5 (ops (F := Ideal)))
/-- Operations 75–107: the first layer's mean, variance, normalisation and rectifier. -/
def opsC : OpL := List.take 33 (List.drop 69 (List.drop 5 (ops (F := Ideal))))
/-- Operation 108: the second dense product. -/
def opsD : OpL := List.take 1 (List.drop 33 (List.drop 69 (List.drop 5 (ops (F := Ideal)))))
/-- Operations 109–177: the second layer's aggregate, self term and bias. -/
def opsE : OpL := List.take 69 (List.drop 1 (List.drop 33 (List.drop 69 (List.drop 5 (ops (F := Ideal))))))
/-- Operations 178–210: the second layer's mean, variance, normalisation and rectifier. -/
def opsF : OpL := List.drop 69 (List.drop 1 (List.drop 33 (List.drop 69 (List.drop 5 (ops (F := Ideal))))))

/-- The whole line is the six pieces in order. -/
theorem after_ops_eq (V : Vl) :
    after (ops (F := Ideal)) V = after opsF (after opsE (after opsD (after opsC (after opsB (after opsA V))))) :=
  (after_split 5 _ V).trans ((after_split 69 _ _).trans ((after_split 33 _ _).trans ((after_split 1 _ _).trans
    (after_split 69 _ _))))

set_option maxRecDepth 8192 in
set_option maxHeartbeats 4000000 in
/-- Buffers this piece does not write keep their contents. -/
theorem keepA (W : Vl) :
    after opsA W (Proc.devRef .tc main_arg0) = W (Proc.devRef .tc main_arg0)
      ∧ after opsA W (Proc.devRef .tc main_arg1) = W (Proc.devRef .tc main_arg1)
      ∧ after opsA W (Proc.devRef .tc main_arg2) = W (Proc.devRef .tc main_arg2)
      ∧ after opsA W (Proc.devRef .tc main_arg3) = W (Proc.devRef .tc main_arg3)
      ∧ after opsA W (Proc.devRef .tc main_arg4) = W (Proc.devRef .tc main_arg4)
      ∧ after opsA W (Proc.devRef .tc main_arg5) = W (Proc.devRef .tc main_arg5)
      ∧ after opsA W (Proc.devRef .tc main_arg6) = W (Proc.devRef .tc main_arg6)
      ∧ after opsA W (Proc.devRef .tc main_arg7) = W (Proc.devRef .tc main_arg7)
      ∧ after opsA W (Proc.devRef .tc main_arg8) = W (Proc.devRef .tc main_arg8)
      ∧ after opsA W (Proc.devRef .tc main_arg9) = W (Proc.devRef .tc main_arg9) := by
  simp only [opsA, ops, List.take_succ_cons, List.take_zero, List.drop_succ_cons, List.drop_zero]
  refine ⟨?_, ?_, ?_, ?_, ?_, ?_, ?_, ?_, ?_, ?_⟩ <;> after_results_simp

set_option maxRecDepth 8192 in
set_option maxHeartbeats 4000000 in
/-- Buffers this piece does not write keep their contents. -/
theorem keepB (W : Vl) :
    after opsB W (Proc.devRef .tc main_arg0) = W (Proc.devRef .tc main_arg0)
      ∧ after opsB W (Proc.devRef .tc main_arg1) = W (Proc.devRef .tc main_arg1)
      ∧ after opsB W (Proc.devRef .tc main_arg2) = W (Proc.devRef .tc main_arg2)
      ∧ after opsB W (Proc.devRef .tc main_arg3) = W (Proc.devRef .tc main_arg3)
      ∧ after opsB W (Proc.devRef .tc main_arg4) = W (Proc.devRef .tc main_arg4)
      ∧ after opsB W (Proc.devRef .tc main_arg5) = W (Proc.devRef .tc main_arg5)
      ∧ after opsB W (Proc.devRef .tc main_arg6) = W (Proc.devRef .tc main_arg6)
      ∧ after opsB W (Proc.devRef .tc main_arg7) = W (Proc.devRef .tc main_arg7)
      ∧ after opsB W (Proc.devRef .tc main_arg8) = W (Proc.devRef .tc main_arg8)
      ∧ after opsB W (Proc.devRef .tc main_arg9) = W (Proc.devRef .tc main_arg9)
      ∧ after opsB W (Proc.devRef .tc main_v1) = W (Proc.devRef .tc main_v1)
      ∧ after opsB W (Proc.devRef .tc main_v3) = W (Proc.devRef .tc main_v3) := by
  simp only [opsB, ops, List.take_succ_cons, List.take_zero, List.drop_succ_cons, List.drop_zero]
  refine ⟨?_, ?_, ?_, ?_, ?_, ?_, ?_, ?_, ?_, ?_, ?_, ?_⟩ <;> after_results_simp

set_option maxRecDepth 8192 in
set_option maxHeartbeats 4000000 in
/-- Buffers this piece does not write keep their contents. -/
theorem keepC (W : Vl) :
    after opsC W (Proc.devRef .tc main_arg0) = W (Proc.devRef .tc main_arg0)
      ∧ after opsC W (Proc.devRef .tc main_arg1) = W (Proc.devRef .tc main_arg1)
      ∧ after opsC W (Proc.devRef .tc main_arg2) = W (Proc.devRef .tc main_arg2)
      ∧ after opsC W (Proc.devRef .tc main_arg3) = W (Proc.devRef .tc main_arg3)
      ∧ after opsC W (Proc.devRef .tc main_arg4) = W (Proc.devRef .tc main_arg4)
      ∧ after opsC W (Proc.devRef .tc main_arg5) = W (Proc.devRef .tc main_arg5)
      ∧ after opsC W (Proc.devRef .tc main_arg6) = W (Proc.devRef .tc main_arg6)
      ∧ after opsC W (Proc.devRef .tc main_arg7) = W (Proc.devRef .tc main_arg7)
      ∧ after opsC W (Proc.devRef .tc main_arg8) = W (Proc.devRef .tc main_arg8)
      ∧ after opsC W (Proc.devRef .tc main_arg9) = W (Proc.devRef .tc main_arg9)
      ∧ after opsC W (Proc.devRef .tc main_v1) = W (Proc.devRef .tc main_v1)
      ∧ after opsC W (Proc.devRef .tc main_v3) = W (Proc.devRef .tc main_v3) := by
  simp only [opsC, ops, List.take_succ_cons, List.take_zero, List.drop_succ_cons, List.drop_zero]
  refine ⟨?_, ?_, ?_, ?_, ?_, ?_, ?_, ?_, ?_, ?_, ?_, ?_⟩ <;> after_results_simp

set_option maxRecDepth 8192 in
set_option maxHeartbeats 4000000 in
/-- Buffers this piece does not write keep their contents. -/
theorem keepD (W : Vl) :
    after opsD W (Proc.devRef .tc main_arg0) = W (Proc.devRef .tc main_arg0)
      ∧ after opsD W (Proc.devRef .tc main_arg1) = W (Proc.devRef .tc main_arg1)
      ∧ after opsD W (Proc.devRef .tc main_arg2) = W (Proc.devRef .tc main_arg2)
      ∧ after opsD W (Proc.devRef .tc main_arg3) = W (Proc.devRef .tc main_arg3)
      ∧ after opsD W (Proc.devRef .tc main_arg4) = W (Proc.devRef .tc main_arg4)
      ∧ after opsD W (Proc.devRef .tc main_arg5) = W (Proc.devRef .tc main_arg5)
      ∧ after opsD W (Proc.devRef .tc main_arg6) = W (Proc.devRef .tc main_arg6)
      ∧ after opsD W (Proc.devRef .tc main_arg7) = W (Proc.devRef .tc main_arg7)
      ∧ after opsD W (Proc.devRef .tc main_arg8) = W (Proc.devRef .tc main_arg8)
      ∧ after opsD W (Proc.devRef .tc main_arg9) = W (Proc.devRef .tc main_arg9)
      ∧ after opsD W (Proc.devRef .tc main_v1) = W (Proc.devRef .tc main_v1)
      ∧ after opsD W (Proc.devRef .tc main_v3) = W (Proc.devRef .tc main_v3) := by
  simp only [opsD, ops, List.take_succ_cons, List.take_zero, List.drop_succ_cons, List.drop_zero]
  refine ⟨?_, ?_, ?_, ?_, ?_, ?_, ?_, ?_, ?_, ?_, ?_, ?_⟩ <;> after_results_simp

set_option maxRecDepth 8192 in
set_option maxHeartbeats 4000000 in
/-- Buffers this piece does not write keep their contents. -/
theorem keepE (W : Vl) :
    after opsE W (Proc.devRef .tc main_arg0) = W (Proc.devRef .tc main_arg0)
      ∧ after opsE W (Proc.devRef .tc main_arg1) = W (Proc.devRef .tc main_arg1)
      ∧ after opsE W (Proc.devRef .tc main_arg2) = W (Proc.devRef .tc main_arg2)
      ∧ after opsE W (Proc.devRef .tc main_arg3) = W (Proc.devRef .tc main_arg3)
      ∧ after opsE W (Proc.devRef .tc main_arg4) = W (Proc.devRef .tc main_arg4)
      ∧ after opsE W (Proc.devRef .tc main_arg5) = W (Proc.devRef .tc main_arg5)
      ∧ after opsE W (Proc.devRef .tc main_arg6) = W (Proc.devRef .tc main_arg6)
      ∧ after opsE W (Proc.devRef .tc main_arg7) = W (Proc.devRef .tc main_arg7)
      ∧ after opsE W (Proc.devRef .tc main_arg8) = W (Proc.devRef .tc main_arg8)
      ∧ after opsE W (Proc.devRef .tc main_arg9) = W (Proc.devRef .tc main_arg9) := by
  simp only [opsE, ops, List.take_succ_cons, List.take_zero, List.drop_succ_cons, List.drop_zero]
  refine ⟨?_, ?_, ?_, ?_, ?_, ?_, ?_, ?_, ?_, ?_⟩ <;> after_results_simp

set_option maxRecDepth 8192 in
set_option maxHeartbeats 4000000 in
/-- Buffers this piece does not write keep their contents. -/
theorem keepF (W : Vl) :
    after opsF W (Proc.devRef .tc main_arg0) = W (Proc.devRef .tc main_arg0)
      ∧ after opsF W (Proc.devRef .tc main_arg1) = W (Proc.devRef .tc main_arg1)
      ∧ after opsF W (Proc.devRef .tc main_arg2) = W (Proc.devRef .tc main_arg2)
      ∧ after opsF W (Proc.devRef .tc main_arg3) = W (Proc.devRef .tc main_arg3)
      ∧ after opsF W (Proc.devRef .tc main_arg4) = W (Proc.devRef .tc main_arg4)
      ∧ after opsF W (Proc.devRef .tc main_arg5) = W (Proc.devRef .tc main_arg5)
      ∧ after opsF W (Proc.devRef .tc main_arg6) = W (Proc.devRef .tc main_arg6)
      ∧ after opsF W (Proc.devRef .tc main_arg7) = W (Proc.devRef .tc main_arg7)
      ∧ after opsF W (Proc.devRef .tc main_arg8) = W (Proc.devRef .tc main_arg8)
      ∧ after opsF W (Proc.devRef .tc main_arg9) = W (Proc.devRef .tc main_arg9) := by
  simp only [opsF, ops, List.take_succ_cons, List.take_zero, List.drop_succ_cons, List.drop_zero]
  refine ⟨?_, ?_, ?_, ?_, ?_, ?_, ?_, ?_, ?_, ?_⟩ <;> after_results_simp

set_option maxRecDepth 8192 in
/-- After the first piece: the two edge rows and the first dense product. -/
theorem stageA (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal))
    (h0 : W (Proc.devRef .tc main_arg0) = x0) (h1 : W (Proc.devRef .tc main_arg1) = x1) (h2 : W (Proc.devRef .tc main_arg2) = x2) :
    after opsA W (Proc.devRef .tc main_v1) = val_main_v1 (F := Ideal) x1
      ∧ after opsA W (Proc.devRef .tc main_v3) = val_main_v3 (F := Ideal) x1
      ∧ after opsA W (Proc.devRef .tc main_v4) = val_main_v4 (F := Ideal) x0 x2 := by
  simp only [opsA, ops, List.take_succ_cons, List.take_zero, List.drop_succ_cons, List.drop_zero]
  refine ⟨?_, ?_, ?_⟩
  · after_results_simp; rw [h1]; rfl
  · after_results_simp; rw [h1]; rfl
  · after_results_simp; rw [h0, h2]; rfl

set_option maxRecDepth 8192 in
/-- After the second piece, from a valuation holding the edge rows and the first product: the first layer's
    activation before normalisation. -/
theorem stageB (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal))
    (h1 : W (Proc.devRef .tc main_v1) = val_main_v1 (F := Ideal) x1) (h3 : W (Proc.devRef .tc main_v3) = val_main_v3 (F := Ideal) x1)
    (h4 : W (Proc.devRef .tc main_v4) = val_main_v4 (F := Ideal) x0 x2) (ha3 : W (Proc.devRef .tc main_arg3) = x3) :
    after opsB W (Proc.devRef .tc main_v58) = val_main_v58 (F := Ideal) x0 x1 x2 x3 := by
  simp only [opsB, ops, List.take_succ_cons, List.take_zero, List.drop_succ_cons, List.drop_zero]
  after_results_simp; rw [h1, h3, h4, ha3]; rfl

set_option maxRecDepth 8192 in
/-- After the third piece, from a valuation holding the first layer's activation: the first layer's output. -/
theorem stageC (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal))
    (h58 : W (Proc.devRef .tc main_v58) = val_main_v58 (F := Ideal) x0 x1 x2 x3)
    (ha4 : W (Proc.devRef .tc main_arg4) = x4) (ha5 : W (Proc.devRef .tc main_arg5) = x5) :
    after opsC W (Proc.devRef .tc main_v84) = val_main_v84 (F := Ideal) x0 x1 x2 x3 x4 x5 := by
  simp only [opsC, ops, List.take_succ_cons, List.take_zero, List.drop_succ_cons, List.drop_zero]
  after_results_simp; rw [h58, ha4, ha5]; rfl

set_option maxRecDepth 8192 in
/-- After the fourth piece, from a valuation holding the first layer's output: the second dense product. -/
theorem stageD (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal))
    (h84 : W (Proc.devRef .tc main_v84) = val_main_v84 (F := Ideal) x0 x1 x2 x3 x4 x5) (ha6 : W (Proc.devRef .tc main_arg6) = x6) :
    after opsD W (Proc.devRef .tc main_v85) = val_main_v85 (F := Ideal) x0 x1 x2 x3 x4 x5 x6 := by
  simp only [opsD, ops, List.take_succ_cons, List.take_zero, List.drop_succ_cons, List.drop_zero]
  after_results_simp; rw [h84, ha6]; rfl

set_option maxRecDepth 8192 in
/-- After the fifth piece, from a valuation holding the edge rows and the second product: the second layer's
    activation before normalisation. -/
theorem stageE (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (h1 : W (Proc.devRef .tc main_v1) = val_main_v1 (F := Ideal) x1) (h3 : W (Proc.devRef .tc main_v3) = val_main_v3 (F := Ideal) x1)
    (h85 : W (Proc.devRef .tc main_v85) = val_main_v85 (F := Ideal) x0 x1 x2 x3 x4 x5 x6) (ha7 : W (Proc.devRef .tc main_arg7) = x7) :
    after opsE W (Proc.devRef .tc main_v139) = val_main_v139 (F := Ideal) x0 x1 x2 x3 x4 x5 x6 x7 := by
  simp only [opsE, ops, List.take_succ_cons, List.take_zero, List.drop_succ_cons, List.drop_zero]
  after_results_simp; rw [h1, h3, h85, ha7]; rfl

set_option maxRecDepth 8192 in
/-- After the last piece, from a valuation holding the second layer's activation: the result. -/
theorem stageF (W : Vl) (x0 : (⟨S100000x384, .f32⟩ : BufTy).Contents (Elt Ideal)) (x1 : (⟨S2x800000, .i32⟩ : BufTy).Contents (Elt Ideal)) (x2 : (⟨S384x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal))
    (h139 : W (Proc.devRef .tc main_v139) = val_main_v139 (F := Ideal) x0 x1 x2 x3 x4 x5 x6 x7)
    (ha8 : W (Proc.devRef .tc main_arg8) = x8) (ha9 : W (Proc.devRef .tc main_arg9) = x9) :
    after opsF W (Proc.devRef .tc main_v165) = val_main_v165 (F := Ideal) x0 x1 x2 x3 x4 x5 x6 x7 x8 x9 := by
  simp only [opsF, ops, List.take_succ_cons, List.take_zero, List.drop_succ_cons, List.drop_zero]
  after_results_simp; rw [h139, ha8, ha9]; rfl

/-! ## The whole line -/

/-- From any valuation, the line leaves the last stage of the arguments in the result buffer and the arguments where
    they were: the six pieces in turn, each reading the earlier stages by name. -/
theorem after_ops (V : Vl) :
    after (ops (F := Ideal)) V (Proc.devRef .tc main_v165)
        = val_main_v165 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
      ∧ after (ops (F := Ideal)) V (Proc.devRef .tc main_arg0) = V (Proc.devRef .tc main_arg0)
      ∧ after (ops (F := Ideal)) V (Proc.devRef .tc main_arg1) = V (Proc.devRef .tc main_arg1)
      ∧ after (ops (F := Ideal)) V (Proc.devRef .tc main_arg2) = V (Proc.devRef .tc main_arg2)
      ∧ after (ops (F := Ideal)) V (Proc.devRef .tc main_arg3) = V (Proc.devRef .tc main_arg3)
      ∧ after (ops (F := Ideal)) V (Proc.devRef .tc main_arg4) = V (Proc.devRef .tc main_arg4)
      ∧ after (ops (F := Ideal)) V (Proc.devRef .tc main_arg5) = V (Proc.devRef .tc main_arg5)
      ∧ after (ops (F := Ideal)) V (Proc.devRef .tc main_arg6) = V (Proc.devRef .tc main_arg6)
      ∧ after (ops (F := Ideal)) V (Proc.devRef .tc main_arg7) = V (Proc.devRef .tc main_arg7)
      ∧ after (ops (F := Ideal)) V (Proc.devRef .tc main_arg8) = V (Proc.devRef .tc main_arg8)
      ∧ after (ops (F := Ideal)) V (Proc.devRef .tc main_arg9) = V (Proc.devRef .tc main_arg9) := by
  rw [after_ops_eq]
  obtain ⟨kA0, kA1, kA2, kA3, kA4, kA5, kA6, kA7, kA8, kA9⟩ := keepA V
  obtain ⟨sA1, sA3, sA4⟩ := stageA V (V (Proc.devRef .tc main_arg0)) (V (Proc.devRef .tc main_arg1)) (V (Proc.devRef .tc main_arg2)) rfl rfl rfl
  obtain ⟨kB0, kB1, kB2, kB3, kB4, kB5, kB6, kB7, kB8, kB9, kBv1, kBv3⟩ := keepB (after opsA V)
  have sB := stageB (after opsA V) (V (Proc.devRef .tc main_arg0)) (V (Proc.devRef .tc main_arg1)) (V (Proc.devRef .tc main_arg2)) (V (Proc.devRef .tc main_arg3)) sA1 sA3 sA4 kA3
  obtain ⟨kC0, kC1, kC2, kC3, kC4, kC5, kC6, kC7, kC8, kC9, kCv1, kCv3⟩ := keepC (after opsB (after opsA V))
  have sC := stageC (after opsB (after opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) sB (kB4.trans kA4) (kB5.trans kA5)
  obtain ⟨kD0, kD1, kD2, kD3, kD4, kD5, kD6, kD7, kD8, kD9, kDv1, kDv3⟩ := keepD (after opsC (after opsB (after opsA V)))
  have sD := stageD (after opsC (after opsB (after opsA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) sC (kC6.trans (kB6.trans kA6))
  obtain ⟨kE0, kE1, kE2, kE3, kE4, kE5, kE6, kE7, kE8, kE9⟩ := keepE (after opsD (after opsC (after opsB (after opsA V))))
  have sE := stageE (after opsD (after opsC (after opsB (after opsA V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    (kDv1.trans (kCv1.trans (kBv1.trans sA1))) (kDv3.trans (kCv3.trans (kBv3.trans sA3))) sD (kD7.trans (kC7.trans (kB7.trans kA7)))
  obtain ⟨kF0, kF1, kF2, kF3, kF4, kF5, kF6, kF7, kF8, kF9⟩ := keepF (after opsE (after opsD (after opsC (after opsB (after opsA V)))))
  have sF := stageF (after opsE (after opsD (after opsC (after opsB (after opsA V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) sE
    (kE8.trans (kD8.trans (kC8.trans (kB8.trans kA8)))) (kE9.trans (kD9.trans (kC9.trans (kB9.trans kA9))))
  exact ⟨sF, kF0.trans (kE0.trans (kD0.trans (kC0.trans (kB0.trans kA0)))),
    kF1.trans (kE1.trans (kD1.trans (kC1.trans (kB1.trans kA1)))),
    kF2.trans (kE2.trans (kD2.trans (kC2.trans (kB2.trans kA2)))),
    kF3.trans (kE3.trans (kD3.trans (kC3.trans (kB3.trans kA3)))),
    kF4.trans (kE4.trans (kD4.trans (kC4.trans (kB4.trans kA4)))),
    kF5.trans (kE5.trans (kD5.trans (kC5.trans (kB5.trans kA5)))),
    kF6.trans (kE6.trans (kD6.trans (kC6.trans (kB6.trans kA6)))),
    kF7.trans (kE7.trans (kD7.trans (kC7.trans (kB7.trans kA7)))),
    kF8.trans (kE8.trans (kD8.trans (kC8.trans (kB8.trans kA8)))),
    kF9.trans (kE9.trans (kD9.trans (kC9.trans (kB9.trans kA9))))⟩

/-- On every device, from any memory with zero counters: every weakly fair execution of the reference terminates with
    the result buffer at the last stage function of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v165)
          = val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨e, e0, e1, e2, e3, e4, e5, e6, e7, e8, e9⟩ := after_ops (launchContents m c)
      exact ⟨(h c main_v165).trans e, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9⟩)
    (run_seq scopedRefs_eq scopedSems_eq defs main (fun _ => ops) main_eq (fun _ => ops_sub) m ρ)

end Cert.RefRun

end
-- ==== Proof.lean ====
/-
  A two-layer graph-convolution encoder with batch normalisation: a Pallas kernel of six regions (per layer: a dense
  product of the features with a weight matrix, a combine step fused with the column statistics, a normalise-and-clip
  step) with the edge gathers and scatter-adds left to host operations between them, against a plain jnp reference.

  At the ideal instance both programs compute, per layer on features h = x · W:
      deg  = 1 + the number of edges arriving at each node,
      agg  = for every edge, the source's feature row scaled by rsqrt(deg source) · rsqrt(deg destination), summed at the
             destination,
      y    = (agg + h / deg) + b,
      out  = max(γ · (y − mean y) · rsqrt(var y + ε) + β, 0),      the mean and variance over the 100000 nodes, column by column.
  The host operations between the kernel's regions are the reference's own, and the kernel's matrix products, column sums
  and broadcasts are the reference's sums read blockwise, so the programs differ in ONE place: the kernel takes the
  variance as E[y²] − (E[y])² from the two column sums its combine step accumulates, the reference as E[(y − E[y])²].
  The two agree when every entry of y is a real number and disagree at infinite entries; so the precondition — every
  float argument finite — is USED: it makes every stage up to y real in the first layer, hence (the variance plus a
  positive ε being positive) the first layer's output real, hence y real in the second layer.

  The three frames are the generated frame certificates and the reference's run; the idealization rewrote nothing, so
  `preserves` asks for nothing; `algebraic` pairs the kernel's run, whose result buffer ends at the last boundary's
  contents, with the reference's run, whose result is its final stage of the same arguments.
-/
import proofs.«100399_j30279519436917_1_alg».proof.Defs
import proofs.«100399_j30279519436917_1_alg».proof.Proof.Gen.Kernel
import proofs.«100399_j30279519436917_1_alg».proof.Proof.Gen.Kernel.Frame
import proofs.«100399_j30279519436917_1_alg».proof.Proof.Gen.KernelIdeal
import proofs.«100399_j30279519436917_1_alg».proof.Proof.Gen.KernelIdeal.Frame
import proofs.«100399_j30279519436917_1_alg».proof.Proof.Gen.ReferenceIdeal
import proofs.«100399_j30279519436917_1_alg».proof.Proof.Gen.Pre_finite_inputs
import proofs.«100399_j30279519436917_1_alg».proof.Proof.KernelRun
import proofs.«100399_j30279519436917_1_alg».proof.Proof.Bridge
import proofs.«100399_j30279519436917_1_alg».proof.Proof.RefRunHand
import Idealize.ShloMosaic.Adequacy
import Idealize.ShloMosaic.Init

noncomputable section

namespace Cert.Proof

open Idealize.ShloMosaic Idealize.SL.Sem Idealize.ShloMosaic.TcCoe

/-- The word-level kernel terminates without a fault and leaves its arguments as launched. -/
theorem frame_p : Cert.frame_Kernel (hKernel := Cert.Kernel.Gen.facts) (hPre_finite_inputs := Cert.Pre_finite_inputs.Gen.facts) :=
  fun m ρ _ => Cert.Kernel.Gen.frame m ρ

/-- So does the idealized kernel. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

/-- The idealization rewrote no operation. -/
theorem preserves : Cert.preserves_Kernel_KernelIdeal := trivial

/-- From memories that agree on the arguments, under the precondition, both programs end with the same result: the
    kernel's last region leaves the reference's final stage of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v131), Cert.KernelIdeal.ResultRun.run_result m ρ, ?_⟩
  refine (θ_run Cert.ReferenceIdeal.defs _ _).mono (fun _ h c => ⟨(h c).1.trans ?_, (h c).2⟩) (Cert.RefRun.run m' ρ')
  obtain ⟨a0, a1, a2, a3, a4, a5, a6, a7, a8, a9⟩ := hagree c
  rw [a0, a1, a2, a3, a4, a5, a6, a7, a8, a9]
  exact (Cert.Bridge.result_eq m ρ c hpre).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
